-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x192x512 : Shape := ⟨3, ![1024, 192, 512]⟩
abbrev S1024x192 : Shape := ⟨2, ![1024, 192]⟩
abbrev S64x512 : Shape := ⟨2, ![64, 512]⟩
abbrev S3x512 : Shape := ⟨2, ![3, 512]⟩
abbrev S512 : Shape := ⟨1, ![512]⟩
abbrev S_ : Shape := ⟨0, ![]⟩

class Facts : Prop where
  bcast_S_S1024x192x512 : S_.BroadcastsInDim S1024x192x512 (![] : Fin 0 → Fin S1024x192x512.rank)
  reducesTo_S1024x192x512_S_d0_1_2 : S1024x192x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S1024x192x512 .f32) (main_arg1 : IVec S1024x192 32) (main_arg2 : FVec F S64x512 .f32) (main_arg3 : FVec F S3x512 .f32) (main_arg4 : FVec F S64x512 .f32) (main_arg5 : FVec F S512 .f32) (main_arg6 : FVec F S512 .f32) : IVec S_ 1 :=
  let main_v0 : FVec F S1024x192x512 .f32 := Host.absf main_arg0
  let main_cst : FVec F S_ .f32 := constant S_ .f32 0x7F800000#32
  let main_v1 : FVec F S1024x192x512 .f32 := broadcastInDim S1024x192x512 ![] bcast_S_S1024x192x512 main_cst
  let main_v2 : IVec S1024x192x512 1 := cmpf .olt main_v0 main_v1
  let main_c : IVec S_ 1 := constantI S_ 1 1#1
  let main_v3 : IVec S_ 1 := (fun x v => Host.reduce IntOp.andi x v reducesTo_S1024x192x512_S_d0_1_2 h_S_) main_v2 main_c
  let main_v4 : FVec F S64x512 .f32 := Host.absf main_arg2
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S3x512 .f32 := Host.absf main_arg3
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S64x512 .f32 := Host.absf main_arg4
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg5 main_arg6 main_v13 main_v16
-- ==== Kernel.lean ====
abbrev S1024x192x512 : Shape := ⟨3, ![1024, 192, 512]⟩
abbrev S1024x192 : Shape := ⟨2, ![1024, 192]⟩
abbrev S64x512 : Shape := ⟨2, ![64, 512]⟩
abbrev S3x512 : Shape := ⟨2, ![3, 512]⟩
abbrev S512 : Shape := ⟨1, ![512]⟩
abbrev S_ : Shape := ⟨0, ![]⟩
abbrev S1024 : Shape := ⟨1, ![1024]⟩
abbrev S192 : Shape := ⟨1, ![192]⟩
abbrev S1x192 : Shape := ⟨2, ![1, 192]⟩
abbrev S1024x1 : Shape := ⟨2, ![1024, 1]⟩
abbrev S8x192x512 : Shape := ⟨3, ![8, 192, 512]⟩
abbrev S8x192 : Shape := ⟨2, ![8, 192]⟩
abbrev S8x192x64 : Shape := ⟨3, ![8, 192, 64]⟩
abbrev S8x192x1 : Shape := ⟨3, ![8, 192, 1]⟩
abbrev S8x192x3 : Shape := ⟨3, ![8, 192, 3]⟩
abbrev S1536x64 : Shape := ⟨2, ![1536, 64]⟩
abbrev S1536x3 : Shape := ⟨2, ![1536, 3]⟩
abbrev S1536x512 : Shape := ⟨2, ![1536, 512]⟩
abbrev S1x1x512 : Shape := ⟨3, ![1, 1, 512]⟩

abbrev nBuf : Space → Nat
  | .hbm => 97
  | .vmem => 17
  | .smem => 0
  | _ => 0

abbrev bufTy : (tb : Table) → Fin (tcTables nBuf tb) → BufTy
  | .hbm, ⟨0, _⟩ => ⟨S1024x192x512, .f32⟩
  | .hbm, ⟨1, _⟩ => ⟨S1024x192, .i32⟩
  | .hbm, ⟨2, _⟩ => ⟨S64x512, .f32⟩
  | .hbm, ⟨3, _⟩ => ⟨S3x512, .f32⟩
  | .hbm, ⟨4, _⟩ => ⟨S64x512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S1024x192, .i32⟩
  | .hbm, ⟨9, _⟩ => ⟨S1024x192, .i1⟩
  | .hbm, ⟨10, _⟩ => ⟨S_, .i1⟩
  | .hbm, ⟨11, _⟩ => ⟨S1024, .i1⟩
  | .hbm, ⟨12, _⟩ => ⟨S1024x192, .i32⟩
  | .hbm, ⟨13, _⟩ => ⟨S_, .i1⟩
  | .hbm, ⟨14, _⟩ => ⟨S_, .i32⟩
  | .hbm, ⟨15, _⟩ => ⟨S1024, .i1⟩
  | .hbm, ⟨16, _⟩ => ⟨S1024, .i32⟩
  | .hbm, ⟨17, _⟩ => ⟨S1024x192, .i1⟩
  | .hbm, ⟨18, _⟩ => ⟨S1024x192, .i32⟩
  | .hbm, ⟨19, _⟩ => ⟨S_, .i1⟩
  | .hbm, ⟨20, _⟩ => ⟨S_, .i32⟩
  | .hbm, ⟨21, _⟩ => ⟨S1024, .i1⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S192, .i32⟩
  | .hbm, ⟨27, _⟩ => ⟨S1x192, .i32⟩
  | .hbm, ⟨28, _⟩ => ⟨S1024x1, .i32⟩
  | .hbm, ⟨29, _⟩ => ⟨S1024x192, .i32⟩
  | .hbm, ⟨30, _⟩ => ⟨S1024x192, .i32⟩
  | .hbm, ⟨31, _⟩ => ⟨S1024x192, .i32⟩
  | .hbm, ⟨32, _⟩ => ⟨S_, .i32⟩
  | .hbm, ⟨33, _⟩ => ⟨S1024x192, .i32⟩
  | .hbm, ⟨34, _⟩ => ⟨S1024x192, .i1⟩
  | .hbm, ⟨35, _⟩ => ⟨S1024x1, .i32⟩
  | .hbm, ⟨36, _⟩ => ⟨S1024x192, .i32⟩
  | .hbm, ⟨37, _⟩ => ⟨S1024x192, .i32⟩
  | .hbm, ⟨38, _⟩ => ⟨S1024x192, .i1⟩
  | .hbm, ⟨39, _⟩ => ⟨S1024x192, .i1⟩
  | .hbm, ⟨40, _⟩ => ⟨S1024x1, .i1⟩
  | .hbm, ⟨41, _⟩ => ⟨S1024x192, .i1⟩
  | .hbm, ⟨42, _⟩ => ⟨S1024x192, .i1⟩
  | .hbm, ⟨43, _⟩ => ⟨S_, .i32⟩
  | .hbm, ⟨44, _⟩ => ⟨S_, .i32⟩
  | .hbm, ⟨45, _⟩ => ⟨S1024x192, .i32⟩
  | .hbm, ⟨46, _⟩ => ⟨S1024x192, .i32⟩
  | .hbm, ⟨47, _⟩ => ⟨S_, .i32⟩
  | .hbm, ⟨48, _⟩ => ⟨S_, .i32⟩
  | .hbm, ⟨49, _⟩ => ⟨S1024x192, .i32⟩
  | .hbm, ⟨50, _⟩ => ⟨S1024x192, .i32⟩
  | .hbm, ⟨51, _⟩ => ⟨S1024x192, .i32⟩
  | .hbm, ⟨52, _⟩ => ⟨S_, .i32⟩
  | .hbm, ⟨53, _⟩ => ⟨S1024x192, .i32⟩
  | .hbm, ⟨54, _⟩ => ⟨S1024x192, .i1⟩
  | .hbm, ⟨55, _⟩ => ⟨S1024x192, .i32⟩
  | .hbm, ⟨56, _⟩ => ⟨S1024x192, .i32⟩
  | .hbm, ⟨57, _⟩ => ⟨S_, .i32⟩
  | .hbm, ⟨58, _⟩ => ⟨S1024x192, .i32⟩
  | .hbm, ⟨59, _⟩ => ⟨S1024x192, .i1⟩
  | .hbm, ⟨60, _⟩ => ⟨S1024x192, .i1⟩
  | .hbm, ⟨61, _⟩ => ⟨S_, .i32⟩
  | .hbm, ⟨62, _⟩ => ⟨S1024x192, .i32⟩
  | .hbm, ⟨63, _⟩ => ⟨S1024x192, .i32⟩
  | .hbm, ⟨64, _⟩ => ⟨S1024x192, .i32⟩
  | .hbm, ⟨65, _⟩ => ⟨S_, .i32⟩
  | .hbm, ⟨66, _⟩ => ⟨S_, .i32⟩
  | .hbm, ⟨67, _⟩ => ⟨S1024x192, .i32⟩
  | .hbm, ⟨68, _⟩ => ⟨S1024x192, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S1024x192, .i32⟩
  | .hbm, ⟨76, _⟩ => ⟨S1024x192, .i32⟩
  | .hbm, ⟨77, _⟩ => ⟨S_, .i32⟩
  | .hbm, ⟨78, _⟩ => ⟨S1024x192, .i32⟩
  | .hbm, ⟨79, _⟩ => ⟨S1024x192, .i1⟩
  | .hbm, ⟨80, _⟩ => ⟨S_, .i32⟩
  | .hbm, ⟨81, _⟩ => ⟨S1024x192, .i32⟩
  | .hbm, ⟨82, _⟩ => ⟨S1024x192, .i1⟩
  | .hbm, ⟨83, _⟩ => ⟨S_, .i32⟩
  | .hbm, ⟨84, _⟩ => ⟨S_, .i1⟩
  | .hbm, ⟨85, _⟩ => ⟨S1024x192, .i1⟩
  | .hbm, ⟨86, _⟩ => ⟨S1024x192, .i1⟩
  | .hbm, ⟨87, _⟩ => ⟨S1024x192, .i1⟩
  | .hbm, ⟨88, _⟩ => ⟨S1024x192, .i32⟩
  | .hbm, ⟨89, _⟩ => ⟨S1024x192, .i32⟩
  | .hbm, ⟨90, _⟩ => ⟨S1024x192, .i32⟩
  | .hbm, ⟨91, _⟩ => ⟨S_, .i32⟩
  | .hbm, ⟨92, _⟩ => ⟨S_, .i32⟩
  | .hbm, ⟨93, _⟩ => ⟨S1024x192, .i32⟩
  | .hbm, ⟨94, _⟩ => ⟨S1024x192, .i32⟩
  | .hbm, ⟨95, _⟩ => ⟨S1024x192, .i32⟩
  | .hbm, ⟨96, _⟩ => ⟨S1024x192x512, .f32⟩
  | .local _ .vmem, ⟨0, _⟩ => ⟨S8x192x512, .f32⟩
  | .local _ .vmem, ⟨1, _⟩ => ⟨S8x192x512, .f32⟩
  | .local _ .vmem, ⟨2, _⟩ => ⟨S8x192, .i32⟩
  | .local _ .vmem, ⟨3, _⟩ => ⟨S8x192, .i32⟩
  | .local _ .vmem, ⟨4, _⟩ => ⟨S8x192, .i32⟩
  | .local _ .vmem, ⟨5, _⟩ => ⟨S8x192, .i32⟩
  | .local _ .vmem, ⟨6, _⟩ => ⟨S8x192, .i32⟩
  | .local _ .vmem, ⟨7, _⟩ => ⟨S8x192, .i32⟩
  | .local _ .vmem, ⟨8, _⟩ => ⟨S8x192, .i32⟩
  | .local _ .vmem, ⟨9, _⟩ => ⟨S8x192, .i32⟩
  | .local _ .vmem, ⟨10, _⟩ => ⟨S64x512, .f32⟩
  | .local _ .vmem, ⟨11, _⟩ => ⟨S3x512, .f32⟩
  | .local _ .vmem, ⟨12, _⟩ => ⟨S64x512, .f32⟩
  | .local _ .vmem, ⟨13, _⟩ => ⟨S512, .f32⟩
  | .local _ .vmem, ⟨14, _⟩ => ⟨S512, .f32⟩
  | .local _ .vmem, ⟨15, _⟩ => ⟨S8x192x512, .f32⟩
  | .local _ .vmem, ⟨16, _⟩ => ⟨S8x192x512, .f32⟩
  | _, _ => ⟨S1024x192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_c : Ref sig .tc := ⟨.hbm, 19, rfl⟩
abbrev main_call1_c_0 : Ref sig .tc := ⟨.hbm, 20, rfl⟩
abbrev main_call1_v1_0 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_v24 : Ref sig .tc := ⟨.hbm, 46, rfl⟩
abbrev main_c_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v25 : Ref sig .tc := ⟨.hbm, 64, rfl⟩
abbrev main_c_5 : Ref sig .tc := ⟨.hbm, 65, rfl⟩
abbrev main_call4_v0 : Ref sig .tc := ⟨.hbm, 66, rfl⟩
abbrev main_call4_v1 : Ref sig .tc := ⟨.hbm, 67, rfl⟩
abbrev main_v26 : Ref sig .tc := ⟨.hbm, 68, rfl⟩
abbrev main_c_6 : Ref sig .tc := ⟨.hbm, 69, rfl⟩
abbrev main_call5_v0 : Ref sig .tc := ⟨.hbm, 70, rfl⟩
abbrev main_call5_c : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_c_1 : Ref sig .tc := ⟨.hbm, 77, rfl⟩
abbrev main_call5_v5 : Ref sig .tc := ⟨.hbm, 78, rfl⟩
abbrev main_call5_v6 : Ref sig .tc := ⟨.hbm, 79, rfl⟩
abbrev main_call5_c_2 : Ref sig .tc := ⟨.hbm, 80, rfl⟩
abbrev main_call5_v7 : Ref sig .tc := ⟨.hbm, 81, rfl⟩
abbrev main_call5_v8 : Ref sig .tc := ⟨.hbm, 82, rfl⟩
abbrev main_call5_c_3 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_v12 : Ref sig .tc := ⟨.hbm, 87, rfl⟩
abbrev main_call5_v13 : Ref sig .tc := ⟨.hbm, 88, rfl⟩
abbrev main_call5_v14 : Ref sig .tc := ⟨.hbm, 89, rfl⟩
abbrev main_v27 : Ref sig .tc := ⟨.hbm, 90, rfl⟩
abbrev main_c_7 : Ref sig .tc := ⟨.hbm, 91, rfl⟩
abbrev main_call6_v0 : Ref sig .tc := ⟨.hbm, 92, rfl⟩
abbrev main_call6_v1 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x192 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x192x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1024x192 : S_.BroadcastsInDim S1024x192 (![] : Fin 0 → Fin S1024x192.rank)
  reducesTo_S1024x192_S1024_d1 : S1024x192.ReducesTo [1] S1024
  h_S_ : 0 < S_.numel
  bcast_S_S1024 : S_.BroadcastsInDim S1024 (![] : Fin 0 → Fin S1024.rank)
  bcast_S192_S1x192_1 : S192.BroadcastsInDim S1x192 (![1] : Fin 1 → Fin S1x192.rank)
  bcast_S1024_S1024x1_0 : S1024.BroadcastsInDim S1024x1 (![0] : Fin 1 → Fin S1024x1.rank)
  bcast_S1x192_S1024x192_0_1 : S1x192.BroadcastsInDim S1024x192 (![0, 1] : Fin 2 → Fin S1024x192.rank)
  bcast_S1024x1_S1024x192_0_1 : S1024x1.BroadcastsInDim S1024x192 (![0, 1] : Fin 2 → Fin S1024x192.rank)
  natLt_1_32 : 1 < 32
  inb_S8x192_S8x192_0_0 : ∀ a, (![0, 0] : Fin 2 → Nat) a + S8x192.size a ≤ S8x192.size a
  h_S8x192 : 0 < S8x192.numel
  shapeCasts_S8x192_S8x192 : S8x192.ShapeCasts S8x192
  iota_S8x192x64_d2_w32 : S8x192x64.Iotas .tc 32 [2]
  shapeCasts_S8x192_S8x192x1 : S8x192.ShapeCasts S8x192x1
  broadcasts_S8x192x1_S8x192x64 : S8x192x1.Broadcasts S8x192x64
  bitsLt_bf16_f32 : FTy.bits .bf16 < FTy.bits .f32
  iota_S8x192x3_d2_w32 : S8x192x3.Iotas .tc 32 [2]
  broadcasts_S8x192x1_S8x192x3 : S8x192x1.Broadcasts S8x192x3
  shapeCasts_S8x192x64_S1536x64 : S8x192x64.ShapeCasts S1536x64
  shapeCasts_S8x192x3_S1536x3 : S8x192x3.ShapeCasts S1536x3
  inb_S64x512_S64x512_0_0 : ∀ a, (![0, 0] : Fin 2 → Nat) a + S64x512.size a ≤ S64x512.size a
  h_S64x512 : 0 < S64x512.numel
  inb_S3x512_S3x512_0_0 : ∀ a, (![0, 0] : Fin 2 → Nat) a + S3x512.size a ≤ S3x512.size a
  h_S3x512 : 0 < S3x512.numel
  shapeCasts_S1536x512_S8x192x512 : S1536x512.ShapeCasts S8x192x512
  inb_S8x192x512_S8x192x512_0_0_0 : ∀ a, (![0, 0, 0] : Fin 3 → Nat) a + S8x192x512.size a ≤ S8x192x512.size a
  h_S8x192x512 : 0 < S8x192x512.numel
  broadcasts_S8x192x1_S8x192x512 : S8x192x1.Broadcasts S8x192x512
  reduces_S8x192x512_S8x192 : S8x192x512.Reduces [2] S8x192
  inb_S512_S512_0 : ∀ a, (![0] : Fin 1 → Nat) a + S512.size a ≤ S512.size a
  h_S512 : 0 < S512.numel
  shapeCasts_S512_S1x1x512 : S512.ShapeCasts S1x1x512
  broadcasts_S1x1x512_S8x192x512 : S1x1x512.Broadcasts S8x192x512
  dot_S1536x64_S64x512_S1536x512_1_0_0_1_n_n_wf : DotDims.WF S1536x64 S64x512 S1536x512 [1] [0] [0] [1] [] []
  dot_S1536x3_S3x512_S1536x512_1_0_0_1_n_n_wf : DotDims.WF S1536x3 S3x512 S1536x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x192x512.size a ≤ S1024x192x512.size a
  hwx0_0 : ∀ i : grid0.Coords, EltTy.bits .f32 = 32 ∨ (Rect.block (s := S1024x192x512) S8x192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x192.size a ≤ S1024x192.size a
  hwx0_1 : ∀ i : grid0.Coords, EltTy.bits .i32 = 32 ∨ (Rect.block (s := S1024x192) S8x192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x192.size a ≤ S1024x192.size a
  hwx0_2 : ∀ i : grid0.Coords, EltTy.bits .i32 = 32 ∨ (Rect.block (s := S1024x192) S8x192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x192.size a ≤ S1024x192.size a
  hwx0_3 : ∀ i : grid0.Coords, EltTy.bits .i32 = 32 ∨ (Rect.block (s := S1024x192) S8x192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x192.size a ≤ S1024x192.size a
  hwx0_4 : ∀ i : grid0.Coords, EltTy.bits .i32 = 32 ∨ (Rect.block (s := S1024x192) S8x192.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512.size a ≤ S3x512.size a
  hwx0_6 : ∀ i : grid0.Coords, EltTy.bits .f32 = 32 ∨ (Rect.block (s := S3x512) S3x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x512.size a
  hwx0_7 : ∀ i : grid0.Coords, EltTy.bits .f32 = 32 ∨ (Rect.block (s := S64x512) S64x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x192x512.size a ≤ S1024x192x512.size a
  hwx0_10 : ∀ i : grid0.Coords, EltTy.bits .f32 = 32 ∨ (Rect.block (s := S1024x192x512) S8x192x512.size (cc0_transform_10 i) (hinb0_10 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S1536x64_S64x512_S1536x512_1_0_0_1_n_n : DotDims S1536x64 S64x512 S1536x512 where
  lhsContracting := [1]
  rhsContracting := [0]
  lhsNonContracting := [0]
  rhsNonContracting := [1]
  lhsBatch := []
  rhsBatch := []
  wf := dot_S1536x64_S64x512_S1536x512_1_0_0_1_n_n_wf
def dot_S1536x3_S3x512_S1536x512_1_0_0_1_n_n : DotDims S1536x3 S3x512 S1536x512 where
  lhsContracting := [1]
  rhsContracting := [0]
  lhsNonContracting := [0]
  rhsNonContracting := [1]
  lhsBatch := []
  rhsBatch := []
  wf := dot_S1536x3_S3x512_S1536x512_1_0_0_1_n_n_wf

abbrev win0_0 : Pipeline.Window sig grid0 :=
  Pipeline.Window.ofSpec (Memref.whole main_arg0) S8x192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S8x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S8x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S8x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S3x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S8x192x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x192x512 : Shape := ⟨3, ![1024, 192, 512]⟩
abbrev S1024x192 : Shape := ⟨2, ![1024, 192]⟩
abbrev S64x512 : Shape := ⟨2, ![64, 512]⟩
abbrev S3x512 : Shape := ⟨2, ![3, 512]⟩
abbrev S512 : Shape := ⟨1, ![512]⟩
abbrev S_ : Shape := ⟨0, ![]⟩
abbrev S1024 : Shape := ⟨1, ![1024]⟩
abbrev S192 : Shape := ⟨1, ![192]⟩
abbrev S1x192 : Shape := ⟨2, ![1, 192]⟩
abbrev S1024x1 : Shape := ⟨2, ![1024, 1]⟩
abbrev S1024x192x1 : Shape := ⟨3, ![1024, 192, 1]⟩
abbrev S1x1x512 : Shape := ⟨3, ![1, 1, 512]⟩

abbrev nBuf : Space → Nat
  | .hbm => 164
  | .vmem => 0
  | .smem => 0
  | _ => 0

abbrev hbmTy0_0 (i : Nat) : BufTy := match i % 128 with
  | 0 => ⟨S1024x192x512, .f32⟩
  | 1 => ⟨S1024x192, .i32⟩
  | 2 => ⟨S64x512, .f32⟩
  | 3 => ⟨S3x512, .f32⟩
  | 4 => ⟨S64x512, .f32⟩
  | 5 => ⟨S512, .f32⟩
  | 6 => ⟨S512, .f32⟩
  | 7 => ⟨S_, .i32⟩
  | 8 => ⟨S1024x192, .i32⟩
  | 9 => ⟨S1024x192, .i1⟩
  | 10 => ⟨S_, .i1⟩
  | 11 => ⟨S1024, .i1⟩
  | 12 => ⟨S1024x192, .i32⟩
  | 13 => ⟨S_, .i1⟩
  | 14 => ⟨S_, .i32⟩
  | 15 => ⟨S1024, .i1⟩
  | 16 => ⟨S1024, .i32⟩
  | 17 => ⟨S1024x192, .i1⟩
  | 18 => ⟨S1024x192, .i32⟩
  | 19 => ⟨S_, .i1⟩
  | 20 => ⟨S_, .i32⟩
  | 21 => ⟨S1024, .i1⟩
  | 22 => ⟨S1024, .i32⟩
  | 23 => ⟨S_, .i32⟩
  | 24 => ⟨S1024, .i32⟩
  | 25 => ⟨S1024, .i32⟩
  | 26 => ⟨S192, .i32⟩
  | 27 => ⟨S1x192, .i32⟩
  | 28 => ⟨S1024x1, .i32⟩
  | 29 => ⟨S1024x192, .i32⟩
  | 30 => ⟨S1024x192, .i32⟩
  | 31 => ⟨S1024x192, .i32⟩
  | 32 => ⟨S_, .i32⟩
  | 33 => ⟨S1024x192, .i32⟩
  | 34 => ⟨S1024x192, .i1⟩
  | 35 => ⟨S1024x1, .i32⟩
  | 36 => ⟨S1024x192, .i32⟩
  | 37 => ⟨S1024x192, .i32⟩
  | 38 => ⟨S1024x192, .i1⟩
  | 39 => ⟨S1024x192, .i1⟩
  | 40 => ⟨S1024x1, .i1⟩
  | 41 => ⟨S1024x192, .i1⟩
  | 42 => ⟨S1024x192, .i1⟩
  | 43 => ⟨S_, .i32⟩
  | 44 => ⟨S_, .i32⟩
  | 45 => ⟨S1024x192, .i32⟩
  | 46 => ⟨S1024x192, .i32⟩
  | 47 => ⟨S_, .i32⟩
  | 48 => ⟨S_, .i32⟩
  | 49 => ⟨S1024x192, .i32⟩
  | 50 => ⟨S1024x192, .i32⟩
  | 51 => ⟨S1024x192, .i32⟩
  | 52 => ⟨S_, .i32⟩
  | 53 => ⟨S1024x192, .i32⟩
  | 54 => ⟨S1024x192, .i1⟩
  | 55 => ⟨S1024x192, .i32⟩
  | 56 => ⟨S1024x192, .i32⟩
  | 57 => ⟨S_, .i32⟩
  | 58 => ⟨S1024x192, .i32⟩
  | 59 => ⟨S1024x192, .i1⟩
  | 60 => ⟨S1024x192, .i1⟩
  | 61 => ⟨S_, .i32⟩
  | 62 => ⟨S1024x192, .i32⟩
  | 63 => ⟨S1024x192, .i32⟩
  | 64 => ⟨S1024x192, .i32⟩
  | 65 => ⟨S_, .i32⟩
  | 66 => ⟨S_, .i32⟩
  | 67 => ⟨S1024x192, .i32⟩
  | 68 => ⟨S1024x192, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S1024x192, .i32⟩
  | 76 => ⟨S1024x192, .i32⟩
  | 77 => ⟨S_, .i32⟩
  | 78 => ⟨S1024x192, .i32⟩
  | 79 => ⟨S1024x192, .i1⟩
  | 80 => ⟨S_, .i32⟩
  | 81 => ⟨S1024x192, .i32⟩
  | 82 => ⟨S1024x192, .i1⟩
  | 83 => ⟨S_, .i32⟩
  | 84 => ⟨S_, .i1⟩
  | 85 => ⟨S1024x192, .i1⟩
  | 86 => ⟨S1024x192, .i1⟩
  | 87 => ⟨S1024x192, .i1⟩
  | 88 => ⟨S1024x192, .i32⟩
  | 89 => ⟨S1024x192, .i32⟩
  | 90 => ⟨S1024x192, .i32⟩
  | 91 => ⟨S_, .i32⟩
  | 92 => ⟨S_, .i32⟩
  | 93 => ⟨S1024x192, .i32⟩
  | 94 => ⟨S1024x192, .i32⟩
  | 95 => ⟨S_, .i32⟩
  | 96 => ⟨S1024x192, .i32⟩
  | 97 => ⟨S1024x192, .i1⟩
  | 98 => ⟨S_, .i32⟩
  | 99 => ⟨S1024x192, .i32⟩
  | 100 => ⟨S1024x192, .i32⟩
  | 101 => ⟨S1024x192, .i32⟩
  | 102 => ⟨S1024x192x1, .i32⟩
  | 103 => ⟨S1024x192x512, .f32⟩
  | 104 => ⟨S_, .i32⟩
  | 105 => ⟨S1024x192, .i32⟩
  | 106 => ⟨S1024x192, .i1⟩
  | 107 => ⟨S_, .i32⟩
  | 108 => ⟨S1024x192, .i32⟩
  | 109 => ⟨S1024x192, .i32⟩
  | 110 => ⟨S1024x192, .i32⟩
  | 111 => ⟨S1024x192x1, .i32⟩
  | 112 => ⟨S1024x192x512, .f32⟩
  | 113 => ⟨S1024x192x512, .f32⟩
  | 114 => ⟨S_, .i32⟩
  | 115 => ⟨S1024x192, .i32⟩
  | 116 => ⟨S1024x192, .i1⟩
  | 117 => ⟨S_, .i32⟩
  | 118 => ⟨S1024x192, .i32⟩
  | 119 => ⟨S1024x192, .i32⟩
  | 120 => ⟨S1024x192, .i32⟩
  | 121 => ⟨S1024x192x1, .i32⟩
  | 122 => ⟨S1024x192x512, .f32⟩
  | 123 => ⟨S1024x192x512, .f32⟩
  | 124 => ⟨S1024x192x1, .i1⟩
  | 125 => ⟨S_, .f32⟩
  | 126 => ⟨S_, .f32⟩
  | 127 => ⟨S1024x192x512, .i1⟩
  | _ => ⟨S1024x192x512, .f32⟩

abbrev hbmTy0_1 (i : Nat) : BufTy := match i % 128 with
  | 0 => ⟨S1024x192x512, .f32⟩
  | 1 => ⟨S1024x192x512, .f32⟩
  | 2 => ⟨S1024x192x512, .f32⟩
  | 3 => ⟨S_, .f32⟩
  | 4 => ⟨S1024x192, .f32⟩
  | 5 => ⟨S1024x192x1, .f32⟩
  | 6 => ⟨S_, .f32⟩
  | 7 => ⟨S1024x192x1, .f32⟩
  | 8 => ⟨S1024x192x1, .f32⟩
  | 9 => ⟨S1024x192x512, .f32⟩
  | 10 => ⟨S1024x192x512, .f32⟩
  | 11 => ⟨S1024x192x512, .f32⟩
  | 12 => ⟨S_, .f32⟩
  | 13 => ⟨S1024x192, .f32⟩
  | 14 => ⟨S1024x192x1, .f32⟩
  | 15 => ⟨S_, .f32⟩
  | 16 => ⟨S1024x192x1, .f32⟩
  | 17 => ⟨S1024x192x1, .f32⟩
  | 18 => ⟨S1024x192x512, .f32⟩
  | 19 => ⟨S1024x192x512, .f32⟩
  | 20 => ⟨S_, .f32⟩
  | 21 => ⟨S1024x192x1, .f32⟩
  | 22 => ⟨S1024x192x1, .f32⟩
  | 23 => ⟨S1024x192x1, .f32⟩
  | 24 => ⟨S1024x192x512, .f32⟩
  | 25 => ⟨S1024x192x512, .f32⟩
  | 26 => ⟨S1x1x512, .f32⟩
  | 27 => ⟨S1024x192x512, .f32⟩
  | 28 => ⟨S1024x192x512, .f32⟩
  | 29 => ⟨S1x1x512, .f32⟩
  | 30 => ⟨S1024x192x512, .f32⟩
  | 31 => ⟨S1024x192x512, .f32⟩
  | 32 => ⟨S1024x192x1, .i32⟩
  | 33 => ⟨S1024x192x1, .f32⟩
  | 34 => ⟨S1024x192x512, .f32⟩
  | 35 => ⟨S1024x192x512, .f32⟩
  | _ => ⟨S1024x192x512, .f32⟩

abbrev hbmTy (i : Nat) : BufTy := match i / 128 with
  | 0 => hbmTy0_0 i
  | 1 => hbmTy0_1 i
  | _ => ⟨S1024x192x512, .f32⟩

abbrev bufTy : (tb : Table) → Fin (tcTables nBuf tb) → BufTy
  | .hbm, ⟨i, _⟩ => hbmTy i
  | _, _ => ⟨S1024x192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_v4 : Ref sig .tc := ⟨.hbm, 17, rfl⟩
abbrev main_call1_v0 : Ref sig .tc := ⟨.hbm, 18, rfl⟩
abbrev main_call1_c : Ref sig .tc := ⟨.hbm, 19, rfl⟩
abbrev main_call1_c_0 : Ref sig .tc := ⟨.hbm, 20, rfl⟩
abbrev main_call1_v1_0 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_v24 : Ref sig .tc := ⟨.hbm, 46, rfl⟩
abbrev main_c_4 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_c : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_0 : Ref sig .tc := ⟨.hbm, 61, rfl⟩
abbrev main_call3_v12 : Ref sig .tc := ⟨.hbm, 62, rfl⟩
abbrev main_call3_v13 : Ref sig .tc := ⟨.hbm, 63, rfl⟩
abbrev main_v25 : Ref sig .tc := ⟨.hbm, 64, rfl⟩
abbrev main_c_5 : Ref sig .tc := ⟨.hbm, 65, rfl⟩
abbrev main_call4_v0 : Ref sig .tc := ⟨.hbm, 66, rfl⟩
abbrev main_call4_v1 : Ref sig .tc := ⟨.hbm, 67, rfl⟩
abbrev main_v26 : Ref sig .tc := ⟨.hbm, 68, rfl⟩
abbrev main_c_6 : Ref sig .tc := ⟨.hbm, 69, rfl⟩
abbrev main_call5_v0 : Ref sig .tc := ⟨.hbm, 70, rfl⟩
abbrev main_call5_c : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_c_1 : Ref sig .tc := ⟨.hbm, 77, rfl⟩
abbrev main_call5_v5 : Ref sig .tc := ⟨.hbm, 78, rfl⟩
abbrev main_call5_v6 : Ref sig .tc := ⟨.hbm, 79, rfl⟩
abbrev main_call5_c_2 : Ref sig .tc := ⟨.hbm, 80, rfl⟩
abbrev main_call5_v7 : Ref sig .tc := ⟨.hbm, 81, rfl⟩
abbrev main_call5_v8 : Ref sig .tc := ⟨.hbm, 82, rfl⟩
abbrev main_call5_c_3 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_v12 : Ref sig .tc := ⟨.hbm, 87, rfl⟩
abbrev main_call5_v13 : Ref sig .tc := ⟨.hbm, 88, rfl⟩
abbrev main_call5_v14 : Ref sig .tc := ⟨.hbm, 89, rfl⟩
abbrev main_v27 : Ref sig .tc := ⟨.hbm, 90, rfl⟩
abbrev main_c_7 : Ref sig .tc := ⟨.hbm, 91, rfl⟩
abbrev main_call6_v0 : Ref sig .tc := ⟨.hbm, 92, rfl⟩
abbrev main_call6_v1 : Ref sig .tc := ⟨.hbm, 93, rfl⟩
abbrev main_v28 : Ref sig .tc := ⟨.hbm, 94, rfl⟩
abbrev main_c_8 : Ref sig .tc := ⟨.hbm, 95, rfl⟩
abbrev main_v29 : Ref sig .tc := ⟨.hbm, 96, rfl⟩
abbrev main_v30 : Ref sig .tc := ⟨.hbm, 97, rfl⟩
abbrev main_c_9 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_c_10 : Ref sig .tc := ⟨.hbm, 104, rfl⟩
abbrev main_v36 : Ref sig .tc := ⟨.hbm, 105, rfl⟩
abbrev main_v37 : Ref sig .tc := ⟨.hbm, 106, rfl⟩
abbrev main_c_11 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_c_12 : Ref sig .tc := ⟨.hbm, 114, rfl⟩
abbrev main_v44 : Ref sig .tc := ⟨.hbm, 115, rfl⟩
abbrev main_v45 : Ref sig .tc := ⟨.hbm, 116, rfl⟩
abbrev main_c_13 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst : Ref sig .tc := ⟨.hbm, 125, rfl⟩
abbrev main_call7_v0 : Ref sig .tc := ⟨.hbm, 126, rfl⟩
abbrev main_call7_v1 : Ref sig .tc := ⟨.hbm, 127, rfl⟩
abbrev main_call7_v2 : Ref sig .tc := ⟨.hbm, 128, rfl⟩
abbrev main_v53 : Ref sig .tc := ⟨.hbm, 129, rfl⟩
abbrev main_v54 : Ref sig .tc := ⟨.hbm, 130, rfl⟩
abbrev main_cst_14 : Ref sig .tc := ⟨.hbm, 131, rfl⟩
abbrev main_v55 : Ref sig .tc := ⟨.hbm, 132, rfl⟩
abbrev main_v56 : Ref sig .tc := ⟨.hbm, 133, rfl⟩
abbrev main_cst_15 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_cst_16 : Ref sig .tc := ⟨.hbm, 140, rfl⟩
abbrev main_v62 : Ref sig .tc := ⟨.hbm, 141, rfl⟩
abbrev main_v63 : Ref sig .tc := ⟨.hbm, 142, rfl⟩
abbrev main_cst_17 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_18 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩

abbrev nD : Nat := 1
abbrev τ : Topo := Topo.v7x

variable {F : FTy → Type} [FloatOps F]

class Facts₀ : Prop where
  bcast_S_S1024x192 : S_.BroadcastsInDim S1024x192 (![] : Fin 0 → Fin S1024x192.rank)
  reducesTo_S1024x192_S1024_d1 : S1024x192.ReducesTo [1] S1024
  h_S_ : 0 < S_.numel
  bcast_S_S1024 : S_.BroadcastsInDim S1024 (![] : Fin 0 → Fin S1024.rank)
  bcast_S192_S1x192_1 : S192.BroadcastsInDim S1x192 (![1] : Fin 1 → Fin S1x192.rank)
  bcast_S1024_S1024x1_0 : S1024.BroadcastsInDim S1024x1 (![0] : Fin 1 → Fin S1024x1.rank)
  bcast_S1x192_S1024x192_0_1 : S1x192.BroadcastsInDim S1024x192 (![0, 1] : Fin 2 → Fin S1024x192.rank)
  bcast_S1024x1_S1024x192_0_1 : S1024x1.BroadcastsInDim S1024x192 (![0, 1] : Fin 2 → Fin S1024x192.rank)
  bcast_S1024x192_S1024x192x1_0_1 : S1024x192.BroadcastsInDim S1024x192x1 (![0, 1] : Fin 2 → Fin S1024x192x1.rank)
  bcast_S1024x192x1_S1024x192x512_0_1_2 : S1024x192x1.BroadcastsInDim S1024x192x512 (![0, 1, 2] : Fin 3 → Fin S1024x192x512.rank)
  bcast_S_S1024x192x512 : S_.BroadcastsInDim S1024x192x512 (![] : Fin 0 → Fin S1024x192x512.rank)
  reducesTo_S1024x192x512_S1024x192_d2 : S1024x192x512.ReducesTo [2] S1024x192
  bcast_S_S1024x192x1 : S_.BroadcastsInDim S1024x192x1 (![] : Fin 0 → Fin S1024x192x1.rank)
  bcast_S512_S1x1x512_2 : S512.BroadcastsInDim S1x1x512 (![2] : Fin 1 → Fin S1x1x512.rank)
  bcast_S1x1x512_S1024x192x512_0_1_2 : S1x1x512.BroadcastsInDim S1024x192x512 (![0, 1, 2] : Fin 3 → Fin S1024x192x512.rank)
  gather_S64x512_S1024x192x1_S1024x192x512_2_0_n_n_0_2_1512_wf : GatherDims.WF S64x512 S1024x192x1 S1024x192x512 [2] [0] [] [0] [] 2 ![1, 512]
  gather_S3x512_S1024x192x1_S1024x192x512_2_0_n_n_0_2_1512_wf : GatherDims.WF S3x512 S1024x192x1 S1024x192x512 [2] [0] [] [0] [] 2 ![1, 512]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S64x512_S1024x192x1_S1024x192x512_2_0_n_n_0_2_1512 : GatherDims S64x512 S1024x192x1 S1024x192x512 where
  offsetDims := [2]
  collapsedSliceDims := [0]
  operandBatchingDims := []
  startIndicesBatchingDims := []
  startIndexMap := [0]
  indexVectorDim := 2
  sliceSizes := ![1, 512]
  wf := gather_S64x512_S1024x192x1_S1024x192x512_2_0_n_n_0_2_1512_wf
def gather_S3x512_S1024x192x1_S1024x192x512_2_0_n_n_0_2_1512 : GatherDims S3x512 S1024x192x1 S1024x192x512 where
  offsetDims := [2]
  collapsedSliceDims := [0]
  operandBatchingDims := []
  startIndicesBatchingDims := []
  startIndexMap := [0]
  indexVectorDim := 2
  sliceSizes := ![1, 512]
  wf := gather_S3x512_S1024x192x1_S1024x192x512_2_0_n_n_0_2_1512_wf

class Facts : Prop extends Facts₀ where

variable [Facts]
-- ==== Proof.Plumb.lean ====
/- The integer index bookkeeping that both programs run on the attention mask before anything floats, as whole-array
   functions: per row the first and the last kept position (an arg-max over the "mask > 0" flags and over the reversed
   flags), per position its offset from the row's first kept position, whether it lies inside the kept stretch, and from the
   offset (clipped at zero) the item index (floor division by 3) and the layer index (remainder modulo 3), both zeroed outside
   the kept stretch. Written operation by operation, as the two printed programs write it. -/
import Idealize.ShloMosaic.PureOps.Ideal
import Idealize.ShloMosaic.Lib.ValueIdx

noncomputable section

namespace Cert.Plumb

open Idealize.ShloMosaic

abbrev S0 : Shape := ⟨0, ![]⟩
abbrev Rows : Shape := ⟨1, ![1024]⟩
abbrev Cols : Shape := ⟨1, ![192]⟩
abbrev RC : Shape := ⟨2, ![1024, 192]⟩
abbrev R1 : Shape := ⟨2, ![1024, 1]⟩
abbrev C1 : Shape := ⟨2, ![1, 192]⟩

theorem hS0RC : S0.BroadcastsInDim RC (![] : Fin 0 → Fin RC.rank) := by decide
theorem hS0Rows : S0.BroadcastsInDim Rows (![] : Fin 0 → Fin Rows.rank) := by decide
theorem hColsC1 : Cols.BroadcastsInDim C1 (![1] : Fin 1 → Fin C1.rank) := by decide
theorem hRowsR1 : Rows.BroadcastsInDim R1 (![0] : Fin 1 → Fin R1.rank) := by decide
theorem hC1RC : C1.BroadcastsInDim RC (![0, 1] : Fin 2 → Fin RC.rank) := by decide
theorem hR1RC : R1.BroadcastsInDim RC (![0, 1] : Fin 2 → Fin RC.rank) := by decide
theorem hred : RC.ReducesTo [1] Rows := by decide
theorem h0 : 0 < S0.numel := by decide

/-- A 32-bit integer constant at every position of the [1024, 192] grid. -/
def splat (v : BitVec 32) : IVec RC 32 := broadcastInDim RC ![] hS0RC (constantI S0 32 v)

/-- The same, the rank-zero constant first passed through the identity conversion a called function applies to its scalar argument. -/
def splatId (v : BitVec 32) : IVec RC 32 := broadcastInDim RC ![] hS0RC (id (constantI S0 32 v))

/-- A per-row value at every position of its row. -/
def alongRow {w : Nat} (x : IVec Rows w) : IVec RC w := broadcastInDim RC ![0, 1] hR1RC (broadcastInDim R1 ![0] hRowsR1 x)

/-- The column number at every position. -/
def colIdx : IVec RC 32 := broadcastInDim RC ![0, 1] hC1RC (broadcastInDim C1 ![1] hColsC1 (iotaInDim Cols 32 0))

/-- "mask > 0". -/
def kept (a : IVec RC 32) : IVec RC 1 := cmpi .sgt a (splat 0#32)

/-- Per row: is any position kept. -/
def hasContent (a : IVec RC 32) : IVec Rows 1 := Host.reduce IntOp.ori (kept a) (constantI S0 1 0#1) hred h0

/-- One step of the arg-max fold on (flag, index) pairs: the greater flag wins, on equal flags the smaller index. -/
def argStep : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- Per row: the index component of the arg-max fold over (flag, column number), from (false, 0). -/
def firstOf (x : IVec RC 1) : IVec Rows 32 :=
  fun j => (Host.reduce2 argStep x (iotaInDim RC 32 1) (constantI S0 1 0#1) (constantI S0 32 0#32) hred h0 j).2

/-- Per row: the first kept position. -/
def start (a : IVec RC 32) : IVec Rows 32 := firstOf (kept a)

/-- Per row: 192 minus the first kept position of the reversed row. -/
def stop (a : IVec RC 32) : IVec Rows 32 :=
  subi (broadcastInDim Rows ![] hS0Rows (constantI S0 32 192#32)) (firstOf (Host.reverse [1] (kept a)))

/-- The offset of each position from its row's first kept position. -/
def pos (a : IVec RC 32) : IVec RC 32 := subi colIdx (alongRow (start a))

/-- Inside the kept stretch: offset ≥ 0, column < stop, and the row has content. -/
def inRange (a : IVec RC 32) : IVec RC 1 :=
  andi (andi (cmpi .sge (pos a) (splat 0#32)) (cmpi .slt colIdx (alongRow (stop a)))) (alongRow (hasContent a))

/-- The offset clipped at zero from below. -/
def posC (a : IVec RC 32) : IVec RC 32 := maxsi (splatId 0#32) (pos a)

/-- Floor division by 3, as jax spells it: the truncated quotient, less one where the signs differ and the remainder is not zero. -/
def floorDiv3 (x : IVec RC 32) : IVec RC 32 :=
  let q := Host.divsi x (splatId 3#32)
  let sx := signi x
  let sy : IVec S0 32 := signi (id (constantI S0 32 3#32))
  let ne := cmpi .ne sx (broadcastInDim RC ![] hS0RC sy)
  let r := Host.remsi x (splatId 3#32)
  let rn := cmpi .ne r (splat 0#32)
  select (andi ne rn) (subi q (splat 1#32)) q

/-- The remainder modulo 3, as jax spells it: the truncated remainder, plus the divisor where it is not zero and its sign differs
    from the divisor's; a zero divisor is first replaced by one. -/
def rem3 (x : IVec RC 32) : IVec RC 32 :=
  let y : IVec S0 32 := id (constantI S0 32 3#32)
  let z : IVec S0 1 := cmpi .eq y (constantI S0 32 0#32)
  let y' : IVec S0 32 := select z (constantI S0 32 1#32) y
  let r := Host.remsi x (broadcastInDim RC ![] hS0RC y')
  let rn := cmpi .ne r (splat 0#32)
  let rneg := cmpi .slt r (splat 0#32)
  let yneg : IVec S0 1 := cmpi .slt y' (constantI S0 32 0#32)
  let differ := cmpi .ne rneg (broadcastInDim RC ![] hS0RC yneg)
  select (andi differ rn) (addi r (broadcastInDim RC ![] hS0RC y')) r

/-- The item index: the clipped offset floor-divided by 3 inside the kept stretch, 0 outside. -/
def itemIdx (a : IVec RC 32) : IVec RC 32 := select (inRange a) (floorDiv3 (posC a)) (splatId 0#32)

/-- The layer index: the clipped offset modulo 3 inside the kept stretch, 0 outside. -/
def layerIdx (a : IVec RC 32) : IVec RC 32 := select (inRange a) (rem3 (posC a)) (splatId 0#32)

end Cert.Plumb

end
-- ==== Proof.KernelHostItem.lean ====
/- What the kernel's region finds in the item-index array the host side computes before it: the bookkeeping's item index of the attention mask. -/
import proofs.«178360_j4140348473626_1_alg».proof.Proof.Gen.KernelIdeal.Frame
import proofs.«178360_j4140348473626_1_alg».proof.Proof.Plumb
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduce2 Host.reverse in
set_option maxRecDepth 65536 in
set_option maxHeartbeats 4000000 in
/-- The item-index array at region entry is the bookkeeping's item index of the mask. -/
theorem V_item (c : Dev nD) :
    (V m c main_v26 : S1024x192.Idx → BitVec 32) = Cert.Plumb.itemIdx (m ((c : Thread nD τ).loc main_arg1)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

end Cert.KernelIdeal.HostSide

end
-- ==== Proof.KernelHostLayer.lean ====
/- What the kernel's region finds in the layer-index array the host side computes before it: the bookkeeping's layer index of the attention mask. -/
import proofs.«178360_j4140348473626_1_alg».proof.Proof.Gen.KernelIdeal.Frame
import proofs.«178360_j4140348473626_1_alg».proof.Proof.Plumb
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduce2 Host.reverse in
set_option maxRecDepth 65536 in
set_option maxHeartbeats 4000000 in
/-- The layer-index array at region entry is the bookkeeping's layer index of the mask. -/
theorem V_layer (c : Dev nD) :
    (V m c main_v28 : S1024x192.Idx → BitVec 32) = Cert.Plumb.layerIdx (m ((c : Thread nD τ).loc main_arg1)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

end Cert.KernelIdeal.HostSide

end
-- ==== Proof.KernelHostFlag.lean ====
/- What the kernel's region finds in the flag array the host side computes before it: the bookkeeping's in-range flag of the attention mask, widened to 32 bits. -/
import proofs.«178360_j4140348473626_1_alg».proof.Proof.Gen.KernelIdeal.Frame
import proofs.«178360_j4140348473626_1_alg».proof.Proof.Plumb
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.reduce Host.reduce2 Host.reverse in
set_option maxRecDepth 65536 in
set_option maxHeartbeats 4000000 in
/-- The flag array at region entry is the bookkeeping's in-range flag of the mask, zero-extended to 32 bits. -/
theorem V_flag (c : Dev nD) :
    (V m c main_v29 : S1024x192.Idx → BitVec 32)
      = extui 32 (Cert.Plumb.inRange (m ((c : Thread nD τ).loc main_arg1))) (by decide) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

end Cert.KernelIdeal.HostSide

end
-- ==== Proof.KernelHost.lean ====
/- What the kernel's region finds in the three index arrays the host side computes before it: the item index, the layer index
   and the in-range flag widened to 32 bits, each the bookkeeping function of the attention mask (one module each). -/
import proofs.«178360_j4140348473626_1_alg».proof.Proof.KernelHostItem
import proofs.«178360_j4140348473626_1_alg».proof.Proof.KernelHostLayer
import proofs.«178360_j4140348473626_1_alg».proof.Proof.KernelHostFlag
-- ==== Proof.Spec.lean ====
/- What both programs compute, as one function of the argument arrays, index by index, on the extended reals.
   For row b and position s, with item index it, layer index lt and in-range flag f of that position:
     e d   = tok[b,s,d] + (if f then (itemPos[it,d] + layerEmb[lt,d]) + temporal[it,d] else 0)        (d < 512)
     mu    = (Σ_d e d) / 512,   var = (Σ_d (e d - mu)²) / 512
     out d = (((e d - mu) · rsqrt (var + ε)) · w[d] + bias[d]) · float(mask[b,s])
   where ε is the single-precision value nearest 1e-5 (both programs carry the same word). -/
import Idealize.ShloMosaic.PureOps.Ideal
import Idealize.ShloMosaic.Lib.ValueIdx

noncomputable section

namespace Cert.ItemLayer

open Idealize.ShloMosaic Idealize.ShloMosaic.ValueIdx

abbrev T3 : Shape := ⟨3, ![1024, 192, 512]⟩
abbrev T2 : Shape := ⟨2, ![1024, 192]⟩
abbrev Tab64 : Shape := ⟨2, ![64, 512]⟩
abbrev Tab3 : Shape := ⟨2, ![3, 512]⟩
abbrev L512 : Shape := ⟨1, ![512]⟩

/-- The table row an index word names in a table of 64 rows (the word is below 64 wherever this is used). -/
def row64 (v : BitVec 32) : Fin 64 := ⟨v.toNat % 64, Nat.mod_lt _ (by decide)⟩
/-- The table row an index word names in a table of 3 rows. -/
def row3 (v : BitVec 32) : Fin 3 := ⟨v.toNat % 3, Nat.mod_lt _ (by decide)⟩

/-- 512 and ε as the programs' words denote them. -/
def c512 : EReal := Ideal.ofBits .f32 0x44000000#32
def eps : EReal := Ideal.ofBits .f32 0x3727C5AC#32

/-- The three looked-up embedding rows summed, at feature d. -/
def looked (ip td : Tab64.Idx → EReal) (le : Tab3.Idx → EReal) (it lt : BitVec 32) (d : Fin 512) : EReal :=
  (ip (ix2 (row64 it) d) + le (ix2 (row3 lt) d)) + td (ix2 (row64 it) d)

/-- The enhanced token row at (b, s). -/
def enh (tok : T3.Idx → EReal) (ip td : Tab64.Idx → EReal) (le : Tab3.Idx → EReal)
    (ii li : T2.Idx → BitVec 32) (inr : T2.Idx → BitVec 1) (b : Fin 1024) (s : Fin 192) : Fin 512 → EReal :=
  fun d => tok (ix3 b s d) + (if inr (ix2 b s) = 1 then looked ip td le (ii (ix2 b s)) (li (ix2 b s)) d else 0)

/-- The mean of a row of 512. -/
def mean (e : Fin 512 → EReal) : EReal := Ideal.div (∑ k : Fin 512, e k) c512

/-- The row's centred entries. -/
def centred (e : Fin 512 → EReal) : Fin 512 → EReal := fun d => e d - mean e

/-- Layer normalisation of a row at feature d with scale w and shift bias. -/
def lnorm (e : Fin 512 → EReal) (w bias : EReal) (d : Fin 512) : EReal :=
  (centred e d * Ideal.rsqrt (mean (fun k => centred e k * centred e k) + eps)) * w + bias

/-- The result at (b, s, d). -/
def outAt (tok : T3.Idx → EReal) (mask : T2.Idx → BitVec 32) (ip : Tab64.Idx → EReal) (le : Tab3.Idx → EReal)
    (td : Tab64.Idx → EReal) (w bias : L512.Idx → EReal) (ii li : T2.Idx → BitVec 32) (inr : T2.Idx → BitVec 1)
    (b : Fin 1024) (s : Fin 192) (d : Fin 512) : EReal :=
  lnorm (enh tok ip td le ii li inr b s) (w (ix1 d)) (bias (ix1 d)) d * (FloatOps.sitofp (F := Ideal) .f32 (mask (ix2 b s)))

/-- The whole result array. -/
def G (tok : T3.Idx → EReal) (mask : T2.Idx → BitVec 32) (ip : Tab64.Idx → EReal) (le : Tab3.Idx → EReal)
    (td : Tab64.Idx → EReal) (w bias : L512.Idx → EReal) (ii li : T2.Idx → BitVec 32) (inr : T2.Idx → BitVec 1) : T3.Idx → EReal :=
  fun i => outAt tok mask ip le td w bias ii li inr (i 0) (i 1) (i 2)

theorem G_ix3 (tok : T3.Idx → EReal) (mask : T2.Idx → BitVec 32) (ip : Tab64.Idx → EReal) (le : Tab3.Idx → EReal)
    (td : Tab64.Idx → EReal) (w bias : L512.Idx → EReal) (ii li : T2.Idx → BitVec 32) (inr : T2.Idx → BitVec 1)
    (b : Fin 1024) (s : Fin 192) (d : Fin 512) :
    G tok mask ip le td w bias ii li inr (ix3 b s d) = outAt tok mask ip le td w bias ii li inr b s d := rfl

end Cert.ItemLayer

end
-- ==== Proof.LibUnitAxes.lean ====
/-
  Unit axes inserted by a shape cast and filled by a broadcast, read at an index.

  Broadcasting a matrix along a new axis is written, on vectors, as a shape cast that inserts an axis of extent one
  followed by a broadcast along that axis. Read at an index `(i, j, k)` of the rank-3 result, the composite is the matrix
  at the two coordinates it keeps: `(i, k)` when the new axis is the middle one, `(j, k)` when it leads, `(i, j)` when it
  trails. The casts keep row-major positions (an axis of extent one contributes the digit zero); the broadcasts read
  coordinate zero on the unit axis and the result's own coordinate elsewhere.
-/
import Idealize.ShloMosaic.Lib.ValueIdx
import Idealize.ShloMosaic.Lib.ValueLayout
import Idealize.ShloMosaic.Lib.Pipeline.Value

namespace Idealize.ShloMosaic.UnitAxes

open Idealize.ShloMosaic Idealize.ShloMosaic.ValueIdx

variable {α : Type}

/-! ## The casts -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## The broadcasts -/

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A matrix broadcast along a new axis -/

/-- A matrix over `(i, k)` repeated along a new MIDDLE axis. -/
theorem along_middle {a b c : ℕ} (y : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ y h) h' (ix3 i j k) = y (ix2 i k) :=
  (broadcastTo_a1c_abc_apply _ h' i j k).trans (shapeCast_ac_a1c_apply y h i 0 k)

/-- A matrix over `(j, k)` repeated along a new LEADING axis. -/
theorem along_leading {a b c : ℕ} (y : (⟨2, ![b, c]⟩ : Shape).Idx → α)
    (h : (⟨2, ![b, c]⟩ : Shape).ShapeCasts ⟨3, ![1, b, c]⟩) (h' : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ y h) h' (ix3 i j k) = y (ix2 j k) :=
  (broadcastTo_1bc_abc_apply _ h' i j k).trans (shapeCast_ab_1ab_apply y h 0 j k)

/-- A matrix over `(i, j)` repeated along a new TRAILING axis. -/
theorem along_trailing {a b c : ℕ} (y : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ y h) h' (ix3 i j k) = y (ix2 i j) :=
  (broadcastTo_ab1_abc_apply _ h' i j k).trans (shapeCast_ab_ab1_apply y h i j 0)

end Idealize.ShloMosaic.UnitAxes
-- ==== Proof.KernelPay1.lean ====
/- The second half of the kernel body read at an index: layer normalisation of a row of 512 (two lane sums, each divided
   by 512; reciprocal square root of the variance plus ε), scale and shift per feature, times the mask as a float. -/
import proofs.«178360_j4140348473626_1_alg».proof.Proof.Gen.KernelIdeal.Skeleton
import proofs.«178360_j4140348473626_1_alg».proof.Proof.Spec
import proofs.«178360_j4140348473626_1_alg».proof.Proof.LibUnitAxes
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.ItemLayer

/-- A lane sum of an [8, 192, 512] block at (b, s) is the sum of the row's 512 entries. -/
theorem rowSum_at (x : FVec Ideal S8x192x512 .f32) (hφ : FKind.Formats .f32)
    (hacc : (0x00000000#32 : BitVec 32) = FKind.add.neutral .f32 hφ) (b : Fin 8) (s : Fin 192) :
    multiReduction .add [2] S8x192 x 0x00000000#32 reduces_S8x192x512_S8x192 hφ hacc (ix2 b s) = ∑ k : Fin 512, x (ix3 b s k) := by
  refine (Ideal.multiReduction_add_single x _ reduces_S8x192x512_S8x192 hφ hacc (ix2 b s)).trans ?_
  refine Finset.sum_congr rfl fun k _ => congrArg x ?_
  funext a; apply Fin.ext
  match a with
  | ⟨0, _⟩ => rfl
  | ⟨1, _⟩ => rfl
  | ⟨2, _⟩ => rfl

/-- The per-row mean kept as an [8, 192, 1] column. -/
def colMean (x : FVec Ideal S8x192x512 .f32) : FVec Ideal S8x192x1 .f32 :=
  divf (shapeCast S8x192x1 (multiReduction .add [2] S8x192 x 0x00000000#32 reduces_S8x192x512_S8x192 (.inl rfl) rfl) shapeCasts_S8x192_S8x192x1)
    (broadcast S8x192x1 (Scalar.ofBits (F := Ideal) .f32 0x44000000#32))

theorem colMean_at (x : FVec Ideal S8x192x512 .f32) (b : Fin 8) (s : Fin 192) :
    colMean x (ix3 b s (0 : Fin 1)) = mean (fun k => x (ix3 b s k)) := by
  show Ideal.div (shapeCast S8x192x1 (multiReduction .add [2] S8x192 x 0x00000000#32 reduces_S8x192x512_S8x192 (.inl rfl) rfl) shapeCasts_S8x192_S8x192x1 (ix3 b s (0 : Fin 1))) c512 = _
  rw [UnitAxes.shapeCast_ab_ab1_apply]
  exact congrArg (fun z => Ideal.div z c512) (rowSum_at x (.inl rfl) rfl b s)

/-- The block with each row's mean taken off. -/
def cen (x : FVec Ideal S8x192x512 .f32) : FVec Ideal S8x192x512 .f32 :=
  subf x (broadcastTo S8x192x512 (colMean x) broadcasts_S8x192x1_S8x192x512)

theorem cen_at (x : FVec Ideal S8x192x512 .f32) (b : Fin 8) (s : Fin 192) (d : Fin 512) :
    cen x (ix3 b s d) = centred (fun k => x (ix3 b s k)) d := by
  show x (ix3 b s d) - broadcastTo S8x192x512 (colMean x) broadcasts_S8x192x1_S8x192x512 (ix3 b s d) = _
  rw [UnitAxes.broadcastTo_ab1_abc_apply, colMean_at]
  rfl

/-- The per-row reciprocal standard deviation, repeated along the row. -/
def rstd (x : FVec Ideal S8x192x512 .f32) : FVec Ideal S8x192x512 .f32 :=
  broadcastTo S8x192x512 (rsqrt (addf (colMean (mulf (cen x) (cen x))) (broadcast S8x192x1 (Scalar.ofBits (F := Ideal) .f32 0x3727C5AC#32))))
    broadcasts_S8x192x1_S8x192x512

theorem rstd_at (x : FVec Ideal S8x192x512 .f32) (b : Fin 8) (s : Fin 192) (d : Fin 512) :
    rstd x (ix3 b s d)
      = Ideal.rsqrt (mean (fun k => centred (fun k' => x (ix3 b s k')) k * centred (fun k' => x (ix3 b s k')) k) + eps) := by
  unfold rstd
  rw [UnitAxes.broadcastTo_ab1_abc_apply]
  show Ideal.rsqrt (colMean (mulf (cen x) (cen x)) (ix3 b s (0 : Fin 1)) + eps) = _
  rw [colMean_at]
  refine congrArg (fun z => Ideal.rsqrt (mean z + eps)) ?_
  funext k
  show cen x (ix3 b s k) * cen x (ix3 b s k) = _
  rw [cen_at]

/-- A length-512 vector repeated over the [8, 192] leading axes, at (b, s, d). -/
theorem featRow_at (v : Vec Ideal S512 .f32) (b : Fin 8) (s : Fin 192) (d : Fin 512) :
    broadcastTo S8x192x512 (shapeCast S1x1x512 v shapeCasts_S512_S1x1x512) broadcasts_S1x1x512_S8x192x512 (ix3 b s d) = v (ix1 d) := by
  refine (broadcastTo_apply _ _ (ix3 b s d) (ix3 (0 : Fin 1) (0 : Fin 1) d) fun ax => ?_).trans ?_
  · match ax with
    | ⟨0, _⟩ => rfl
    | ⟨1, _⟩ => rfl
    | ⟨2, _⟩ => rfl
  · refine shapeCast_apply _ _ (ix3 (0 : Fin 1) (0 : Fin 1) d) (ix1 d) ?_
    rw [Shape.rowMajor_val_three, Shape.rowMajor_val_one]
    show d.val = (0 * 1 + 0) * 512 + d.val
    omega

/-- The second half of the body is this composition. -/
theorem pay1_form (v6 : Vec Ideal S8x192 .i32) (v38 : FVec Ideal S8x192x512 .f32) (v55 v59 : Vec Ideal S512 .f32) :
    k0_pay1 (F := Ideal) v6 v38 v55 v59
      = mulf (addf (mulf (mulf (cen v38) (rstd v38))
            (broadcastTo S8x192x512 (shapeCast S1x1x512 v55 shapeCasts_S512_S1x1x512) broadcasts_S1x1x512_S8x192x512))
          (broadcastTo S8x192x512 (shapeCast S1x1x512 v59 shapeCasts_S512_S1x1x512) broadcasts_S1x1x512_S8x192x512))
        (broadcastTo S8x192x512 (shapeCast S8x192x1 (sitofp (F := Ideal) .f32 v6) shapeCasts_S8x192_S8x192x1) broadcasts_S8x192x1_S8x192x512) := rfl

/-- The second half of the body at (b, s, d). -/
theorem pay1_at (v6 : Vec Ideal S8x192 .i32) (v38 : FVec Ideal S8x192x512 .f32) (v55 v59 : Vec Ideal S512 .f32)
    (b : Fin 8) (s : Fin 192) (d : Fin 512) :
    k0_pay1 (F := Ideal) v6 v38 v55 v59 (ix3 b s d)
      = lnorm (fun k => v38 (ix3 b s k)) (v55 (ix1 d)) (v59 (ix1 d)) d * (FloatOps.sitofp (F := Ideal) .f32 (v6 (ix2 b s)) : EReal) := by
  rw [pay1_form]
  show ((cen v38 (ix3 b s d) * rstd v38 (ix3 b s d))
        * (broadcastTo S8x192x512 (shapeCast S1x1x512 v55 shapeCasts_S512_S1x1x512) broadcasts_S1x1x512_S8x192x512 (ix3 b s d))
        + (broadcastTo S8x192x512 (shapeCast S1x1x512 v59 shapeCasts_S512_S1x1x512) broadcasts_S1x1x512_S8x192x512 (ix3 b s d)))
      * (broadcastTo S8x192x512 (shapeCast S8x192x1 (sitofp (F := Ideal) .f32 v6) shapeCasts_S8x192_S8x192x1) broadcasts_S8x192x1_S8x192x512 (ix3 b s d)) = _
  rw [cen_at, rstd_at, featRow_at, featRow_at, UnitAxes.along_trailing]
  rfl

end Cert.KernelIdeal.Payload

end
-- ==== Proof.KernelMatmul.lean ====
/- The kernel's two matrix products read at an index: into a zero accumulator each is the plain sum over the contracted
   axis of the products of a row of the left operand and a column of the right one. -/
import proofs.«178360_j4140348473626_1_alg».proof.Proof.Gen.KernelIdeal
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The [1536, 64] × [64, 512] product at (r, c). -/
theorem item_matmul (lhs : FVec Ideal S1536x64 .bf16) (rhs : FVec Ideal S64x512 .bf16) (r : Fin 1536) (c : Fin 512) :
    matmul dot_S1536x64_S64x512_S1536x512_1_0_0_1_n_n none lhs rhs (constant (F := Ideal) S1536x512 .f32 0x00000000#32) (ix2 r c)
      = ∑ k : Fin 64, lhs (ix2 r k) * rhs (ix2 k c) := by
  refine (Ideal.matmul_constant_zero_apply dot_S1536x64_S64x512_S1536x512_1_0_0_1_n_n none lhs rhs (ix2 r c)).trans ?_
  rw [← Equiv.sum_comp (contrEquiv1 dot_S1536x64_S64x512_S1536x512_1_0_0_1_n_n 64 rfl rfl).symm]
  refine Finset.sum_congr rfl fun k _ => ?_
  have hl : dot_S1536x64_S64x512_S1536x512_1_0_0_1_n_n.lhsIdx (ix2 r c)
      ((contrEquiv1 dot_S1536x64_S64x512_S1536x512_1_0_0_1_n_n 64 rfl rfl).symm k) = ix2 r k := by
    funext a; apply Fin.ext
    match a with
    | ⟨0, _⟩ => rfl
    | ⟨1, _⟩ =>
      exact (DotDims.lhsIdx_val_of_single (cl := (1 : Fin 2)) _ rfl _ _).trans
        (contrEquiv1_symm_val dot_S1536x64_S64x512_S1536x512_1_0_0_1_n_n 64 rfl rfl k)
  have hr : dot_S1536x64_S64x512_S1536x512_1_0_0_1_n_n.rhsIdx (ix2 r c)
      ((contrEquiv1 dot_S1536x64_S64x512_S1536x512_1_0_0_1_n_n 64 rfl rfl).symm k) = ix2 k c := by
    funext a; apply Fin.ext
    match a with
    | ⟨0, _⟩ =>
      exact (DotDims.rhsIdx_val_of_single (cr := (0 : Fin 2)) _ rfl _ _).trans
        (contrEquiv1_symm_val dot_S1536x64_S64x512_S1536x512_1_0_0_1_n_n 64 rfl rfl k)
    | ⟨1, _⟩ => rfl
  rw [hl, hr]

/-- The [1536, 3] × [3, 512] product at (r, c). -/
theorem layer_matmul (lhs : FVec Ideal S1536x3 .bf16) (rhs : FVec Ideal S3x512 .bf16) (r : Fin 1536) (c : Fin 512) :
    matmul dot_S1536x3_S3x512_S1536x512_1_0_0_1_n_n none lhs rhs (constant (F := Ideal) S1536x512 .f32 0x00000000#32) (ix2 r c)
      = ∑ k : Fin 3, lhs (ix2 r k) * rhs (ix2 k c) := by
  refine (Ideal.matmul_constant_zero_apply dot_S1536x3_S3x512_S1536x512_1_0_0_1_n_n none lhs rhs (ix2 r c)).trans ?_
  rw [← Equiv.sum_comp (contrEquiv1 dot_S1536x3_S3x512_S1536x512_1_0_0_1_n_n 3 rfl rfl).symm]
  refine Finset.sum_congr rfl fun k _ => ?_
  have hl : dot_S1536x3_S3x512_S1536x512_1_0_0_1_n_n.lhsIdx (ix2 r c)
      ((contrEquiv1 dot_S1536x3_S3x512_S1536x512_1_0_0_1_n_n 3 rfl rfl).symm k) = ix2 r k := by
    funext a; apply Fin.ext
    match a with
    | ⟨0, _⟩ => rfl
    | ⟨1, _⟩ =>
      exact (DotDims.lhsIdx_val_of_single (cl := (1 : Fin 2)) _ rfl _ _).trans
        (contrEquiv1_symm_val dot_S1536x3_S3x512_S1536x512_1_0_0_1_n_n 3 rfl rfl k)
  have hr : dot_S1536x3_S3x512_S1536x512_1_0_0_1_n_n.rhsIdx (ix2 r c)
      ((contrEquiv1 dot_S1536x3_S3x512_S1536x512_1_0_0_1_n_n 3 rfl rfl).symm k) = ix2 k c := by
    funext a; apply Fin.ext
    match a with
    | ⟨0, _⟩ =>
      exact (DotDims.rhsIdx_val_of_single (cr := (0 : Fin 2)) _ rfl _ _).trans
        (contrEquiv1_symm_val dot_S1536x3_S3x512_S1536x512_1_0_0_1_n_n 3 rfl rfl k)
    | ⟨1, _⟩ => rfl
  rw [hl, hr]

end Cert.KernelIdeal.Payload

end
-- ==== Proof.OneHot.lean ====
/- A table row picked by a one-hot weighting: the weights are 1 at the index word's row and 0 elsewhere, so the weighted
   sum of the rows is that row (0 · x = 0 and 1 · x = x hold for every extended real). And a 0/1 flag as a factor is a choice. -/
import proofs.«178360_j4140348473626_1_alg».proof.Proof.Spec

noncomputable section

namespace Cert.ItemLayer

open Idealize.ShloMosaic

/-- The one-hot weight of row k for the index word x: the flag "x = k" widened to 32 bits and converted to a float. -/
def oh (x : BitVec 32) (k : ℕ) : EReal :=
  FloatOps.sitofp (F := Ideal) .f32 ((IntOp.cmpi .eq x (BitVec.ofNat 32 k)).setWidth 32)

theorem flagVal (b : Bool) :
    (FloatOps.sitofp (F := Ideal) .f32 ((BitVec.ofBool b).setWidth 32) : EReal) = if b then 1 else 0 := by
  show (((((BitVec.ofBool b).setWidth 32).toInt : ℤ) : ℝ) : EReal) = _
  cases b
  · have : ((BitVec.ofBool false).setWidth 32).toInt = 0 := by decide
    rw [this]; simp
  · have : ((BitVec.ofBool true).setWidth 32).toInt = 1 := by decide
    rw [this]; simp

/-- The weight is 1 when the word is k and 0 otherwise. -/
theorem oh_eq_ite (x : BitVec 32) (k : ℕ) : oh x k = if x = BitVec.ofNat 32 k then 1 else 0 := by
  unfold oh IntOp.cmpi
  rw [flagVal]
  by_cases h : x = BitVec.ofNat 32 k
  · simp [h]
  · simp [h]

/-- The one-hot weighted sum of 64 rows is the row the index word names, when the word is below 64. -/
theorem onehot_sum64 (x : BitVec 32) (hx : x.toNat < 64) (T : Fin 64 → EReal) :
    ∑ k : Fin 64, oh x k.val * T k = T (row64 x) := by
  have hrow : (row64 x).val = x.toNat := Nat.mod_eq_of_lt hx
  rw [Finset.sum_eq_single (row64 x)]
  · rw [oh_eq_ite, if_pos, one_mul]
    rw [hrow]; apply BitVec.eq_of_toNat_eq; rw [BitVec.toNat_ofNat]; have := x.isLt; omega
  · intro k _ hk
    rw [oh_eq_ite, if_neg, zero_mul]
    intro h
    apply hk
    apply Fin.ext
    rw [hrow, h, BitVec.toNat_ofNat]
    have := k.isLt
    omega
  · intro h; exact absurd (Finset.mem_univ _) h

/-- The one-hot weighted sum of 3 rows is the row the index word names, when the word is below 3. -/
theorem onehot_sum3 (x : BitVec 32) (hx : x.toNat < 3) (T : Fin 3 → EReal) :
    ∑ k : Fin 3, oh x k.val * T k = T (row3 x) := by
  have hrow : (row3 x).val = x.toNat := Nat.mod_eq_of_lt hx
  rw [Finset.sum_eq_single (row3 x)]
  · rw [oh_eq_ite, if_pos, one_mul]
    rw [hrow]; apply BitVec.eq_of_toNat_eq; rw [BitVec.toNat_ofNat]; have := x.isLt; omega
  · intro k _ hk
    rw [oh_eq_ite, if_neg, zero_mul]
    intro h
    apply hk
    apply Fin.ext
    rw [hrow, h, BitVec.toNat_ofNat]
    have := k.isLt
    omega
  · intro h; exact absurd (Finset.mem_univ _) h

/-- A value times a one-bit flag widened and converted to a float is the value where the flag is set and 0 elsewhere. -/
theorem mul_flag (y : EReal) (f : BitVec 1) :
    y * (FloatOps.sitofp (F := Ideal) .f32 (f.setWidth 32) : EReal) = if f = 1 then y else 0 := by
  rcases BitVec.eq_zero_or_eq_one f with h | h
  · subst h
    have : (FloatOps.sitofp (F := Ideal) .f32 ((0#1).setWidth 32) : EReal) = 0 := by
      have := flagVal false; simpa using this
    rw [this, mul_zero]; exact (if_neg (by decide)).symm
  · subst h
    have : (FloatOps.sitofp (F := Ideal) .f32 ((1#1).setWidth 32) : EReal) = 1 := by
      have := flagVal true; simpa using this
    rw [this, mul_one]; exact (if_pos (by decide)).symm

end Cert.ItemLayer

end
-- ==== Proof.KernelPay2.lean ====
/- The first half of the kernel body read at an index: the token embedding plus, times the in-range flag, the one-hot
   weighted sums of the (item position + temporal) rows and of the layer rows. -/
import proofs.«178360_j4140348473626_1_alg».proof.Proof.Gen.KernelIdeal.Skeleton
import proofs.«178360_j4140348473626_1_alg».proof.Proof.KernelMatmul
import proofs.«178360_j4140348473626_1_alg».proof.Proof.OneHot
import proofs.«178360_j4140348473626_1_alg».proof.Proof.LibUnitAxes
import Idealize.ShloMosaic.Lib.Pipeline.Value

noncomputable section

namespace Cert.KernelIdeal.Payload

open Cert.KernelIdeal Cert.KernelIdeal.Gen Idealize.ShloMosaic Idealize.ShloMosaic.ValueIdx Cert.ItemLayer

/-- Row b·192 + s of the flattened [1536, ·] arrays. -/
def flatRow (b : Fin 8) (s : Fin 192) : Fin 1536 := ⟨b.val * 192 + s.val, by have := b.isLt; have := s.isLt; omega⟩

/-- An index word repeated along a trailing axis of 64 or 3 and compared with that axis's coordinate, as a float: the one-hot weight. -/
theorem onehot64_at (v0 : Vec Ideal S8x192 .i32) (b : Fin 8) (s : Fin 192) (k : Fin 64) :
    (truncf (F := Ideal) .bf16 (sitofp (F := Ideal) .f32 (extui 32 (cmpi .eq
      (broadcastTo S8x192x64 (shapeCast S8x192x1 (shapeCast S8x192 v0 shapeCasts_S8x192_S8x192) shapeCasts_S8x192_S8x192x1) broadcasts_S8x192x1_S8x192x64)
      (iota .tc S8x192x64 32 [2] iota_S8x192x64_d2_w32)) natLt_1_32)) bitsLt_bf16_f32) (ix3 b s k) = oh (v0 (ix2 b s)) k.val := by
  show FloatOps.sitofp (F := Ideal) .f32 ((IntOp.cmpi .eq
      ((broadcastTo S8x192x64 (shapeCast S8x192x1 (shapeCast S8x192 v0 shapeCasts_S8x192_S8x192) shapeCasts_S8x192_S8x192x1) broadcasts_S8x192x1_S8x192x64) (ix3 b s k))
      ((iota .tc S8x192x64 32 [2] iota_S8x192x64_d2_w32) (ix3 b s k))).setWidth 32) = _
  rw [UnitAxes.along_trailing, iota_single_apply, shapeCast_self]
  rfl

theorem onehot3_at (v2 : Vec Ideal S8x192 .i32) (b : Fin 8) (s : Fin 192) (k : Fin 3) :
    (truncf (F := Ideal) .bf16 (sitofp (F := Ideal) .f32 (extui 32 (cmpi .eq
      (broadcastTo S8x192x3 (shapeCast S8x192x1 (shapeCast S8x192 v2 shapeCasts_S8x192_S8x192) shapeCasts_S8x192_S8x192x1) broadcasts_S8x192x1_S8x192x3)
      (iota .tc S8x192x3 32 [2] iota_S8x192x3_d2_w32)) natLt_1_32)) bitsLt_bf16_f32) (ix3 b s k) = oh (v2 (ix2 b s)) k.val := by
  show FloatOps.sitofp (F := Ideal) .f32 ((IntOp.cmpi .eq
      ((broadcastTo S8x192x3 (shapeCast S8x192x1 (shapeCast S8x192 v2 shapeCasts_S8x192_S8x192) shapeCasts_S8x192_S8x192x1) broadcasts_S8x192x1_S8x192x3) (ix3 b s k))
      ((iota .tc S8x192x3 32 [2] iota_S8x192x3_d2_w32) (ix3 b s k))).setWidth 32) = _
  rw [UnitAxes.along_trailing, iota_single_apply, shapeCast_self]
  rfl

/-- The first half of the body at (b, s, d). -/
theorem pay2_at (v0 v2 v4 : Vec Ideal S8x192 .i32) (v23 v24 : Vec Ideal S64x512 .f32) (v27 : Vec Ideal S3x512 .f32)
    (v35 : Vec Ideal S8x192x512 .f32) (b : Fin 8) (s : Fin 192) (d : Fin 512) :
    k0_pay2 (F := Ideal) v0 v2 v4 v23 v24 v27 v35 (ix3 b s d)
      = v35 (ix3 b s d) + ((∑ k : Fin 64, oh (v0 (ix2 b s)) k.val * (v23 (ix2 k d) + v24 (ix2 k d)))
          + (∑ k : Fin 3, oh (v2 (ix2 b s)) k.val * v27 (ix2 k d)))
          * (FloatOps.sitofp (F := Ideal) .f32 (v4 (ix2 b s)) : EReal) := by
  unfold k0_pay2
  refine congrArg₂ (· + ·) rfl ?_
  refine congrArg₂ (· * ·) ?_ ?_
  · refine (shapeCast_apply _ _ (ix3 b s d) (ix2 (flatRow b s) d) (by
      rw [Shape.rowMajor_val_three, Shape.rowMajor_val_two]; rfl)).trans ?_
    refine congrArg₂ (· + ·) ?_ ?_
    · refine (item_matmul _ _ (flatRow b s) d).trans ?_
      refine Finset.sum_congr rfl fun k _ => ?_
      refine congrArg₂ (· * ·) ?_ rfl
      refine (shapeCast_apply _ _ (ix2 (flatRow b s) k) (ix3 b s k) (by
        rw [Shape.rowMajor_val_three, Shape.rowMajor_val_two]; rfl)).trans ?_
      exact onehot64_at v0 b s k
    · refine (layer_matmul _ _ (flatRow b s) d).trans ?_
      refine Finset.sum_congr rfl fun k _ => ?_
      refine congrArg₂ (· * ·) ?_ rfl
      refine (shapeCast_apply _ _ (ix2 (flatRow b s) k) (ix3 b s k) (by
        rw [Shape.rowMajor_val_three, Shape.rowMajor_val_two]; rfl)).trans ?_
      exact onehot3_at v2 b s k
  · refine (UnitAxes.along_trailing _ _ _ b s d).trans ?_
    rw [shapeCast_self]
    rfl

end Cert.KernelIdeal.Payload

end
-- ==== Proof.KernelPoint.lean ====
/- One grid point of the kernel. Its blocks are rows 8T … 8T+7 of the token embeddings, of the item index, the layer index, the
   in-range flag (widened to 32 bits) and the mask, and the whole of the three tables and of the two layer-norm vectors. On them
   the body computes rows 8T … 8T+7 of the specification: the one-hot weighted sums pick the table rows (the index words are
   in range), the flag as a factor is the choice between the looked-up sum and 0, and (a + c) + b = (a + b) + c reorders the sum. -/
import proofs.«178360_j4140348473626_1_alg».proof.Proof.KernelPay1
import proofs.«178360_j4140348473626_1_alg».proof.Proof.KernelPay2

noncomputable section

namespace Cert.KernelIdeal.Whole

open Cert.KernelIdeal Cert.KernelIdeal.Gen Idealize.ShloMosaic Idealize.ShloMosaic.ValueIdx
open Cert.ItemLayer Cert.KernelIdeal.Payload

/-- Row 8T + b of the whole arrays: row b of grid point T's block. -/
def rowOf (T : ℕ) (hT : T < 128) (b : Fin 8) : Fin 1024 := ⟨T * 8 + b.val, by have := b.isLt; omega⟩

/-- One grid point: the body's result on blocks that are rows 8T … 8T+7 of the arrays is those rows of the specification. -/
theorem point_eq (tok : T3.Idx → EReal) (mask : T2.Idx → BitVec 32) (ip td : Tab64.Idx → EReal) (le : Tab3.Idx → EReal)
    (w bias : L512.Idx → EReal) (ii li : T2.Idx → BitVec 32) (inr : T2.Idx → BitVec 1)
    (hii : ∀ (B : Fin 1024) (s : Fin 192), (ii (ix2 B s)).toNat < 64) (hli : ∀ (B : Fin 1024) (s : Fin 192), (li (ix2 B s)).toNat < 3)
    (T : ℕ) (hT : T < 128)
    (x0 : Vec Ideal S8x192x512 .f32) (x1 x2 x3 x4 : Vec Ideal S8x192 .i32) (x5 x7 : Vec Ideal S64x512 .f32)
    (x6 : Vec Ideal S3x512 .f32) (x8 x9 : Vec Ideal S512 .f32)
    (h0 : ∀ (b : Fin 8) (s : Fin 192) (d : Fin 512), x0 (ix3 b s d) = tok (ix3 (rowOf T hT b) s d))
    (h1 : ∀ (b : Fin 8) (s : Fin 192), x1 (ix2 b s) = ii (ix2 (rowOf T hT b) s))
    (h2 : ∀ (b : Fin 8) (s : Fin 192), x2 (ix2 b s) = li (ix2 (rowOf T hT b) s))
    (h3 : ∀ (b : Fin 8) (s : Fin 192), x3 (ix2 b s) = (inr (ix2 (rowOf T hT b) s)).setWidth 32)
    (h4 : ∀ (b : Fin 8) (s : Fin 192), x4 (ix2 b s) = mask (ix2 (rowOf T hT b) s))
    (h5 : x5 = ip) (h6 : x6 = le) (h7 : x7 = td) (h8 : x8 = w) (h9 : x9 = bias)
    (b : Fin 8) (s : Fin 192) (d : Fin 512) :
    k0_pay1 (F := Ideal) x4 (k0_pay2 (F := Ideal) x1 x2 x3 x5 x7 x6 x0) x8 x9 (ix3 b s d)
      = G tok mask ip le td w bias ii li inr (ix3 (rowOf T hT b) s d) := by
  subst h5 h6 h7 h8 h9
  rw [pay1_at, G_ix3]
  unfold outAt
  rw [h4 b s]
  refine congrArg (fun e => lnorm e (x8 (ix1 d)) (x9 (ix1 d)) d * (FloatOps.sitofp (F := Ideal) .f32 (mask (ix2 (rowOf T hT b) s)) : EReal)) ?_
  funext k
  rw [pay2_at, h0, h1, h2, h3, onehot_sum64 _ (hii _ _), onehot_sum3 _ (hli _ _), mul_flag]
  unfold enh looked
  refine congrArg (fun z => tok (ix3 (rowOf T hT b) s k) + z) ?_
  split
  · exact add_right_comm _ _ _
  · rfl

end Cert.KernelIdeal.Whole

end
-- ==== Proof.PlumbFacts.lean ====
/- Bounds on the index bookkeeping: the item index is a row of a 64-row table and the layer index a row of a 3-row table, at every position. -/
import proofs.«178360_j4140348473626_1_alg».proof.Proof.Plumb
import Idealize.ShloMosaic.Lib.Pipeline.Value

noncomputable section

namespace Cert.Plumb

open Idealize.ShloMosaic Idealize.ShloMosaic.ValueIdx

/-! ## The first kept position is a column number -/

/-- The arg-max step's index component is the index component of one of its two arguments. -/
theorem argStep_snd (p q : BitVec 1 × BitVec 32) : (argStep p q).2 = p.2 ∨ (argStep p q).2 = q.2 := by
  show Scalar.select _ p.2 q.2 = p.2 ∨ Scalar.select _ p.2 q.2 = q.2
  unfold Scalar.select
  split
  · exact Or.inl rfl
  · exact Or.inr rfl

/-- A property of indices that holds of the starting index and of the index of every folded element holds of the index
    component of the arg-max fold. -/
theorem foldl_argStep_snd {ι : Type} (P : BitVec 32 → Prop) (g : ι → BitVec 1 × BitVec 32) (hg : ∀ n, P (g n).2) :
    ∀ (l : List ι) (acc : BitVec 1 × BitVec 32), P acc.2 → P (l.foldl (fun r n => argStep r (g n)) acc).2 := by
  intro l
  induction l with
  | nil => intro acc h; exact h
  | cons n l ih =>
    intro acc h
    rw [List.foldl_cons]
    apply ih
    rcases argStep_snd acc (g n) with e | e
    · rw [e]; exact h
    · rw [e]; exact hg n

/-- The same for the arg-max reduction of an array of (flag, index) pairs along some axes: a property that holds of the
    initial index and of every element's index holds of the index component of each result. -/
theorem reduce2_argStep_snd {s t u : Shape} {axes : List (Fin s.rank)} (P : BitVec 32 → Prop) (x : s.Idx → BitVec 1)
    (y : s.Idx → BitVec 32) (ix : u.Idx → BitVec 1) (iy : u.Idx → BitVec 32) (h : s.ReducesTo axes t) (hu : 0 < u.numel)
    (j : t.Idx) (hy : ∀ i, P (y i)) (hi : P (iy (Shape.Idx.first hu))) :
    P (Host.reduce2 argStep x y ix iy h hu j).2 := by
  unfold Host.reduce2
  exact foldl_argStep_snd P (fun n => (x (s.rowMajor.symm n), y (s.rowMajor.symm n))) (fun n => hy _) _ _ hi

/-- A position's coordinate along the column axis, as a word, is below 192. -/
theorem iota_lt (d : Fin RC.rank) (hd : d = 1) (i : RC.Idx) : (iotaInDim RC 32 d i).toNat < 192 := by
  subst hd
  show (BitVec.ofNat 32 (i 1).val).toNat < 192
  have h := idx2_lt1 i
  rw [BitVec.toNat_ofNat]
  exact lt_of_le_of_lt (Nat.mod_le _ _) h

/-- The index the arg-max fold returns for a row is a column number or the initial 0: below 192. -/
theorem firstOf_lt (x : IVec RC 1) (j : Rows.Idx) : (firstOf x j).toNat < 192 := by
  unfold firstOf
  exact reduce2_argStep_snd (fun v => v.toNat < 192) _ _ _ _ _ _ _ (fun i => iota_lt _ rfl i)
    (by show (0#32).toNat < 192; decide)
/-! ## Reading the offset at a position -/

/-- A per-row value spread along its row reads the row's value. -/
theorem alongRow_apply {w : Nat} (x : IVec Rows w) (b : Fin 1024) (s : Fin 192) : alongRow x (ix2 b s) = x (ix1 b) := by
  unfold alongRow
  refine (broadcastInDim_apply ![0, 1] hR1RC _ (ix2 b s) (ix2 b (0 : Fin 1)) ?_).trans ?_
  · intro a
    match a with
    | ⟨0, _⟩ => show b.val = if (1024 : ℕ) = 1 then 0 else b.val; simp
    | ⟨1, _⟩ => show (0 : ℕ) = if (1 : ℕ) = 1 then 0 else s.val; simp
  · refine broadcastInDim_apply ![0] hRowsR1 x (ix2 b (0 : Fin 1)) (ix1 b) ?_
    intro a
    match a with
    | ⟨0, _⟩ => show b.val = if (1024 : ℕ) = 1 then 0 else b.val; simp

/-- The column number read at a position is that position's column, as a word. -/
theorem colIdx_apply (b : Fin 1024) (s : Fin 192) : colIdx (ix2 b s) = BitVec.ofNat 32 s.val := by
  unfold colIdx
  refine (broadcastInDim_apply ![0, 1] hC1RC _ (ix2 b s) (ix2 (0 : Fin 1) s) ?_).trans ?_
  · intro a
    match a with
    | ⟨0, _⟩ => show (0 : ℕ) = if (1 : ℕ) = 1 then 0 else b.val; simp
    | ⟨1, _⟩ => show s.val = if (192 : ℕ) = 1 then 0 else s.val; simp
  · refine (broadcastInDim_apply ![1] hColsC1 _ (ix2 (0 : Fin 1) s) (ix1 s) ?_).trans ?_
    · intro a
      match a with
      | ⟨0, _⟩ => show s.val = if (192 : ℕ) = 1 then 0 else s.val; simp
    · rfl

/-- The offset at a position is its column number less the row's first kept position, in wrapping 32-bit arithmetic. -/
theorem pos_apply (a : IVec RC 32) (b : Fin 1024) (s : Fin 192) :
    pos a (ix2 b s) = BitVec.ofNat 32 s.val - start a (ix1 b) := by
  show colIdx (ix2 b s) - alongRow (start a) (ix2 b s) = _
  rw [colIdx_apply, alongRow_apply]

/-! ## The two quotient-and-remainder spellings at one element -/

/-- Floor division by 3 at one element: the truncated quotient, less one where the signs of dividend and divisor differ and the
    truncated remainder is not zero. -/
def fd3 (x : BitVec 32) : BitVec 32 :=
  let q := IntOp.divsi .host x 3#32
  let sx : BitVec 32 := if x = 0 then 0 else if x.msb then -1 else 1
  let sy : BitVec 32 := if (3#32 : BitVec 32) = 0 then 0 else if (3#32 : BitVec 32).msb then -1 else 1
  let ne := IntOp.cmpi .ne sx sy
  let r := IntOp.remsi .host x 3#32
  let rn := IntOp.cmpi .ne r 0#32
  Scalar.select (IntOp.andi ne rn) (IntOp.subi q 1#32) q

/-- The remainder modulo 3 at one element: the truncated remainder, plus the divisor where it is not zero and its sign differs from
    the divisor's. -/
def rm3 (x : BitVec 32) : BitVec 32 :=
  let y : BitVec 32 := 3#32
  let z : BitVec 1 := IntOp.cmpi .eq y 0#32
  let y' : BitVec 32 := Scalar.select z 1#32 y
  let r := IntOp.remsi .host x y'
  let rn := IntOp.cmpi .ne r 0#32
  let rneg := IntOp.cmpi .slt r 0#32
  let yneg : BitVec 1 := IntOp.cmpi .slt y' 0#32
  let differ := IntOp.cmpi .ne rneg yneg
  Scalar.select (IntOp.andi differ rn) (IntOp.addi r y') r

/-- The array floor division by 3 is the one-element floor division at every position. -/
theorem floorDiv3_apply (x : IVec RC 32) (j : RC.Idx) : floorDiv3 x j = fd3 (x j) := rfl

/-- The array remainder modulo 3 is the one-element remainder at every position. -/
theorem rem3_apply (x : IVec RC 32) (j : RC.Idx) : rem3 x j = rm3 (x j) := rfl

/-- For each of the 192 words 0 … 191 the floor quotient by 3 is at most 63: checked word by word (the divisor 3 is not a corner
    of the division, the sign correction does not fire on a non-negative dividend, and 191 / 3 = 63). -/
theorem fd3_lt_of_nat : ∀ n : ℕ, n < 192 → (fd3 (BitVec.ofNat 32 n)).toNat < 64 := by
  decide +kernel

/-- For each of the 192 words 0 … 191 the remainder modulo 3 is at most 2: checked word by word. -/
theorem rm3_lt_of_nat : ∀ n : ℕ, n < 192 → (rm3 (BitVec.ofNat 32 n)).toNat < 3 := by
  decide +kernel

/-- A word below 192 has floor quotient by 3 below 64. -/
theorem fd3_lt (x : BitVec 32) (h : x.toNat < 192) : (fd3 x).toNat < 64 := by
  have e : x = BitVec.ofNat 32 x.toNat := by simp
  rw [e]; exact fd3_lt_of_nat _ h

/-- A word below 192 has remainder modulo 3 below 3. -/
theorem rm3_lt (x : BitVec 32) (h : x.toNat < 192) : (rm3 x).toNat < 3 := by
  have e : x = BitVec.ofNat 32 x.toNat := by simp
  rw [e]; exact rm3_lt_of_nat _ h

/-! ## The bounds -/

/-- On one-bit words a conjunction that holds makes its first conjunct hold. -/
theorem and_eq_one_left : ∀ x y : BitVec 1, x &&& y = 1#1 → x = 1#1 := by decide

/-- If the wrapped difference of a column number below 192 and a first position below 192 is not negative as a signed word,
    then it is below 192 as well: were the column the smaller of the two, the wrapped difference would be at least
    2^32 - 191, a negative word. -/
theorem pos_lt (st : BitVec 32) (s : ℕ) (hs : s < 192) (hst : st.toNat < 192)
    (h : (0#32).sle (BitVec.ofNat 32 s - st) = true) : (BitVec.ofNat 32 s - st).toNat < 192 := by
  rw [BitVec.sle, decide_eq_true_eq, BitVec.toInt_eq_toNat_cond, BitVec.toInt_eq_toNat_cond] at h
  rw [BitVec.toNat_sub, BitVec.toNat_ofNat] at h ⊢
  simp only [BitVec.toNat_ofNat] at h
  split at h <;> split at h <;> omega

/-- Inside the kept stretch the clipped offset is below 192: the offset is not negative there, so it is the column number less
    the first kept position, and clipping at zero leaves it. -/
theorem posC_lt (a : IVec RC 32) (b : Fin 1024) (s : Fin 192) (h : inRange a (ix2 b s) = 1#1) :
    (posC a (ix2 b s)).toNat < 192 := by
  have hp := pos_apply a b s
  have hst : (start a (ix1 b)).toNat < 192 := firstOf_lt _ _
  have h' : (IntOp.cmpi .sge (pos a (ix2 b s)) 0#32 &&& IntOp.cmpi .slt (colIdx (ix2 b s)) (alongRow (stop a) (ix2 b s)))
      &&& alongRow (hasContent a) (ix2 b s) = 1#1 := h
  have h1 : BitVec.ofBool ((0#32).sle (pos a (ix2 b s))) = 1#1 := and_eq_one_left _ _ (and_eq_one_left _ _ h')
  have h2 : (0#32).sle (pos a (ix2 b s)) = true := by
    revert h1
    cases (0#32).sle (pos a (ix2 b s))
    · intro h1; exact absurd h1 (by decide)
    · intro _; rfl
  rw [hp] at h2
  have h3 := pos_lt _ s.val s.isLt hst h2
  show (IntOp.maxsi 0#32 (pos a (ix2 b s))).toNat < 192
  rw [hp]
  unfold IntOp.maxsi
  split
  · decide
  · exact h3

/-- The item index is below 64 everywhere. -/
theorem itemIdx_lt (a : IVec RC 32) (b : Fin 1024) (s : Fin 192) : (itemIdx a (ix2 b s)).toNat < 64 := by
  show (Scalar.select (inRange a (ix2 b s)) (floorDiv3 (posC a) (ix2 b s)) (0#32)).toNat < 64
  rcases BitVec.eq_zero_or_eq_one (inRange a (ix2 b s)) with h0 | h1
  · rw [h0, select_zero]; decide
  · rw [h1, select_one, floorDiv3_apply]; exact fd3_lt _ (posC_lt a b s h1)

/-- The layer index is below 3 everywhere. -/
theorem layerIdx_lt (a : IVec RC 32) (b : Fin 1024) (s : Fin 192) : (layerIdx a (ix2 b s)).toNat < 3 := by
  show (Scalar.select (inRange a (ix2 b s)) (rem3 (posC a) (ix2 b s)) (0#32)).toNat < 3
  rcases BitVec.eq_zero_or_eq_one (inRange a (ix2 b s)) with h0 | h1
  · rw [h0, select_zero]; decide
  · rw [h1, select_one, rem3_apply]; exact rm3_lt _ (posC_lt a b s h1)

end Cert.Plumb

end
-- ==== Proof.KernelArray.lean ====
/- From the kernel's blocks to its whole result array. Grid point t stages rows 8t … 8t+7 of the token embeddings, of the
   three index arrays and of the mask, and the whole of the three tables and the two layer-norm vectors (the printed index maps,
   decided over the 128 points); what it writes back is rows 8t … 8t+7 of the specification's array; the 128 points' blocks
   tile the [1024, 192, 512] result, so the array ends equal to the specification everywhere. -/
import proofs.«178360_j4140348473626_1_alg».proof.Proof.KernelBlocks
import proofs.«178360_j4140348473626_1_alg».proof.Proof.KernelHost
import proofs.«178360_j4140348473626_1_alg».proof.Proof.KernelPoint
import proofs.«178360_j4140348473626_1_alg».proof.Proof.PlumbFacts

noncomputable section

namespace Cert.KernelIdeal.Whole

open Cert.KernelIdeal Cert.KernelIdeal.Gen Idealize.ShloMosaic Idealize.ShloMosaic.TcCoe Idealize.SL.Sem Idealize.ShloMosaic.ValueIdx
open Cert.ItemLayer Cert.KernelIdeal.Payload
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification's array of the launch contents of core c. -/
def Gk (c : Dev nD) : S1024x192x512.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (Cert.Plumb.itemIdx (m ((c : Thread nD τ).loc main_arg1)))
    (Cert.Plumb.layerIdx (m ((c : Thread nD τ).loc main_arg1))) (Cert.Plumb.inRange (m ((c : Thread nD τ).loc main_arg1)))

/-- The printed index maps over the grid: the five row-blocked windows and the output sit at block (t, 0[, 0]); the tables and vectors at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ win0_8.index t (0 : Fin 1) = 0 ∧ win0_9.index t (0 : Fin 1) = 0
    ∧ (win0_10.index t (0 : Fin 3) = t.val ∧ win0_10.index t (1 : Fin 3) = 0 ∧ win0_10.index t (2 : Fin 3) = 0) :=
  (by decide +kernel : ∀ t : Fin grid0.N, _)

theorem t_lt (t : Fin cfg0.N) : t.val < 128 := by
  have h := t.isLt
  have hN : cfg0.N = 128 := N_0
  omega

/-- Block reads: the token-embedding block of point t is rows 8t … 8t+7. -/
theorem blk0 (c : Dev nD) (t : Fin cfg0.N) (b : Fin 8) (s : Fin 192) (d : Fin 512) :
    iblk m c 0 t (ix3 b s d) = m ((c : Thread nD τ).loc main_arg0) (ix3 (rowOf t.val (t_lt t) b) s d) := by
  show V m c main_arg0 (((cfg0.win 0).blk t).view.emb (ix3 b s d)) = _
  rw [V_main_arg0]
  refine congrArg _ ?_
  obtain ⟨⟨e0, e1, e2⟩, -⟩ := idx_facts t
  funext a; apply Fin.ext
  match a with
  | ⟨0, _⟩ => show win0_0.index t (0 : Fin 3) * 8 + 1 * b.val = t.val * 8 + b.val; omega
  | ⟨1, _⟩ => show win0_0.index t (1 : Fin 3) * 192 + 1 * s.val = s.val; omega
  | ⟨2, _⟩ => show win0_0.index t (2 : Fin 3) * 512 + 1 * d.val = d.val; omega

/-- The item-index block of point t is rows 8t … 8t+7 of the bookkeeping's item index. -/
theorem blk1 (c : Dev nD) (t : Fin cfg0.N) (b : Fin 8) (s : Fin 192) :
    iblk m c 1 t (ix2 b s) = Cert.Plumb.itemIdx (m ((c : Thread nD τ).loc main_arg1)) (ix2 (rowOf t.val (t_lt t) b) s) := by
  show V m c main_v26 (((cfg0.win 1).blk t).view.emb (ix2 b s)) = _
  rw [HostSide.V_item]
  refine congrArg _ ?_
  obtain ⟨-, ⟨e0, e1⟩, -⟩ := idx_facts t
  funext a; apply Fin.ext
  match a with
  | ⟨0, _⟩ => show win0_1.index t (0 : Fin 2) * 8 + 1 * b.val = t.val * 8 + b.val; omega
  | ⟨1, _⟩ => show win0_1.index t (1 : Fin 2) * 192 + 1 * s.val = s.val; omega

/-- The layer-index block of point t. -/
theorem blk2 (c : Dev nD) (t : Fin cfg0.N) (b : Fin 8) (s : Fin 192) :
    iblk m c 2 t (ix2 b s) = Cert.Plumb.layerIdx (m ((c : Thread nD τ).loc main_arg1)) (ix2 (rowOf t.val (t_lt t) b) s) := by
  show V m c main_v28 (((cfg0.win 2).blk t).view.emb (ix2 b s)) = _
  rw [HostSide.V_layer]
  refine congrArg _ ?_
  obtain ⟨-, -, ⟨e0, e1⟩, -⟩ := idx_facts t
  funext a; apply Fin.ext
  match a with
  | ⟨0, _⟩ => show win0_2.index t (0 : Fin 2) * 8 + 1 * b.val = t.val * 8 + b.val; omega
  | ⟨1, _⟩ => show win0_2.index t (1 : Fin 2) * 192 + 1 * s.val = s.val; omega

/-- The flag block of point t: the in-range flag widened to 32 bits. -/
theorem blk3 (c : Dev nD) (t : Fin cfg0.N) (b : Fin 8) (s : Fin 192) :
    iblk m c 3 t (ix2 b s)
      = (Cert.Plumb.inRange (m ((c : Thread nD τ).loc main_arg1)) (ix2 (rowOf t.val (t_lt t) b) s)).setWidth 32 := by
  show V m c main_v29 (((cfg0.win 3).blk t).view.emb (ix2 b s)) = _
  rw [HostSide.V_flag]
  show (Cert.Plumb.inRange (m ((c : Thread nD τ).loc main_arg1)) (((cfg0.win 3).blk t).view.emb (ix2 b s))).setWidth 32 = _
  refine congrArg (fun i => (Cert.Plumb.inRange (m ((c : Thread nD τ).loc main_arg1)) i).setWidth 32) ?_
  obtain ⟨-, -, -, ⟨e0, e1⟩, -⟩ := idx_facts t
  funext a; apply Fin.ext
  match a with
  | ⟨0, _⟩ => show win0_3.index t (0 : Fin 2) * 8 + 1 * b.val = t.val * 8 + b.val; omega
  | ⟨1, _⟩ => show win0_3.index t (1 : Fin 2) * 192 + 1 * s.val = s.val; omega

/-- The mask block of point t. -/
theorem blk4 (c : Dev nD) (t : Fin cfg0.N) (b : Fin 8) (s : Fin 192) :
    iblk m c 4 t (ix2 b s) = m ((c : Thread nD τ).loc main_arg1) (ix2 (rowOf t.val (t_lt t) b) s) := by
  show V m c main_arg1 (((cfg0.win 4).blk t).view.emb (ix2 b s)) = _
  rw [V_main_arg1]
  refine congrArg _ ?_
  obtain ⟨-, -, -, -, ⟨e0, e1⟩, -⟩ := idx_facts t
  funext a; apply Fin.ext
  match a with
  | ⟨0, _⟩ => show win0_4.index t (0 : Fin 2) * 8 + 1 * b.val = t.val * 8 + b.val; omega
  | ⟨1, _⟩ => show win0_4.index t (1 : Fin 2) * 192 + 1 * s.val = s.val; omega

/-- The three tables and the two vectors are staged whole at every point. -/
theorem blk5 (c : Dev nD) (t : Fin cfg0.N) : iblk m c 5 t = m ((c : Thread nD τ).loc main_arg2) := by
  funext y
  show V m c main_arg2 (((cfg0.win 5).blk t).view.emb y) = _
  rw [V_main_arg2]
  refine congrArg _ ?_
  obtain ⟨-, -, -, -, -, ⟨e0, e1⟩, -⟩ := idx_facts t
  funext a; apply Fin.ext
  match a with
  | ⟨0, _⟩ => show win0_5.index t (0 : Fin 2) * 64 + 1 * (y 0).val = (y 0).val; omega
  | ⟨1, _⟩ => show win0_5.index t (1 : Fin 2) * 512 + 1 * (y 1).val = (y 1).val; omega

theorem blk6 (c : Dev nD) (t : Fin cfg0.N) : iblk m c 6 t = m ((c : Thread nD τ).loc main_arg3) := by
  funext y
  show V m c main_arg3 (((cfg0.win 6).blk t).view.emb y) = _
  rw [V_main_arg3]
  refine congrArg _ ?_
  obtain ⟨-, -, -, -, -, -, ⟨e0, e1⟩, -⟩ := idx_facts t
  funext a; apply Fin.ext
  match a with
  | ⟨0, _⟩ => show win0_6.index t (0 : Fin 2) * 3 + 1 * (y 0).val = (y 0).val; omega
  | ⟨1, _⟩ => show win0_6.index t (1 : Fin 2) * 512 + 1 * (y 1).val = (y 1).val; omega

theorem blk7 (c : Dev nD) (t : Fin cfg0.N) : iblk m c 7 t = m ((c : Thread nD τ).loc main_arg4) := by
  funext y
  show V m c main_arg4 (((cfg0.win 7).blk t).view.emb y) = _
  rw [V_main_arg4]
  refine congrArg _ ?_
  obtain ⟨-, -, -, -, -, -, -, ⟨e0, e1⟩, -⟩ := idx_facts t
  funext a; apply Fin.ext
  match a with
  | ⟨0, _⟩ => show win0_7.index t (0 : Fin 2) * 64 + 1 * (y 0).val = (y 0).val; omega
  | ⟨1, _⟩ => show win0_7.index t (1 : Fin 2) * 512 + 1 * (y 1).val = (y 1).val; omega

theorem blk8 (c : Dev nD) (t : Fin cfg0.N) : iblk m c 8 t = m ((c : Thread nD τ).loc main_arg5) := by
  funext y
  show V m c main_arg5 (((cfg0.win 8).blk t).view.emb y) = _
  rw [V_main_arg5]
  refine congrArg _ ?_
  obtain ⟨-, -, -, -, -, -, -, -, e0, -⟩ := idx_facts t
  funext a; apply Fin.ext
  match a with
  | ⟨0, _⟩ => show win0_8.index t (0 : Fin 1) * 512 + 1 * (y 0).val = (y 0).val; omega

theorem blk9 (c : Dev nD) (t : Fin cfg0.N) : iblk m c 9 t = m ((c : Thread nD τ).loc main_arg6) := by
  funext y
  show V m c main_arg6 (((cfg0.win 9).blk t).view.emb y) = _
  rw [V_main_arg6]
  refine congrArg _ ?_
  obtain ⟨-, -, -, -, -, -, -, -, -, e0, -⟩ := idx_facts t
  funext a; apply Fin.ext
  match a with
  | ⟨0, _⟩ => show win0_9.index t (0 : Fin 1) * 512 + 1 * (y 0).val = (y 0).val; omega

/-- WHAT POINT t WRITES BACK is block t of the specification's array. -/
theorem flushed_eq (c : Dev nD) (t : Fin cfg0.N) :
    (dats m 0 c).flushed 10 t = ((cfg0.win 10).blk t).view.read (Elt Ideal) (Gk m c) := by
  rw [BlockValue.flushed10]
  unfold out0_10
  rw [View.canon_unit_zero hz3]
  simp only [View.ld_unit_zero (S := S8x192) hz2, View.ld_unit_zero (S := S64x512) hz2, View.ld_unit_zero (S := S3x512) hz2,
    View.ld_unit_zero (S := S8x192x512) hz3, View.ld_unit_zero (S := S512) hz1]
  obtain ⟨-, -, -, -, -, -, -, -, -, -, ⟨e0, e1, e2⟩⟩ := idx_facts t
  funext y
  have hy : (cfg0.win 10).xinj (grid0.coords t) y = ix3 (y 0) (y 1) (y 2) := by
    funext a; apply Fin.ext
    match a with
    | ⟨0, _⟩ => rfl
    | ⟨1, _⟩ => rfl
    | ⟨2, _⟩ => rfl
  show k0_pay1 (F := Ideal) (iblk m c 4 t) (k0_pay2 (F := Ideal) (iblk m c 1 t) (iblk m c 2 t) (iblk m c 3 t) (iblk m c 5 t) (iblk m c 7 t)
      (iblk m c 6 t) (iblk m c 0 t)) (iblk m c 8 t) (iblk m c 9 t) ((cfg0.win 10).xinj (grid0.coords t) y)
    = Gk m c (((cfg0.win 10).blk t).view.emb y)
  rw [hy]
  refine (point_eq _ _ _ _ _ _ _ _ _ _ (fun B s => Cert.Plumb.itemIdx_lt _ B s) (fun B s => Cert.Plumb.layerIdx_lt _ B s)
    t.val (t_lt t) _ _ _ _ _ _ _ _ _ _ (blk0 m c t) (blk1 m c t) (blk2 m c t) (blk3 m c t) (blk4 m c t)
    (blk5 m c t) (blk6 m c t) (blk7 m c t) (blk8 m c t) (blk9 m c t) (y 0) (y 1) (y 2)).trans ?_
  refine congrArg (Gk m c) ?_
  funext a; apply Fin.ext
  match a with
  | ⟨0, _⟩ => show t.val * 8 + (y 0).val = win0_10.index t (0 : Fin 3) * 8 + 1 * (y 0).val; omega
  | ⟨1, _⟩ => show (y 1).val = win0_10.index t (1 : Fin 3) * 192 + 1 * (y 1).val; omega
  | ⟨2, _⟩ => show (y 2).val = win0_10.index t (2 : Fin 3) * 512 + 1 * (y 2).val; omega

/-- An index of the array is in point t's block iff each coordinate is in the block's range on its axis. -/
theorem mem_blk (t : Fin cfg0.N) (i : S1024x192x512.Idx) :
    i ∈ ((cfg0.win 10).blk t).view.set ↔ ∀ a : Fin 3, win0_10.index t a * S8x192x512.size a ≤ (i a).val
      ∧ (i a).val < win0_10.index t a * S8x192x512.size a + S8x192x512.size a := by
  show i ∈ ((View.whole main_v30).slice (win0_10.rect t)).set ↔ _
  rw [View.set_slice_whole, Rect.mem_set_unit]
  exact Iff.rfl

/-- Every index of the result is in the block of the point its row falls in. -/
theorem cover (i : S1024x192x512.Idx) : ∃ t : Fin cfg0.N, (cfg0.win 10).flush t = true ∧ i ∈ ((cfg0.win 10).blk t).view.set := by
  have hi0 : (i 0).val < 1024 := (i 0).isLt
  have hi1 : (i 1).val < 192 := (i 1).isLt
  have hi2 : (i 2).val < 512 := (i 2).isLt
  have hN : cfg0.N = 128 := N_0
  let t : Fin cfg0.N := ⟨(i 0).val / 8, by rw [hN]; omega⟩
  refine ⟨t, flush0_10 t, ?_⟩
  obtain ⟨-, -, -, -, -, -, -, -, -, -, ⟨e0, e1, e2⟩⟩ := idx_facts t
  have ht : t.val = (i 0).val / 8 := rfl
  rw [mem_blk]
  intro a
  match a with
  | ⟨0, _⟩ => show win0_10.index t (0 : Fin 3) * 8 ≤ (i 0).val ∧ (i 0).val < win0_10.index t (0 : Fin 3) * 8 + 8; omega
  | ⟨1, _⟩ => show win0_10.index t (1 : Fin 3) * 192 ≤ (i 1).val ∧ (i 1).val < win0_10.index t (1 : Fin 3) * 192 + 192; omega
  | ⟨2, _⟩ => show win0_10.index t (2 : Fin 3) * 512 ≤ (i 2).val ∧ (i 2).val < win0_10.index t (2 : Fin 3) * 512 + 512; omega

/-- THE ARRAY after the run is the specification's. -/
theorem final (c : Dev nD) : (dats m 0 c).arrAt 10 cfg0.N = Gk m c :=
  (dats m 0 c).arrAt_eq_of_cover 10 (Gk m c) (fun t _ => flushed_eq m c t) cover

/-- The kernel's run: the result array ends at the specification of the launch contents, the arguments unchanged. -/
theorem run : θ_run defs (onTc (τ := τ) (main (F := Ideal))) ⟨m, fun _ => 0, ρ⟩ fun r => ∀ c : Dev nD,
      r.2.mem ((c : Thread nD τ).loc main_v30) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (BlockValue.run_blocks m ρ)

end Cert.KernelIdeal.Whole

end
-- ==== Proof.RefOps.lean ====
/- The reference program as a straight line: the 157 host operations of its @main in order, each function it calls
   written out at the call over the buffers of that call. The line is cut in two where the integer index bookkeeping
   (content start and end of each row, position, item and layer index, in-range flag) ends and the embedding
   lookups and the layer normalisation begin: opsA (88 operations) and opsB (69 operations); ops is the whole. -/
import proofs.«178360_j4140348473626_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem

variable {F : FTy → Type} [FloatOps F]

/-- The index bookkeeping: from the attention mask to the item index, the layer index and the in-range flag. -/
abbrev opsA : List (HloOp τ sig (Elt F)) :=
  [ StableHlo.nullary main_c (constantI S_ 32 0#32),
    StableHlo.unary main_c main_v0 (broadcastInDim S1024x192 ![] bcast_S_S1024x192 : (⟨S_, .i32⟩ : BufTy).Contents (Elt F) → (⟨S1024x192, .i32⟩ : BufTy).Contents (Elt F)),
    StableHlo.binary main_arg1 main_v0 main_v1 (cmpi .sgt : (⟨S1024x192, .i32⟩ : BufTy).Contents (Elt F) → (⟨S1024x192, .i32⟩ : BufTy).Contents (Elt F) → (⟨S1024x192, .i1⟩ : BufTy).Contents (Elt F)),
    StableHlo.nullary main_c_0 (constantI S_ 1 0#1),
    StableHlo.binary main_v1 main_c_0 main_v2 ((fun x v => Host.reduce IntOp.ori x v reducesTo_S1024x192_S1024_d1 h_S_) : (⟨S1024x192, .i1⟩ : BufTy).Contents (Elt F) → (⟨S_, .i1⟩ : BufTy).Contents (Elt F) → (⟨S1024, .i1⟩ : BufTy).Contents (Elt F)),
    StableHlo.TRef.nullary main_call0.v0 (iotaInDim S1024x192 32 1),
    StableHlo.TRef.nullary main_call0.c (constantI S_ 1 0#1),
    StableHlo.TRef.nullary main_call0.c_0 (constantI S_ 32 0#32),
    StableHlo.TRef.quaternary (.of main_v1 : StableHlo.TRef sig ⟨S1024x192, .i1⟩) main_call0.v0 main_call0.c main_call0.c_0 main_call0.v1_0 (fun x y u v j => (Host.reduce2 reducer_argmax_i1_i32 x y u v reducesTo_S1024x192_S1024_d1 h_S_ j).1),
    StableHlo.TRef.quaternary (.of main_v1 : StableHlo.TRef sig ⟨S1024x192, .i1⟩) main_call0.v0 main_call0.c main_call0.c_0 main_call0.v1_1 (fun x y u v j => (Host.reduce2 reducer_argmax_i1_i32 x y u v reducesTo_S1024x192_S1024_d1 h_S_ j).2),
    StableHlo.unary main_v1 main_v4 (Host.reverse [1] : (⟨S1024x192, .i1⟩ : BufTy).Contents (Elt F) → (⟨S1024x192, .i1⟩ : BufTy).Contents (Elt F)),
    StableHlo.TRef.nullary main_call1.v0 (iotaInDim S1024x192 32 1),
    StableHlo.TRef.nullary main_call1.c (constantI S_ 1 0#1),
    StableHlo.TRef.nullary main_call1.c_0 (constantI S_ 32 0#32),
    StableHlo.TRef.quaternary (.of main_v4 : StableHlo.TRef sig ⟨S1024x192, .i1⟩) main_call1.v0 main_call1.c main_call1.c_0 main_call1.v1_0 (fun x y u v j => (Host.reduce2 reducer_argmax_i1_i32 x y u v reducesTo_S1024x192_S1024_d1 h_S_ j).1),
    StableHlo.TRef.quaternary (.of main_v4 : StableHlo.TRef sig ⟨S1024x192, .i1⟩) main_call1.v0 main_call1.c main_call1.c_0 main_call1.v1_1 (fun x y u v j => (Host.reduce2 reducer_argmax_i1_i32 x y u v reducesTo_S1024x192_S1024_d1 h_S_ j).2),
    StableHlo.nullary main_c_1 (constantI S_ 32 192#32),
    StableHlo.unary main_c_1 main_v6 (broadcastInDim S1024 ![] bcast_S_S1024 : (⟨S_, .i32⟩ : BufTy).Contents (Elt F) → (⟨S1024, .i32⟩ : BufTy).Contents (Elt F)),
    StableHlo.binary main_v6 main_v5 main_v7 (subi : (⟨S1024, .i32⟩ : BufTy).Contents (Elt F) → (⟨S1024, .i32⟩ : BufTy).Contents (Elt F) → (⟨S1024, .i32⟩ : BufTy).Contents (Elt F)),
    StableHlo.nullary main_v8 (iotaInDim S192 32 0),
    StableHlo.unary main_v8 main_v9 (broadcastInDim S1x192 ![1] bcast_S192_S1x192_1 : (⟨S192, .i32⟩ : BufTy).Contents (Elt F) → (⟨S1x192, .i32⟩ : BufTy).Contents (Elt F)),
    StableHlo.unary main_v3 main_v10 (broadcastInDim S1024x1 ![0] bcast_S1024_S1024x1_0 : (⟨S1024, .i32⟩ : BufTy).Contents (Elt F) → (⟨S1024x1, .i32⟩ : BufTy).Contents (Elt F)),
    StableHlo.unary main_v9 main_v11 (broadcastInDim S1024x192 ![0, 1] bcast_S1x192_S1024x192_0_1 : (⟨S1x192, .i32⟩ : BufTy).Contents (Elt F) → (⟨S1024x192, .i32⟩ : BufTy).Contents (Elt F)),
    StableHlo.unary main_v10 main_v12 (broadcastInDim S1024x192 ![0, 1] bcast_S1024x1_S1024x192_0_1 : (⟨S1024x1, .i32⟩ : BufTy).Contents (Elt F) → (⟨S1024x192, .i32⟩ : BufTy).Contents (Elt F)),
    StableHlo.binary main_v11 main_v12 main_v13 (subi : (⟨S1024x192, .i32⟩ : BufTy).Contents (Elt F) → (⟨S1024x192, .i32⟩ : BufTy).Contents (Elt F) → (⟨S1024x192, .i32⟩ : BufTy).Contents (Elt F)),
    StableHlo.nullary main_c_2 (constantI S_ 32 0#32),
    StableHlo.unary main_c_2 main_v14 (broadcastInDim S1024x192 ![] bcast_S_S1024x192 : (⟨S_, .i32⟩ : BufTy).Contents (Elt F) → (⟨S1024x192, .i32⟩ : BufTy).Contents (Elt F)),
    StableHlo.binary main_v13 main_v14 main_v15 (cmpi .sge : (⟨S1024x192, .i32⟩ : BufTy).Contents (Elt F) → (⟨S1024x192, .i32⟩ : BufTy).Contents (Elt F) → (⟨S1024x192, .i1⟩ : BufTy).Contents (Elt F)),
    StableHlo.unary main_v7 main_v16 (broadcastInDim S1024x1 ![0] bcast_S1024_S1024x1_0 : (⟨S1024, .i32⟩ : BufTy).Contents (Elt F) → (⟨S1024x1, .i32⟩ : BufTy).Contents (Elt F)),
    StableHlo.unary main_v9 main_v17 (broadcastInDim S1024x192 ![0, 1] bcast_S1x192_S1024x192_0_1 : (⟨S1x192, .i32⟩ : BufTy).Contents (Elt F) → (⟨S1024x192, .i32⟩ : BufTy).Contents (Elt F)),
    StableHlo.unary main_v16 main_v18 (broadcastInDim S1024x192 ![0, 1] bcast_S1024x1_S1024x192_0_1 : (⟨S1024x1, .i32⟩ : BufTy).Contents (Elt F) → (⟨S1024x192, .i32⟩ : BufTy).Contents (Elt F)),
    StableHlo.binary main_v17 main_v18 main_v19 (cmpi .slt : (⟨S1024x192, .i32⟩ : BufTy).Contents (Elt F) → (⟨S1024x192, .i32⟩ : BufTy).Contents (Elt F) → (⟨S1024x192, .i1⟩ : BufTy).Contents (Elt F)),
    StableHlo.binary main_v15 main_v19 main_v20 (andi : (⟨S1024x192, .i1⟩ : BufTy).Contents (Elt F) → (⟨S1024x192, .i1⟩ : BufTy).Contents (Elt F) → (⟨S1024x192, .i1⟩ : BufTy).Contents (Elt F)),
    StableHlo.unary main_v2 main_v21 (broadcastInDim S1024x1 ![0] bcast_S1024_S1024x1_0 : (⟨S1024, .i1⟩ : BufTy).Contents (Elt F) → (⟨S1024x1, .i1⟩ : BufTy).Contents (Elt F)),
    StableHlo.unary main_v21 main_v22 (broadcastInDim S1024x192 ![0, 1] bcast_S1024x1_S1024x192_0_1 : (⟨S1024x1, .i1⟩ : BufTy).Contents (Elt F) → (⟨S1024x192, .i1⟩ : BufTy).Contents (Elt F)),
    StableHlo.binary main_v20 main_v22 main_v23 (andi : (⟨S1024x192, .i1⟩ : BufTy).Contents (Elt F) → (⟨S1024x192, .i1⟩ : BufTy).Contents (Elt F) → (⟨S1024x192, .i1⟩ : BufTy).Contents (Elt F)),
    StableHlo.nullary main_c_3 (constantI S_ 32 0#32),
    StableHlo.TRef.unary (.of main_c_3 : StableHlo.TRef sig ⟨S_, .i32⟩) main_call2.v0 id,
    StableHlo.TRef.unary main_call2.v0 main_call2.v1 (broadcastInDim S1024x192 ![] bcast_S_S1024x192),
    StableHlo.TRef.binary main_call2.v1 (.of main_v13 : StableHlo.TRef sig ⟨S1024x192, .i32⟩) main_call2.v2 maxsi,
    StableHlo.nullary main_c_4 (constantI S_ 32 3#32),
    StableHlo.TRef.unary (.of main_c_4 : StableHlo.TRef sig ⟨S_, .i32⟩) main_call3.v0 id,
    StableHlo.TRef.unary main_call3.v0 main_call3.v1 (broadcastInDim S1024x192 ![] bcast_S_S1024x192),
    StableHlo.TRef.binary (.of main_v24 : StableHlo.TRef sig ⟨S1024x192, .i32⟩) main_call3.v1 main_call3.v2 Host.divsi,
    StableHlo.TRef.unary (.of main_v24 : StableHlo.TRef sig ⟨S1024x192, .i32⟩) main_call3.v3 signi,
    StableHlo.TRef.unary main_call3.v0 main_call3.v4 signi,
    StableHlo.TRef.unary main_call3.v4 main_call3.v5 (broadcastInDim S1024x192 ![] bcast_S_S1024x192),
    StableHlo.TRef.binary main_call3.v3 main_call3.v5 main_call3.v6 (cmpi .ne),
    StableHlo.TRef.unary main_call3.v0 main_call3.v7 (broadcastInDim S1024x192 ![] bcast_S_S1024x192),
    StableHlo.TRef.binary (.of main_v24 : StableHlo.TRef sig ⟨S1024x192, .i32⟩) main_call3.v7 main_call3.v8 Host.remsi,
    StableHlo.TRef.nullary main_call3.c (constantI S_ 32 0#32),
    StableHlo.TRef.unary main_call3.c main_call3.v9 (broadcastInDim S1024x192 ![] bcast_S_S1024x192),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S1024x192 ![] bcast_S_S1024x192),
    StableHlo.TRef.binary main_call3.v2 main_call3.v12 main_call3.v13 subi,
    StableHlo.TRef.ternary (main_call3.v11 : StableHlo.TRef sig ⟨S1024x192, .i1⟩) (main_call3.v13 : StableHlo.TRef sig ⟨S1024x192, .i32⟩) (main_call3.v2 : StableHlo.TRef sig ⟨S1024x192, .i32⟩) main_call3.call0.v0 select,
    StableHlo.nullary main_c_5 (constantI S_ 32 0#32),
    StableHlo.TRef.unary (.of main_c_5 : StableHlo.TRef sig ⟨S_, .i32⟩) main_call4.v0 id,
    StableHlo.TRef.unary main_call4.v0 main_call4.v1 (broadcastInDim S1024x192 ![] bcast_S_S1024x192),
    StableHlo.TRef.ternary (.of main_v23 : StableHlo.TRef sig ⟨S1024x192, .i1⟩) (.of main_v25 : StableHlo.TRef sig ⟨S1024x192, .i32⟩) main_call4.v1 main_call4.v2 select,
    StableHlo.nullary main_c_6 (constantI S_ 32 3#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S1024x192 ![] bcast_S_S1024x192),
    StableHlo.TRef.binary (.of main_v24 : StableHlo.TRef sig ⟨S1024x192, .i32⟩) main_call5.v3 main_call5.v4 Host.remsi,
    StableHlo.TRef.nullary main_call5.c_1 (constantI S_ 32 0#32),
    StableHlo.TRef.unary main_call5.c_1 main_call5.v5 (broadcastInDim S1024x192 ![] bcast_S_S1024x192),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S1024x192 ![] bcast_S_S1024x192),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S1024x192 ![] bcast_S_S1024x192),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S1024x192 ![] bcast_S_S1024x192),
    StableHlo.TRef.binary main_call5.v4 main_call5.v13 main_call5.v14 addi,
    StableHlo.TRef.ternary main_call5.v12 main_call5.v14 main_call5.v4 main_call5.v15 select,
    StableHlo.nullary main_c_7 (constantI S_ 32 0#32),
    StableHlo.TRef.unary (.of main_c_7 : StableHlo.TRef sig ⟨S_, .i32⟩) main_call6.v0 id,
    StableHlo.TRef.unary main_call6.v0 main_call6.v1 (broadcastInDim S1024x192 ![] bcast_S_S1024x192),
    StableHlo.TRef.ternary (.of main_v23 : StableHlo.TRef sig ⟨S1024x192, .i1⟩) (.of main_v27 : StableHlo.TRef sig ⟨S1024x192, .i32⟩) main_call6.v1 main_call6.v2 select ]

/-- The lookups, the sum with the token embeddings, the layer normalisation and the final masking. -/
abbrev opsB : List (HloOp τ sig (Elt F)) :=
  [ StableHlo.nullary main_c_8 (constantI S_ 32 0#32),
    StableHlo.unary main_c_8 main_v29 (broadcastInDim S1024x192 ![] bcast_S_S1024x192 : (⟨S_, .i32⟩ : BufTy).Contents (Elt F) → (⟨S1024x192, .i32⟩ : BufTy).Contents (Elt F)),
    StableHlo.binary main_v26 main_v29 main_v30 (cmpi .slt : (⟨S1024x192, .i32⟩ : BufTy).Contents (Elt F) → (⟨S1024x192, .i32⟩ : BufTy).Contents (Elt F) → (⟨S1024x192, .i1⟩ : BufTy).Contents (Elt F)),
    StableHlo.nullary main_c_9 (constantI S_ 32 64#32),
    StableHlo.unary main_c_9 main_v31 (broadcastInDim S1024x192 ![] bcast_S_S1024x192 : (⟨S_, .i32⟩ : BufTy).Contents (Elt F) → (⟨S1024x192, .i32⟩ : BufTy).Contents (Elt F)),
    StableHlo.binary main_v26 main_v31 main_v32 (addi : (⟨S1024x192, .i32⟩ : BufTy).Contents (Elt F) → (⟨S1024x192, .i32⟩ : BufTy).Contents (Elt F) → (⟨S1024x192, .i32⟩ : BufTy).Contents (Elt F)),
    StableHlo.ternary main_v30 main_v32 main_v26 main_v33 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v33 main_v34 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg2 main_v34 main_v35 ((fun x i => Host.gather gather_S64x512_S1024x192x1_S1024x192x512_2_0_n_n_0_2_1512 x i) : (⟨S64x512, .f32⟩ : BufTy).Contents (Elt F) → (⟨S1024x192x1, .i32⟩ : BufTy).Contents (Elt F) → (⟨S1024x192x512, .f32⟩ : BufTy).Contents (Elt F)),
    StableHlo.nullary main_c_10 (constantI S_ 32 0#32),
    StableHlo.unary main_c_10 main_v36 (broadcastInDim S1024x192 ![] bcast_S_S1024x192 : (⟨S_, .i32⟩ : BufTy).Contents (Elt F) → (⟨S1024x192, .i32⟩ : BufTy).Contents (Elt F)),
    StableHlo.binary main_v28 main_v36 main_v37 (cmpi .slt : (⟨S1024x192, .i32⟩ : BufTy).Contents (Elt F) → (⟨S1024x192, .i32⟩ : BufTy).Contents (Elt F) → (⟨S1024x192, .i1⟩ : BufTy).Contents (Elt F)),
    StableHlo.nullary main_c_11 (constantI S_ 32 3#32),
    StableHlo.unary main_c_11 main_v38 (broadcastInDim S1024x192 ![] bcast_S_S1024x192 : (⟨S_, .i32⟩ : BufTy).Contents (Elt F) → (⟨S1024x192, .i32⟩ : BufTy).Contents (Elt F)),
    StableHlo.binary main_v28 main_v38 main_v39 (addi : (⟨S1024x192, .i32⟩ : BufTy).Contents (Elt F) → (⟨S1024x192, .i32⟩ : BufTy).Contents (Elt F) → (⟨S1024x192, .i32⟩ : BufTy).Contents (Elt F)),
    StableHlo.ternary main_v37 main_v39 main_v28 main_v40 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v40 main_v41 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg3 main_v41 main_v42 ((fun x i => Host.gather gather_S3x512_S1024x192x1_S1024x192x512_2_0_n_n_0_2_1512 x i) : (⟨S3x512, .f32⟩ : BufTy).Contents (Elt F) → (⟨S1024x192x1, .i32⟩ : BufTy).Contents (Elt F) → (⟨S1024x192x512, .f32⟩ : BufTy).Contents (Elt F)),
    StableHlo.binary main_v35 main_v42 main_v43 (addf : (⟨S1024x192x512, .f32⟩ : BufTy).Contents (Elt F) → (⟨S1024x192x512, .f32⟩ : BufTy).Contents (Elt F) → (⟨S1024x192x512, .f32⟩ : BufTy).Contents (Elt F)),
    StableHlo.nullary main_c_12 (constantI S_ 32 0#32),
    StableHlo.unary main_c_12 main_v44 (broadcastInDim S1024x192 ![] bcast_S_S1024x192 : (⟨S_, .i32⟩ : BufTy).Contents (Elt F) → (⟨S1024x192, .i32⟩ : BufTy).Contents (Elt F)),
    StableHlo.binary main_v26 main_v44 main_v45 (cmpi .slt : (⟨S1024x192, .i32⟩ : BufTy).Contents (Elt F) → (⟨S1024x192, .i32⟩ : BufTy).Contents (Elt F) → (⟨S1024x192, .i1⟩ : BufTy).Contents (Elt F)),
    StableHlo.nullary main_c_13 (constantI S_ 32 64#32),
    StableHlo.unary main_c_13 main_v46 (broadcastInDim S1024x192 ![] bcast_S_S1024x192 : (⟨S_, .i32⟩ : BufTy).Contents (Elt F) → (⟨S1024x192, .i32⟩ : BufTy).Contents (Elt F)),
    StableHlo.binary main_v26 main_v46 main_v47 (addi : (⟨S1024x192, .i32⟩ : BufTy).Contents (Elt F) → (⟨S1024x192, .i32⟩ : BufTy).Contents (Elt F) → (⟨S1024x192, .i32⟩ : BufTy).Contents (Elt F)),
    StableHlo.ternary main_v45 main_v47 main_v26 main_v48 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v48 main_v49 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg4 main_v49 main_v50 ((fun x i => Host.gather gather_S64x512_S1024x192x1_S1024x192x512_2_0_n_n_0_2_1512 x i) : (⟨S64x512, .f32⟩ : BufTy).Contents (Elt F) → (⟨S1024x192x1, .i32⟩ : BufTy).Contents (Elt F) → (⟨S1024x192x512, .f32⟩ : BufTy).Contents (Elt F)),
    StableHlo.binary main_v43 main_v50 main_v51 (addf : (⟨S1024x192x512, .f32⟩ : BufTy).Contents (Elt F) → (⟨S1024x192x512, .f32⟩ : BufTy).Contents (Elt F) → (⟨S1024x192x512, .f32⟩ : BufTy).Contents (Elt F)),
    StableHlo.unary main_v23 main_v52 (broadcastInDim S1024x192x1 ![0, 1] bcast_S1024x192_S1024x192x1_0_1 : (⟨S1024x192, .i1⟩ : BufTy).Contents (Elt F) → (⟨S1024x192x1, .i1⟩ : BufTy).Contents (Elt F)),
    StableHlo.nullary main_cst (constant S_ .f32 0x00000000#32),
    StableHlo.TRef.unary (.of main_cst : StableHlo.TRef sig ⟨S_, .f32⟩) main_call7.v0 id,
    StableHlo.TRef.unary (.of main_v52 : StableHlo.TRef sig ⟨S1024x192x1, .i1⟩) main_call7.v1 (broadcastInDim S1024x192x512 ![0, 1, 2] bcast_S1024x192x1_S1024x192x512_0_1_2),
    StableHlo.TRef.unary main_call7.v0 main_call7.v2 (broadcastInDim S1024x192x512 ![] bcast_S_S1024x192x512),
    StableHlo.TRef.ternary main_call7.v1 (.of main_v51 : StableHlo.TRef sig ⟨S1024x192x512, .f32⟩) main_call7.v2 main_call7.v3 select,
    StableHlo.binary main_arg0 main_v53 main_v54 (addf : (⟨S1024x192x512, .f32⟩ : BufTy).Contents (Elt F) → (⟨S1024x192x512, .f32⟩ : BufTy).Contents (Elt F) → (⟨S1024x192x512, .f32⟩ : BufTy).Contents (Elt F)),
    StableHlo.nullary main_cst_14 (constant S_ .f32 0x00000000#32),
    StableHlo.binary main_v54 main_cst_14 main_v55 ((fun x v => Host.reduceAdd x v reducesTo_S1024x192x512_S1024x192_d2 h_S_) : (⟨S1024x192x512, .f32⟩ : BufTy).Contents (Elt F) → (⟨S_, .f32⟩ : BufTy).Contents (Elt F) → (⟨S1024x192, .f32⟩ : BufTy).Contents (Elt F)),
    StableHlo.unary main_v55 main_v56 (broadcastInDim S1024x192x1 ![0, 1] bcast_S1024x192_S1024x192x1_0_1 : (⟨S1024x192, .f32⟩ : BufTy).Contents (Elt F) → (⟨S1024x192x1, .f32⟩ : BufTy).Contents (Elt F)),
    StableHlo.nullary main_cst_15 (constant S_ .f32 0x44000000#32),
    StableHlo.unary main_cst_15 main_v57 (broadcastInDim S1024x192x1 ![] bcast_S_S1024x192x1 : (⟨S_, .f32⟩ : BufTy).Contents (Elt F) → (⟨S1024x192x1, .f32⟩ : BufTy).Contents (Elt F)),
    StableHlo.binary main_v56 main_v57 main_v58 (Host.divf : (⟨S1024x192x1, .f32⟩ : BufTy).Contents (Elt F) → (⟨S1024x192x1, .f32⟩ : BufTy).Contents (Elt F) → (⟨S1024x192x1, .f32⟩ : BufTy).Contents (Elt F)),
    StableHlo.unary main_v58 main_v59 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v54 main_v59 main_v60 (subf : (⟨S1024x192x512, .f32⟩ : BufTy).Contents (Elt F) → (⟨S1024x192x512, .f32⟩ : BufTy).Contents (Elt F) → (⟨S1024x192x512, .f32⟩ : BufTy).Contents (Elt F)),
    StableHlo.binary main_v60 main_v60 main_v61 (mulf : (⟨S1024x192x512, .f32⟩ : BufTy).Contents (Elt F) → (⟨S1024x192x512, .f32⟩ : BufTy).Contents (Elt F) → (⟨S1024x192x512, .f32⟩ : BufTy).Contents (Elt F)),
    StableHlo.nullary main_cst_16 (constant S_ .f32 0x00000000#32),
    StableHlo.binary main_v61 main_cst_16 main_v62 ((fun x v => Host.reduceAdd x v reducesTo_S1024x192x512_S1024x192_d2 h_S_) : (⟨S1024x192x512, .f32⟩ : BufTy).Contents (Elt F) → (⟨S_, .f32⟩ : BufTy).Contents (Elt F) → (⟨S1024x192, .f32⟩ : BufTy).Contents (Elt F)),
    StableHlo.unary main_v62 main_v63 (broadcastInDim S1024x192x1 ![0, 1] bcast_S1024x192_S1024x192x1_0_1 : (⟨S1024x192, .f32⟩ : BufTy).Contents (Elt F) → (⟨S1024x192x1, .f32⟩ : BufTy).Contents (Elt F)),
    StableHlo.nullary main_cst_17 (constant S_ .f32 0x44000000#32),
    StableHlo.unary main_cst_17 main_v64 (broadcastInDim S1024x192x1 ![] bcast_S_S1024x192x1 : (⟨S_, .f32⟩ : BufTy).Contents (Elt F) → (⟨S1024x192x1, .f32⟩ : BufTy).Contents (Elt F)),
    StableHlo.binary main_v63 main_v64 main_v65 (Host.divf : (⟨S1024x192x1, .f32⟩ : BufTy).Contents (Elt F) → (⟨S1024x192x1, .f32⟩ : BufTy).Contents (Elt F) → (⟨S1024x192x1, .f32⟩ : BufTy).Contents (Elt F)),
    StableHlo.unary main_v58 main_v66 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v54 main_v66 main_v67 (subf : (⟨S1024x192x512, .f32⟩ : BufTy).Contents (Elt F) → (⟨S1024x192x512, .f32⟩ : BufTy).Contents (Elt F) → (⟨S1024x192x512, .f32⟩ : BufTy).Contents (Elt F)),
    StableHlo.nullary main_cst_18 (constant S_ .f32 0x3727C5AC#32),
    StableHlo.unary main_cst_18 main_v68 (broadcastInDim S1024x192x1 ![] bcast_S_S1024x192x1 : (⟨S_, .f32⟩ : BufTy).Contents (Elt F) → (⟨S1024x192x1, .f32⟩ : BufTy).Contents (Elt F)),
    StableHlo.binary main_v65 main_v68 main_v69 (addf : (⟨S1024x192x1, .f32⟩ : BufTy).Contents (Elt F) → (⟨S1024x192x1, .f32⟩ : BufTy).Contents (Elt F) → (⟨S1024x192x1, .f32⟩ : BufTy).Contents (Elt F)),
    StableHlo.unary main_v69 main_v70 (Host.rsqrt : (⟨S1024x192x1, .f32⟩ : BufTy).Contents (Elt F) → (⟨S1024x192x1, .f32⟩ : BufTy).Contents (Elt F)),
    StableHlo.unary main_v70 main_v71 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v67 main_v71 main_v72 (mulf : (⟨S1024x192x512, .f32⟩ : BufTy).Contents (Elt F) → (⟨S1024x192x512, .f32⟩ : BufTy).Contents (Elt F) → (⟨S1024x192x512, .f32⟩ : BufTy).Contents (Elt F)),
    StableHlo.unary main_arg5 main_v73 (broadcastInDim S1x1x512 ![2] bcast_S512_S1x1x512_2 : (⟨S512, .f32⟩ : BufTy).Contents (Elt F) → (⟨S1x1x512, .f32⟩ : BufTy).Contents (Elt F)),
    StableHlo.unary main_v73 main_v74 (broadcastInDim S1024x192x512 ![0, 1, 2] bcast_S1x1x512_S1024x192x512_0_1_2 : (⟨S1x1x512, .f32⟩ : BufTy).Contents (Elt F) → (⟨S1024x192x512, .f32⟩ : BufTy).Contents (Elt F)),
    StableHlo.binary main_v72 main_v74 main_v75 (mulf : (⟨S1024x192x512, .f32⟩ : BufTy).Contents (Elt F) → (⟨S1024x192x512, .f32⟩ : BufTy).Contents (Elt F) → (⟨S1024x192x512, .f32⟩ : BufTy).Contents (Elt F)),
    StableHlo.unary main_arg6 main_v76 (broadcastInDim S1x1x512 ![2] bcast_S512_S1x1x512_2 : (⟨S512, .f32⟩ : BufTy).Contents (Elt F) → (⟨S1x1x512, .f32⟩ : BufTy).Contents (Elt F)),
    StableHlo.unary main_v76 main_v77 (broadcastInDim S1024x192x512 ![0, 1, 2] bcast_S1x1x512_S1024x192x512_0_1_2 : (⟨S1x1x512, .f32⟩ : BufTy).Contents (Elt F) → (⟨S1024x192x512, .f32⟩ : BufTy).Contents (Elt F)),
    StableHlo.binary main_v75 main_v77 main_v78 (addf : (⟨S1024x192x512, .f32⟩ : BufTy).Contents (Elt F) → (⟨S1024x192x512, .f32⟩ : BufTy).Contents (Elt F) → (⟨S1024x192x512, .f32⟩ : BufTy).Contents (Elt F)),
    StableHlo.unary main_arg1 main_v79 (broadcastInDim S1024x192x1 ![0, 1] bcast_S1024x192_S1024x192x1_0_1 : (⟨S1024x192, .i32⟩ : BufTy).Contents (Elt F) → (⟨S1024x192x1, .i32⟩ : BufTy).Contents (Elt F)),
    StableHlo.unary main_v79 main_v80 (sitofp .f32 : (⟨S1024x192x1, .i32⟩ : BufTy).Contents (Elt F) → (⟨S1024x192x1, .f32⟩ : BufTy).Contents (Elt F)),
    StableHlo.unary main_v80 main_v81 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v78 main_v81 main_v82 (mulf : (⟨S1024x192x512, .f32⟩ : BufTy).Contents (Elt F) → (⟨S1024x192x512, .f32⟩ : BufTy).Contents (Elt F) → (⟨S1024x192x512, .f32⟩ : BufTy).Contents (Elt F)) ]

/-- The whole line. -/
abbrev ops : List (HloOp τ sig (Elt F)) :=
  [ StableHlo.nullary main_c (constantI S_ 32 0#32),
    StableHlo.unary main_c main_v0 (broadcastInDim S1024x192 ![] bcast_S_S1024x192 : (⟨S_, .i32⟩ : BufTy).Contents (Elt F) → (⟨S1024x192, .i32⟩ : BufTy).Contents (Elt F)),
    StableHlo.binary main_arg1 main_v0 main_v1 (cmpi .sgt : (⟨S1024x192, .i32⟩ : BufTy).Contents (Elt F) → (⟨S1024x192, .i32⟩ : BufTy).Contents (Elt F) → (⟨S1024x192, .i1⟩ : BufTy).Contents (Elt F)),
    StableHlo.nullary main_c_0 (constantI S_ 1 0#1),
    StableHlo.binary main_v1 main_c_0 main_v2 ((fun x v => Host.reduce IntOp.ori x v reducesTo_S1024x192_S1024_d1 h_S_) : (⟨S1024x192, .i1⟩ : BufTy).Contents (Elt F) → (⟨S_, .i1⟩ : BufTy).Contents (Elt F) → (⟨S1024, .i1⟩ : BufTy).Contents (Elt F)),
    StableHlo.TRef.nullary main_call0.v0 (iotaInDim S1024x192 32 1),
    StableHlo.TRef.nullary main_call0.c (constantI S_ 1 0#1),
    StableHlo.TRef.nullary main_call0.c_0 (constantI S_ 32 0#32),
    StableHlo.TRef.quaternary (.of main_v1 : StableHlo.TRef sig ⟨S1024x192, .i1⟩) main_call0.v0 main_call0.c main_call0.c_0 main_call0.v1_0 (fun x y u v j => (Host.reduce2 reducer_argmax_i1_i32 x y u v reducesTo_S1024x192_S1024_d1 h_S_ j).1),
    StableHlo.TRef.quaternary (.of main_v1 : StableHlo.TRef sig ⟨S1024x192, .i1⟩) main_call0.v0 main_call0.c main_call0.c_0 main_call0.v1_1 (fun x y u v j => (Host.reduce2 reducer_argmax_i1_i32 x y u v reducesTo_S1024x192_S1024_d1 h_S_ j).2),
    StableHlo.unary main_v1 main_v4 (Host.reverse [1] : (⟨S1024x192, .i1⟩ : BufTy).Contents (Elt F) → (⟨S1024x192, .i1⟩ : BufTy).Contents (Elt F)),
    StableHlo.TRef.nullary main_call1.v0 (iotaInDim S1024x192 32 1),
    StableHlo.TRef.nullary main_call1.c (constantI S_ 1 0#1),
    StableHlo.TRef.nullary main_call1.c_0 (constantI S_ 32 0#32),
    StableHlo.TRef.quaternary (.of main_v4 : StableHlo.TRef sig ⟨S1024x192, .i1⟩) main_call1.v0 main_call1.c main_call1.c_0 main_call1.v1_0 (fun x y u v j => (Host.reduce2 reducer_argmax_i1_i32 x y u v reducesTo_S1024x192_S1024_d1 h_S_ j).1),
    StableHlo.TRef.quaternary (.of main_v4 : StableHlo.TRef sig ⟨S1024x192, .i1⟩) main_call1.v0 main_call1.c main_call1.c_0 main_call1.v1_1 (fun x y u v j => (Host.reduce2 reducer_argmax_i1_i32 x y u v reducesTo_S1024x192_S1024_d1 h_S_ j).2),
    StableHlo.nullary main_c_1 (constantI S_ 32 192#32),
    StableHlo.unary main_c_1 main_v6 (broadcastInDim S1024 ![] bcast_S_S1024 : (⟨S_, .i32⟩ : BufTy).Contents (Elt F) → (⟨S1024, .i32⟩ : BufTy).Contents (Elt F)),
    StableHlo.binary main_v6 main_v5 main_v7 (subi : (⟨S1024, .i32⟩ : BufTy).Contents (Elt F) → (⟨S1024, .i32⟩ : BufTy).Contents (Elt F) → (⟨S1024, .i32⟩ : BufTy).Contents (Elt F)),
    StableHlo.nullary main_v8 (iotaInDim S192 32 0),
    StableHlo.unary main_v8 main_v9 (broadcastInDim S1x192 ![1] bcast_S192_S1x192_1 : (⟨S192, .i32⟩ : BufTy).Contents (Elt F) → (⟨S1x192, .i32⟩ : BufTy).Contents (Elt F)),
    StableHlo.unary main_v3 main_v10 (broadcastInDim S1024x1 ![0] bcast_S1024_S1024x1_0 : (⟨S1024, .i32⟩ : BufTy).Contents (Elt F) → (⟨S1024x1, .i32⟩ : BufTy).Contents (Elt F)),
    StableHlo.unary main_v9 main_v11 (broadcastInDim S1024x192 ![0, 1] bcast_S1x192_S1024x192_0_1 : (⟨S1x192, .i32⟩ : BufTy).Contents (Elt F) → (⟨S1024x192, .i32⟩ : BufTy).Contents (Elt F)),
    StableHlo.unary main_v10 main_v12 (broadcastInDim S1024x192 ![0, 1] bcast_S1024x1_S1024x192_0_1 : (⟨S1024x1, .i32⟩ : BufTy).Contents (Elt F) → (⟨S1024x192, .i32⟩ : BufTy).Contents (Elt F)),
    StableHlo.binary main_v11 main_v12 main_v13 (subi : (⟨S1024x192, .i32⟩ : BufTy).Contents (Elt F) → (⟨S1024x192, .i32⟩ : BufTy).Contents (Elt F) → (⟨S1024x192, .i32⟩ : BufTy).Contents (Elt F)),
    StableHlo.nullary main_c_2 (constantI S_ 32 0#32),
    StableHlo.unary main_c_2 main_v14 (broadcastInDim S1024x192 ![] bcast_S_S1024x192 : (⟨S_, .i32⟩ : BufTy).Contents (Elt F) → (⟨S1024x192, .i32⟩ : BufTy).Contents (Elt F)),
    StableHlo.binary main_v13 main_v14 main_v15 (cmpi .sge : (⟨S1024x192, .i32⟩ : BufTy).Contents (Elt F) → (⟨S1024x192, .i32⟩ : BufTy).Contents (Elt F) → (⟨S1024x192, .i1⟩ : BufTy).Contents (Elt F)),
    StableHlo.unary main_v7 main_v16 (broadcastInDim S1024x1 ![0] bcast_S1024_S1024x1_0 : (⟨S1024, .i32⟩ : BufTy).Contents (Elt F) → (⟨S1024x1, .i32⟩ : BufTy).Contents (Elt F)),
    StableHlo.unary main_v9 main_v17 (broadcastInDim S1024x192 ![0, 1] bcast_S1x192_S1024x192_0_1 : (⟨S1x192, .i32⟩ : BufTy).Contents (Elt F) → (⟨S1024x192, .i32⟩ : BufTy).Contents (Elt F)),
    StableHlo.unary main_v16 main_v18 (broadcastInDim S1024x192 ![0, 1] bcast_S1024x1_S1024x192_0_1 : (⟨S1024x1, .i32⟩ : BufTy).Contents (Elt F) → (⟨S1024x192, .i32⟩ : BufTy).Contents (Elt F)),
    StableHlo.binary main_v17 main_v18 main_v19 (cmpi .slt : (⟨S1024x192, .i32⟩ : BufTy).Contents (Elt F) → (⟨S1024x192, .i32⟩ : BufTy).Contents (Elt F) → (⟨S1024x192, .i1⟩ : BufTy).Contents (Elt F)),
    StableHlo.binary main_v15 main_v19 main_v20 (andi : (⟨S1024x192, .i1⟩ : BufTy).Contents (Elt F) → (⟨S1024x192, .i1⟩ : BufTy).Contents (Elt F) → (⟨S1024x192, .i1⟩ : BufTy).Contents (Elt F)),
    StableHlo.unary main_v2 main_v21 (broadcastInDim S1024x1 ![0] bcast_S1024_S1024x1_0 : (⟨S1024, .i1⟩ : BufTy).Contents (Elt F) → (⟨S1024x1, .i1⟩ : BufTy).Contents (Elt F)),
    StableHlo.unary main_v21 main_v22 (broadcastInDim S1024x192 ![0, 1] bcast_S1024x1_S1024x192_0_1 : (⟨S1024x1, .i1⟩ : BufTy).Contents (Elt F) → (⟨S1024x192, .i1⟩ : BufTy).Contents (Elt F)),
    StableHlo.binary main_v20 main_v22 main_v23 (andi : (⟨S1024x192, .i1⟩ : BufTy).Contents (Elt F) → (⟨S1024x192, .i1⟩ : BufTy).Contents (Elt F) → (⟨S1024x192, .i1⟩ : BufTy).Contents (Elt F)),
    StableHlo.nullary main_c_3 (constantI S_ 32 0#32),
    StableHlo.TRef.unary (.of main_c_3 : StableHlo.TRef sig ⟨S_, .i32⟩) main_call2.v0 id,
    StableHlo.TRef.unary main_call2.v0 main_call2.v1 (broadcastInDim S1024x192 ![] bcast_S_S1024x192),
    StableHlo.TRef.binary main_call2.v1 (.of main_v13 : StableHlo.TRef sig ⟨S1024x192, .i32⟩) main_call2.v2 maxsi,
    StableHlo.nullary main_c_4 (constantI S_ 32 3#32),
    StableHlo.TRef.unary (.of main_c_4 : StableHlo.TRef sig ⟨S_, .i32⟩) main_call3.v0 id,
    StableHlo.TRef.unary main_call3.v0 main_call3.v1 (broadcastInDim S1024x192 ![] bcast_S_S1024x192),
    StableHlo.TRef.binary (.of main_v24 : StableHlo.TRef sig ⟨S1024x192, .i32⟩) main_call3.v1 main_call3.v2 Host.divsi,
    StableHlo.TRef.unary (.of main_v24 : StableHlo.TRef sig ⟨S1024x192, .i32⟩) main_call3.v3 signi,
    StableHlo.TRef.unary main_call3.v0 main_call3.v4 signi,
    StableHlo.TRef.unary main_call3.v4 main_call3.v5 (broadcastInDim S1024x192 ![] bcast_S_S1024x192),
    StableHlo.TRef.binary main_call3.v3 main_call3.v5 main_call3.v6 (cmpi .ne),
    StableHlo.TRef.unary main_call3.v0 main_call3.v7 (broadcastInDim S1024x192 ![] bcast_S_S1024x192),
    StableHlo.TRef.binary (.of main_v24 : StableHlo.TRef sig ⟨S1024x192, .i32⟩) main_call3.v7 main_call3.v8 Host.remsi,
    StableHlo.TRef.nullary main_call3.c (constantI S_ 32 0#32),
    StableHlo.TRef.unary main_call3.c main_call3.v9 (broadcastInDim S1024x192 ![] bcast_S_S1024x192),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S1024x192 ![] bcast_S_S1024x192),
    StableHlo.TRef.binary main_call3.v2 main_call3.v12 main_call3.v13 subi,
    StableHlo.TRef.ternary (main_call3.v11 : StableHlo.TRef sig ⟨S1024x192, .i1⟩) (main_call3.v13 : StableHlo.TRef sig ⟨S1024x192, .i32⟩) (main_call3.v2 : StableHlo.TRef sig ⟨S1024x192, .i32⟩) main_call3.call0.v0 select,
    StableHlo.nullary main_c_5 (constantI S_ 32 0#32),
    StableHlo.TRef.unary (.of main_c_5 : StableHlo.TRef sig ⟨S_, .i32⟩) main_call4.v0 id,
    StableHlo.TRef.unary main_call4.v0 main_call4.v1 (broadcastInDim S1024x192 ![] bcast_S_S1024x192),
    StableHlo.TRef.ternary (.of main_v23 : StableHlo.TRef sig ⟨S1024x192, .i1⟩) (.of main_v25 : StableHlo.TRef sig ⟨S1024x192, .i32⟩) main_call4.v1 main_call4.v2 select,
    StableHlo.nullary main_c_6 (constantI S_ 32 3#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S1024x192 ![] bcast_S_S1024x192),
    StableHlo.TRef.binary (.of main_v24 : StableHlo.TRef sig ⟨S1024x192, .i32⟩) main_call5.v3 main_call5.v4 Host.remsi,
    StableHlo.TRef.nullary main_call5.c_1 (constantI S_ 32 0#32),
    StableHlo.TRef.unary main_call5.c_1 main_call5.v5 (broadcastInDim S1024x192 ![] bcast_S_S1024x192),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S1024x192 ![] bcast_S_S1024x192),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S1024x192 ![] bcast_S_S1024x192),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S1024x192 ![] bcast_S_S1024x192),
    StableHlo.TRef.binary main_call5.v4 main_call5.v13 main_call5.v14 addi,
    StableHlo.TRef.ternary main_call5.v12 main_call5.v14 main_call5.v4 main_call5.v15 select,
    StableHlo.nullary main_c_7 (constantI S_ 32 0#32),
    StableHlo.TRef.unary (.of main_c_7 : StableHlo.TRef sig ⟨S_, .i32⟩) main_call6.v0 id,
    StableHlo.TRef.unary main_call6.v0 main_call6.v1 (broadcastInDim S1024x192 ![] bcast_S_S1024x192),
    StableHlo.TRef.ternary (.of main_v23 : StableHlo.TRef sig ⟨S1024x192, .i1⟩) (.of main_v27 : StableHlo.TRef sig ⟨S1024x192, .i32⟩) main_call6.v1 main_call6.v2 select,
    StableHlo.nullary main_c_8 (constantI S_ 32 0#32),
    StableHlo.unary main_c_8 main_v29 (broadcastInDim S1024x192 ![] bcast_S_S1024x192 : (⟨S_, .i32⟩ : BufTy).Contents (Elt F) → (⟨S1024x192, .i32⟩ : BufTy).Contents (Elt F)),
    StableHlo.binary main_v26 main_v29 main_v30 (cmpi .slt : (⟨S1024x192, .i32⟩ : BufTy).Contents (Elt F) → (⟨S1024x192, .i32⟩ : BufTy).Contents (Elt F) → (⟨S1024x192, .i1⟩ : BufTy).Contents (Elt F)),
    StableHlo.nullary main_c_9 (constantI S_ 32 64#32),
    StableHlo.unary main_c_9 main_v31 (broadcastInDim S1024x192 ![] bcast_S_S1024x192 : (⟨S_, .i32⟩ : BufTy).Contents (Elt F) → (⟨S1024x192, .i32⟩ : BufTy).Contents (Elt F)),
    StableHlo.binary main_v26 main_v31 main_v32 (addi : (⟨S1024x192, .i32⟩ : BufTy).Contents (Elt F) → (⟨S1024x192, .i32⟩ : BufTy).Contents (Elt F) → (⟨S1024x192, .i32⟩ : BufTy).Contents (Elt F)),
    StableHlo.ternary main_v30 main_v32 main_v26 main_v33 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v33 main_v34 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg2 main_v34 main_v35 ((fun x i => Host.gather gather_S64x512_S1024x192x1_S1024x192x512_2_0_n_n_0_2_1512 x i) : (⟨S64x512, .f32⟩ : BufTy).Contents (Elt F) → (⟨S1024x192x1, .i32⟩ : BufTy).Contents (Elt F) → (⟨S1024x192x512, .f32⟩ : BufTy).Contents (Elt F)),
    StableHlo.nullary main_c_10 (constantI S_ 32 0#32),
    StableHlo.unary main_c_10 main_v36 (broadcastInDim S1024x192 ![] bcast_S_S1024x192 : (⟨S_, .i32⟩ : BufTy).Contents (Elt F) → (⟨S1024x192, .i32⟩ : BufTy).Contents (Elt F)),
    StableHlo.binary main_v28 main_v36 main_v37 (cmpi .slt : (⟨S1024x192, .i32⟩ : BufTy).Contents (Elt F) → (⟨S1024x192, .i32⟩ : BufTy).Contents (Elt F) → (⟨S1024x192, .i1⟩ : BufTy).Contents (Elt F)),
    StableHlo.nullary main_c_11 (constantI S_ 32 3#32),
    StableHlo.unary main_c_11 main_v38 (broadcastInDim S1024x192 ![] bcast_S_S1024x192 : (⟨S_, .i32⟩ : BufTy).Contents (Elt F) → (⟨S1024x192, .i32⟩ : BufTy).Contents (Elt F)),
    StableHlo.binary main_v28 main_v38 main_v39 (addi : (⟨S1024x192, .i32⟩ : BufTy).Contents (Elt F) → (⟨S1024x192, .i32⟩ : BufTy).Contents (Elt F) → (⟨S1024x192, .i32⟩ : BufTy).Contents (Elt F)),
    StableHlo.ternary main_v37 main_v39 main_v28 main_v40 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v40 main_v41 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg3 main_v41 main_v42 ((fun x i => Host.gather gather_S3x512_S1024x192x1_S1024x192x512_2_0_n_n_0_2_1512 x i) : (⟨S3x512, .f32⟩ : BufTy).Contents (Elt F) → (⟨S1024x192x1, .i32⟩ : BufTy).Contents (Elt F) → (⟨S1024x192x512, .f32⟩ : BufTy).Contents (Elt F)),
    StableHlo.binary main_v35 main_v42 main_v43 (addf : (⟨S1024x192x512, .f32⟩ : BufTy).Contents (Elt F) → (⟨S1024x192x512, .f32⟩ : BufTy).Contents (Elt F) → (⟨S1024x192x512, .f32⟩ : BufTy).Contents (Elt F)),
    StableHlo.nullary main_c_12 (constantI S_ 32 0#32),
    StableHlo.unary main_c_12 main_v44 (broadcastInDim S1024x192 ![] bcast_S_S1024x192 : (⟨S_, .i32⟩ : BufTy).Contents (Elt F) → (⟨S1024x192, .i32⟩ : BufTy).Contents (Elt F)),
    StableHlo.binary main_v26 main_v44 main_v45 (cmpi .slt : (⟨S1024x192, .i32⟩ : BufTy).Contents (Elt F) → (⟨S1024x192, .i32⟩ : BufTy).Contents (Elt F) → (⟨S1024x192, .i1⟩ : BufTy).Contents (Elt F)),
    StableHlo.nullary main_c_13 (constantI S_ 32 64#32),
    StableHlo.unary main_c_13 main_v46 (broadcastInDim S1024x192 ![] bcast_S_S1024x192 : (⟨S_, .i32⟩ : BufTy).Contents (Elt F) → (⟨S1024x192, .i32⟩ : BufTy).Contents (Elt F)),
    StableHlo.binary main_v26 main_v46 main_v47 (addi : (⟨S1024x192, .i32⟩ : BufTy).Contents (Elt F) → (⟨S1024x192, .i32⟩ : BufTy).Contents (Elt F) → (⟨S1024x192, .i32⟩ : BufTy).Contents (Elt F)),
    StableHlo.ternary main_v45 main_v47 main_v26 main_v48 (select : (⟨S1024x192, .i1⟩ : BufTy).Contents (Elt F) → (⟨S1024x192, .i32⟩ : BufTy).Contents (Elt F) → (⟨S1024x192, .i32⟩ : BufTy).Contents (Elt F) → (⟨S1024x192, .i32⟩ : BufTy).Contents (Elt F)),
    StableHlo.unary main_v48 main_v49 (broadcastInDim S1024x192x1 ![0, 1] bcast_S1024x192_S1024x192x1_0_1 : (⟨S1024x192, .i32⟩ : BufTy).Contents (Elt F) → (⟨S1024x192x1, .i32⟩ : BufTy).Contents (Elt F)),
    StableHlo.binary main_arg4 main_v49 main_v50 ((fun x i => Host.gather gather_S64x512_S1024x192x1_S1024x192x512_2_0_n_n_0_2_1512 x i) : (⟨S64x512, .f32⟩ : BufTy).Contents (Elt F) → (⟨S1024x192x1, .i32⟩ : BufTy).Contents (Elt F) → (⟨S1024x192x512, .f32⟩ : BufTy).Contents (Elt F)),
    StableHlo.binary main_v43 main_v50 main_v51 (addf : (⟨S1024x192x512, .f32⟩ : BufTy).Contents (Elt F) → (⟨S1024x192x512, .f32⟩ : BufTy).Contents (Elt F) → (⟨S1024x192x512, .f32⟩ : BufTy).Contents (Elt F)),
    StableHlo.unary main_v23 main_v52 (broadcastInDim S1024x192x1 ![0, 1] bcast_S1024x192_S1024x192x1_0_1 : (⟨S1024x192, .i1⟩ : BufTy).Contents (Elt F) → (⟨S1024x192x1, .i1⟩ : BufTy).Contents (Elt F)),
    StableHlo.nullary main_cst (constant S_ .f32 0x00000000#32),
    StableHlo.TRef.unary (.of main_cst : StableHlo.TRef sig ⟨S_, .f32⟩) main_call7.v0 id,
    StableHlo.TRef.unary (.of main_v52 : StableHlo.TRef sig ⟨S1024x192x1, .i1⟩) main_call7.v1 (broadcastInDim S1024x192x512 ![0, 1, 2] bcast_S1024x192x1_S1024x192x512_0_1_2),
    StableHlo.TRef.unary main_call7.v0 main_call7.v2 (broadcastInDim S1024x192x512 ![] bcast_S_S1024x192x512),
    StableHlo.TRef.ternary main_call7.v1 (.of main_v51 : StableHlo.TRef sig ⟨S1024x192x512, .f32⟩) main_call7.v2 main_call7.v3 select,
    StableHlo.binary main_arg0 main_v53 main_v54 (addf : (⟨S1024x192x512, .f32⟩ : BufTy).Contents (Elt F) → (⟨S1024x192x512, .f32⟩ : BufTy).Contents (Elt F) → (⟨S1024x192x512, .f32⟩ : BufTy).Contents (Elt F)),
    StableHlo.nullary main_cst_14 (constant S_ .f32 0x00000000#32),
    StableHlo.binary main_v54 main_cst_14 main_v55 ((fun x v => Host.reduceAdd x v reducesTo_S1024x192x512_S1024x192_d2 h_S_) : (⟨S1024x192x512, .f32⟩ : BufTy).Contents (Elt F) → (⟨S_, .f32⟩ : BufTy).Contents (Elt F) → (⟨S1024x192, .f32⟩ : BufTy).Contents (Elt F)),
    StableHlo.unary main_v55 main_v56 (broadcastInDim S1024x192x1 ![0, 1] bcast_S1024x192_S1024x192x1_0_1 : (⟨S1024x192, .f32⟩ : BufTy).Contents (Elt F) → (⟨S1024x192x1, .f32⟩ : BufTy).Contents (Elt F)),
    StableHlo.nullary main_cst_15 (constant S_ .f32 0x44000000#32),
    StableHlo.unary main_cst_15 main_v57 (broadcastInDim S1024x192x1 ![] bcast_S_S1024x192x1 : (⟨S_, .f32⟩ : BufTy).Contents (Elt F) → (⟨S1024x192x1, .f32⟩ : BufTy).Contents (Elt F)),
    StableHlo.binary main_v56 main_v57 main_v58 (Host.divf : (⟨S1024x192x1, .f32⟩ : BufTy).Contents (Elt F) → (⟨S1024x192x1, .f32⟩ : BufTy).Contents (Elt F) → (⟨S1024x192x1, .f32⟩ : BufTy).Contents (Elt F)),
    StableHlo.unary main_v58 main_v59 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v54 main_v59 main_v60 (subf : (⟨S1024x192x512, .f32⟩ : BufTy).Contents (Elt F) → (⟨S1024x192x512, .f32⟩ : BufTy).Contents (Elt F) → (⟨S1024x192x512, .f32⟩ : BufTy).Contents (Elt F)),
    StableHlo.binary main_v60 main_v60 main_v61 (mulf : (⟨S1024x192x512, .f32⟩ : BufTy).Contents (Elt F) → (⟨S1024x192x512, .f32⟩ : BufTy).Contents (Elt F) → (⟨S1024x192x512, .f32⟩ : BufTy).Contents (Elt F)),
    StableHlo.nullary main_cst_16 (constant S_ .f32 0x00000000#32),
    StableHlo.binary main_v61 main_cst_16 main_v62 ((fun x v => Host.reduceAdd x v reducesTo_S1024x192x512_S1024x192_d2 h_S_) : (⟨S1024x192x512, .f32⟩ : BufTy).Contents (Elt F) → (⟨S_, .f32⟩ : BufTy).Contents (Elt F) → (⟨S1024x192, .f32⟩ : BufTy).Contents (Elt F)),
    StableHlo.unary main_v62 main_v63 (broadcastInDim S1024x192x1 ![0, 1] bcast_S1024x192_S1024x192x1_0_1 : (⟨S1024x192, .f32⟩ : BufTy).Contents (Elt F) → (⟨S1024x192x1, .f32⟩ : BufTy).Contents (Elt F)),
    StableHlo.nullary main_cst_17 (constant S_ .f32 0x44000000#32),
    StableHlo.unary main_cst_17 main_v64 (broadcastInDim S1024x192x1 ![] bcast_S_S1024x192x1 : (⟨S_, .f32⟩ : BufTy).Contents (Elt F) → (⟨S1024x192x1, .f32⟩ : BufTy).Contents (Elt F)),
    StableHlo.binary main_v63 main_v64 main_v65 (Host.divf : (⟨S1024x192x1, .f32⟩ : BufTy).Contents (Elt F) → (⟨S1024x192x1, .f32⟩ : BufTy).Contents (Elt F) → (⟨S1024x192x1, .f32⟩ : BufTy).Contents (Elt F)),
    StableHlo.unary main_v58 main_v66 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v54 main_v66 main_v67 (subf : (⟨S1024x192x512, .f32⟩ : BufTy).Contents (Elt F) → (⟨S1024x192x512, .f32⟩ : BufTy).Contents (Elt F) → (⟨S1024x192x512, .f32⟩ : BufTy).Contents (Elt F)),
    StableHlo.nullary main_cst_18 (constant S_ .f32 0x3727C5AC#32),
    StableHlo.unary main_cst_18 main_v68 (broadcastInDim S1024x192x1 ![] bcast_S_S1024x192x1 : (⟨S_, .f32⟩ : BufTy).Contents (Elt F) → (⟨S1024x192x1, .f32⟩ : BufTy).Contents (Elt F)),
    StableHlo.binary main_v65 main_v68 main_v69 (addf : (⟨S1024x192x1, .f32⟩ : BufTy).Contents (Elt F) → (⟨S1024x192x1, .f32⟩ : BufTy).Contents (Elt F) → (⟨S1024x192x1, .f32⟩ : BufTy).Contents (Elt F)),
    StableHlo.unary main_v69 main_v70 (Host.rsqrt : (⟨S1024x192x1, .f32⟩ : BufTy).Contents (Elt F) → (⟨S1024x192x1, .f32⟩ : BufTy).Contents (Elt F)),
    StableHlo.unary main_v70 main_v71 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v67 main_v71 main_v72 (mulf : (⟨S1024x192x512, .f32⟩ : BufTy).Contents (Elt F) → (⟨S1024x192x512, .f32⟩ : BufTy).Contents (Elt F) → (⟨S1024x192x512, .f32⟩ : BufTy).Contents (Elt F)),
    StableHlo.unary main_arg5 main_v73 (broadcastInDim S1x1x512 ![2] bcast_S512_S1x1x512_2 : (⟨S512, .f32⟩ : BufTy).Contents (Elt F) → (⟨S1x1x512, .f32⟩ : BufTy).Contents (Elt F)),
    StableHlo.unary main_v73 main_v74 (broadcastInDim S1024x192x512 ![0, 1, 2] bcast_S1x1x512_S1024x192x512_0_1_2 : (⟨S1x1x512, .f32⟩ : BufTy).Contents (Elt F) → (⟨S1024x192x512, .f32⟩ : BufTy).Contents (Elt F)),
    StableHlo.binary main_v72 main_v74 main_v75 (mulf : (⟨S1024x192x512, .f32⟩ : BufTy).Contents (Elt F) → (⟨S1024x192x512, .f32⟩ : BufTy).Contents (Elt F) → (⟨S1024x192x512, .f32⟩ : BufTy).Contents (Elt F)),
    StableHlo.unary main_arg6 main_v76 (broadcastInDim S1x1x512 ![2] bcast_S512_S1x1x512_2 : (⟨S512, .f32⟩ : BufTy).Contents (Elt F) → (⟨S1x1x512, .f32⟩ : BufTy).Contents (Elt F)),
    StableHlo.unary main_v76 main_v77 (broadcastInDim S1024x192x512 ![0, 1, 2] bcast_S1x1x512_S1024x192x512_0_1_2 : (⟨S1x1x512, .f32⟩ : BufTy).Contents (Elt F) → (⟨S1024x192x512, .f32⟩ : BufTy).Contents (Elt F)),
    StableHlo.binary main_v75 main_v77 main_v78 (addf : (⟨S1024x192x512, .f32⟩ : BufTy).Contents (Elt F) → (⟨S1024x192x512, .f32⟩ : BufTy).Contents (Elt F) → (⟨S1024x192x512, .f32⟩ : BufTy).Contents (Elt F)),
    StableHlo.unary main_arg1 main_v79 (broadcastInDim S1024x192x1 ![0, 1] bcast_S1024x192_S1024x192x1_0_1 : (⟨S1024x192, .i32⟩ : BufTy).Contents (Elt F) → (⟨S1024x192x1, .i32⟩ : BufTy).Contents (Elt F)),
    StableHlo.unary main_v79 main_v80 (sitofp .f32 : (⟨S1024x192x1, .i32⟩ : BufTy).Contents (Elt F) → (⟨S1024x192x1, .f32⟩ : BufTy).Contents (Elt F)),
    StableHlo.unary main_v80 main_v81 (broadcastInDim S1024x192x512 ![0, 1, 2] bcast_S1024x192x1_S1024x192x512_0_1_2 : (⟨S1024x192x1, .f32⟩ : BufTy).Contents (Elt F) → (⟨S1024x192x512, .f32⟩ : BufTy).Contents (Elt F)),
    StableHlo.binary main_v78 main_v81 main_v82 (mulf : (⟨S1024x192x512, .f32⟩ : BufTy).Contents (Elt F) → (⟨S1024x192x512, .f32⟩ : BufTy).Contents (Elt F) → (⟨S1024x192x512, .f32⟩ : BufTy).Contents (Elt F)) ]

set_option maxRecDepth 16384 in
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub ..⟩

theorem ops_eq : (ops : List (HloOp τ sig (Elt F))) = opsA ++ opsB := rfl

end Cert.ReferenceIdeal.Line

end
-- ==== Proof.RefRun.lean ====
/- The reference program's run: its @main is the straight line of host operations listed in RefOps, so every weakly fair
   execution terminates with each buffer at the fold of the operations over the launch contents. -/
import proofs.«178360_j4140348473626_1_alg».proof.Proof.RefOps

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
/-- @main is that line: the called functions unfold at their calls, and both sides are one chain of host steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and each TensorCore buffer ends at the fold of the line's operations
    over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Folding two lines one after the other is folding their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.Line

end
-- ==== Proof.RefHeadInr.lean ====
/- After the first part of the reference program the in-range flag's buffer holds the in-range flag of the attention mask. -/
import proofs.«178360_j4140348473626_1_alg».proof.Proof.RefRun
import proofs.«178360_j4140348473626_1_alg».proof.Proof.Plumb

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.reverse in
set_option maxRecDepth 65536 in
set_option maxHeartbeats 4000000 in
/-- The first part's operations, composed, are the bookkeeping function written operation by operation. -/
theorem head_inRange (V : Valuation τ sig (Elt F)) :
    after opsA V (main_v23 : DevRef τ sig) = Cert.Plumb.inRange (V (main_arg1 : DevRef τ sig)) := by
  after_results_simp
  rfl

end Cert.ReferenceIdeal.Line

end
-- ==== Proof.RefHeadItem.lean ====
/- After the first part of the reference program the item index's buffer holds the item index of the attention mask. -/
import proofs.«178360_j4140348473626_1_alg».proof.Proof.RefRun
import proofs.«178360_j4140348473626_1_alg».proof.Proof.Plumb

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.reverse in
set_option maxRecDepth 65536 in
set_option maxHeartbeats 4000000 in
/-- The first part's operations, composed, are the bookkeeping function written operation by operation. -/
theorem head_itemIdx (V : Valuation τ sig (Elt F)) :
    after opsA V (main_v26 : DevRef τ sig) = Cert.Plumb.itemIdx (V (main_arg1 : DevRef τ sig)) := by
  after_results_simp
  rfl

end Cert.ReferenceIdeal.Line

end
-- ==== Proof.RefHeadLayer.lean ====
/- After the first part of the reference program the layer index's buffer holds the layer index of the attention mask. -/
import proofs.«178360_j4140348473626_1_alg».proof.Proof.RefRun
import proofs.«178360_j4140348473626_1_alg».proof.Proof.Plumb

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduce2 Host.reverse in
set_option maxRecDepth 65536 in
set_option maxHeartbeats 4000000 in
/-- The first part's operations, composed, are the bookkeeping function written operation by operation. -/
theorem head_layerIdx (V : Valuation τ sig (Elt F)) :
    after opsA V (main_v28 : DevRef τ sig) = Cert.Plumb.layerIdx (V (main_arg1 : DevRef τ sig)) := by
  after_results_simp
  rfl

end Cert.ReferenceIdeal.Line

end
-- ==== Proof.RefArgs.lean ====
/- Neither part of the reference program writes an argument buffer: after either, run from any contents, each argument
   buffer holds what it held. -/
import proofs.«178360_j4140348473626_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
theorem opsA_arg0 (V : Valuation τ sig (Elt F)) :
    after opsA V (main_arg0 : DevRef τ sig) = V (main_arg0 : DevRef τ sig) := by
  after_results_simp

set_option maxRecDepth 65536 in
set_option maxHeartbeats 4000000 in
theorem opsA_arg1 (V : Valuation τ sig (Elt F)) :
    after opsA V (main_arg1 : DevRef τ sig) = V (main_arg1 : DevRef τ sig) := by
  after_results_simp

set_option maxRecDepth 65536 in
set_option maxHeartbeats 4000000 in
theorem opsA_arg2 (V : Valuation τ sig (Elt F)) :
    after opsA V (main_arg2 : DevRef τ sig) = V (main_arg2 : DevRef τ sig) := by
  after_results_simp

set_option maxRecDepth 65536 in
set_option maxHeartbeats 4000000 in
theorem opsA_arg3 (V : Valuation τ sig (Elt F)) :
    after opsA V (main_arg3 : DevRef τ sig) = V (main_arg3 : DevRef τ sig) := by
  after_results_simp

set_option maxRecDepth 65536 in
set_option maxHeartbeats 4000000 in
theorem opsA_arg4 (V : Valuation τ sig (Elt F)) :
    after opsA V (main_arg4 : DevRef τ sig) = V (main_arg4 : DevRef τ sig) := by
  after_results_simp

set_option maxRecDepth 65536 in
set_option maxHeartbeats 4000000 in
theorem opsA_arg5 (V : Valuation τ sig (Elt F)) :
    after opsA V (main_arg5 : DevRef τ sig) = V (main_arg5 : DevRef τ sig) := by
  after_results_simp

set_option maxRecDepth 65536 in
set_option maxHeartbeats 4000000 in
theorem opsA_arg6 (V : Valuation τ sig (Elt F)) :
    after opsA V (main_arg6 : DevRef τ sig) = V (main_arg6 : DevRef τ sig) := by
  after_results_simp

set_option maxRecDepth 65536 in
set_option maxHeartbeats 4000000 in
theorem opsB_arg0 (V : Valuation τ sig (Elt F)) :
    after opsB V (main_arg0 : DevRef τ sig) = V (main_arg0 : DevRef τ sig) := by
  after_results_simp

set_option maxRecDepth 65536 in
set_option maxHeartbeats 4000000 in
theorem opsB_arg1 (V : Valuation τ sig (Elt F)) :
    after opsB V (main_arg1 : DevRef τ sig) = V (main_arg1 : DevRef τ sig) := by
  after_results_simp

set_option maxRecDepth 65536 in
set_option maxHeartbeats 4000000 in
theorem opsB_arg2 (V : Valuation τ sig (Elt F)) :
    after opsB V (main_arg2 : DevRef τ sig) = V (main_arg2 : DevRef τ sig) := by
  after_results_simp

set_option maxRecDepth 65536 in
set_option maxHeartbeats 4000000 in
theorem opsB_arg3 (V : Valuation τ sig (Elt F)) :
    after opsB V (main_arg3 : DevRef τ sig) = V (main_arg3 : DevRef τ sig) := by
  after_results_simp

set_option maxRecDepth 65536 in
set_option maxHeartbeats 4000000 in
theorem opsB_arg4 (V : Valuation τ sig (Elt F)) :
    after opsB V (main_arg4 : DevRef τ sig) = V (main_arg4 : DevRef τ sig) := by
  after_results_simp

set_option maxRecDepth 65536 in
set_option maxHeartbeats 4000000 in
theorem opsB_arg5 (V : Valuation τ sig (Elt F)) :
    after opsB V (main_arg5 : DevRef τ sig) = V (main_arg5 : DevRef τ sig) := by
  after_results_simp

set_option maxRecDepth 65536 in
set_option maxHeartbeats 4000000 in
theorem opsB_arg6 (V : Valuation τ sig (Elt F)) :
    after opsB V (main_arg6 : DevRef τ sig) = V (main_arg6 : DevRef τ sig) := by
  after_results_simp

end Cert.ReferenceIdeal.Line

end
-- ==== Proof.RefTail.lean ====
/- The second part of the reference program as one function of the arrays it reads: the argument arrays and the three
   arrays the index bookkeeping leaves (the in-range flag, the item index, the layer index). The operations are the
   program's, in its order: each index array made non-negative (the table height added where the index is
   negative), the three row lookups, their sum, the sum kept where the position is in range and zero elsewhere, the token
   embeddings added, the layer normalisation over the last axis (mean, centred values, mean of their squares, the
   reciprocal square root of that plus ε, scale, shift), and the product with the attention mask converted to float. -/
import proofs.«178360_j4140348473626_1_alg».proof.Proof.RefRun
import Idealize.ShloMosaic.PureOps.Ideal

noncomputable section

namespace Cert.ReferenceIdeal.Line

open Cert.ReferenceIdeal Cert.ReferenceIdeal.Gen Idealize.ShloMosaic Idealize.ShloMosaic.TcCoe Idealize.SL.Sem Idealize.ShloMosaic.StableHlo

/-- An index array made non-negative for a table of n rows: the index plus n where it is negative. -/
def wrapIdx (n : BitVec 32) (x : IVec S1024x192 32) : IVec S1024x192x1 32 :=
  broadcastInDim S1024x192x1 ![0, 1] bcast_S1024x192_S1024x192x1_0_1
    (select (cmpi .slt x (broadcastInDim S1024x192 ![] bcast_S_S1024x192 (constantI S_ 32 0#32)))
      (addi x (broadcastInDim S1024x192 ![] bcast_S_S1024x192 (constantI S_ 32 n))) x)

/-- The three looked-up rows summed. -/
def tailLooked (ip : FVec Ideal S64x512 .f32) (le : FVec Ideal S3x512 .f32) (td : FVec Ideal S64x512 .f32)
    (ii li : IVec S1024x192 32) : FVec Ideal S1024x192x512 .f32 :=
  addf (addf (Host.gather gather_S64x512_S1024x192x1_S1024x192x512_2_0_n_n_0_2_1512 ip (wrapIdx 64#32 ii))
      (Host.gather gather_S3x512_S1024x192x1_S1024x192x512_2_0_n_n_0_2_1512 le (wrapIdx 3#32 li)))
    (Host.gather gather_S64x512_S1024x192x1_S1024x192x512_2_0_n_n_0_2_1512 td (wrapIdx 64#32 ii))

/-- The enhanced token embeddings: the tokens plus the looked-up sum where in range, plus zero elsewhere. -/
def tailEnh (tok : FVec Ideal S1024x192x512 .f32) (ip : FVec Ideal S64x512 .f32) (le : FVec Ideal S3x512 .f32)
    (td : FVec Ideal S64x512 .f32) (inr : IVec S1024x192 1) (ii li : IVec S1024x192 32) : FVec Ideal S1024x192x512 .f32 :=
  addf tok
    (select
      (broadcastInDim S1024x192x512 ![0, 1, 2] bcast_S1024x192x1_S1024x192x512_0_1_2
        (broadcastInDim S1024x192x1 ![0, 1] bcast_S1024x192_S1024x192x1_0_1 inr))
      (tailLooked ip le td ii li)
      (broadcastInDim S1024x192x512 ![] bcast_S_S1024x192x512 (id (constant (F := Ideal) S_ .f32 0x00000000#32))))

/-- The mean over the last axis, kept as an axis of size one. -/
def tailMean (x : FVec Ideal S1024x192x512 .f32) : FVec Ideal S1024x192x1 .f32 :=
  Host.divf
    (broadcastInDim S1024x192x1 ![0, 1] bcast_S1024x192_S1024x192x1_0_1
      (Host.reduceAdd x (constant (F := Ideal) S_ .f32 0x00000000#32) reducesTo_S1024x192x512_S1024x192_d2 h_S_))
    (broadcastInDim S1024x192x1 ![] bcast_S_S1024x192x1 (constant (F := Ideal) S_ .f32 0x44000000#32))

/-- A row's values less the row's mean. -/
def tailCentred (x : FVec Ideal S1024x192x512 .f32) : FVec Ideal S1024x192x512 .f32 :=
  subf x (broadcastInDim S1024x192x512 ![0, 1, 2] bcast_S1024x192x1_S1024x192x512_0_1_2 (tailMean x))

/-- The layer normalisation of x with scale w and shift bias. -/
def tailNorm (x : FVec Ideal S1024x192x512 .f32) (w bias : FVec Ideal S512 .f32) : FVec Ideal S1024x192x512 .f32 :=
  addf
    (mulf
      (mulf (tailCentred x)
        (broadcastInDim S1024x192x512 ![0, 1, 2] bcast_S1024x192x1_S1024x192x512_0_1_2
          (Host.rsqrt
            (addf (tailMean (mulf (tailCentred x) (tailCentred x)))
              (broadcastInDim S1024x192x1 ![] bcast_S_S1024x192x1 (constant (F := Ideal) S_ .f32 0x3727C5AC#32))))))
      (broadcastInDim S1024x192x512 ![0, 1, 2] bcast_S1x1x512_S1024x192x512_0_1_2
        (broadcastInDim S1x1x512 ![2] bcast_S512_S1x1x512_2 w)))
    (broadcastInDim S1024x192x512 ![0, 1, 2] bcast_S1x1x512_S1024x192x512_0_1_2
      (broadcastInDim S1x1x512 ![2] bcast_S512_S1x1x512_2 bias))

/-- The second part's result. -/
def tail (tok : FVec Ideal S1024x192x512 .f32) (mask : IVec S1024x192 32) (ip : FVec Ideal S64x512 .f32)
    (le : FVec Ideal S3x512 .f32) (td : FVec Ideal S64x512 .f32) (w bias : FVec Ideal S512 .f32)
    (inr : IVec S1024x192 1) (ii li : IVec S1024x192 32) : FVec Ideal S1024x192x512 .f32 :=
  mulf (tailNorm (tailEnh tok ip le td inr ii li) w bias)
    (broadcastInDim S1024x192x512 ![0, 1, 2] bcast_S1024x192x1_S1024x192x512_0_1_2
      (sitofp .f32 (broadcastInDim S1024x192x1 ![0, 1] bcast_S1024x192_S1024x192x1_0_1 mask)))

set_option maxRecDepth 65536 in
set_option maxHeartbeats 4000000 in
/-- After the second part, run from any contents, the result buffer holds that function of the buffers it reads. -/
theorem tail_run (W : Valuation τ sig (Elt Ideal)) :
    after (opsB (F := Ideal)) W (main_v82 : DevRef τ sig)
      = tail (W (main_arg0 : DevRef τ sig)) (W (main_arg1 : DevRef τ sig)) (W (main_arg2 : DevRef τ sig))
          (W (main_arg3 : DevRef τ sig)) (W (main_arg4 : DevRef τ sig)) (W (main_arg5 : DevRef τ sig))
          (W (main_arg6 : DevRef τ sig)) (W (main_v23 : DevRef τ sig)) (W (main_v26 : DevRef τ sig))
          (W (main_v28 : DevRef τ sig)) := by
  after_results_simp
  rfl

end Cert.ReferenceIdeal.Line

end
-- ==== Proof.LibRowGather.lean ====
/- A row lookup read at an index, for any table height N, row length C and index grid [R, S].
   The gather that "table[idx]" of a two-axis table [N, C] at an integer array idx : [R, S] lowers to takes the start
   indices as [R, S, 1], collapses the table's row axis, keeps its column axis whole as the result's last axis, and clamps
   each start index, read signed, into [0, N − 1]. Proved here: result element (b, s, d) of that gather is the table at
   row min (idx[b, s, 0] read signed, negative read as 0) (N − 1) and column d (gather_row_apply), for the dimension
   numbers rowDims, whose side conditions are a hypothesis decided at a program's literal shapes. -/
import Idealize.ShloMosaic.PureOps.Ideal
import Idealize.ShloMosaic.Lib.ValueIdx

noncomputable section

namespace Cert.RowGather

open Idealize.ShloMosaic Idealize.ShloMosaic.ValueIdx

variable {α : Type}

/-- The dimension numbers of a row lookup: operand [N, C], start indices [R, S, 1], result [R, S, C]. -/
abbrev rowDims (N C R S : Nat)
    (wf : GatherDims.WF ⟨2, ![N, C]⟩ ⟨3, ![R, S, 1]⟩ ⟨3, ![R, S, C]⟩ [2] [0] [] [0] [] 2 ![1, C]) :
    GatherDims ⟨2, ![N, C]⟩ ⟨3, ![R, S, 1]⟩ ⟨3, ![R, S, C]⟩ where
  offsetDims := [2]
  collapsedSliceDims := [0]
  operandBatchingDims := []
  startIndicesBatchingDims := []
  startIndexMap := [0]
  indexVectorDim := 2
  sliceSizes := ![1, C]
  wf := wf

/-- The row lookup read at (b, s, d): the table at the start index idx[b, s, 0], read signed and clamped into
    [0, N − 1], and column d. -/
theorem gather_row_apply {N C R S w : Nat} (hN : 0 < N)
    (wf : GatherDims.WF ⟨2, ![N, C]⟩ ⟨3, ![R, S, 1]⟩ ⟨3, ![R, S, C]⟩ [2] [0] [] [0] [] 2 ![1, C])
    (x : (⟨2, ![N, C]⟩ : Shape).Idx → α) (idx : IVec ⟨3, ![R, S, 1]⟩ w) (b : Fin R) (s : Fin S) (d : Fin C) :
    Host.gather (rowDims N C R S wf) x idx (ix3 b s d)
      = x (ix2 ⟨min (idx (ix3 b s (0 : Fin 1))).toInt.toNat (N - 1), by omega⟩ d) := by
  unfold Host.gather
  congr 1
  funext a
  refine Fin.ext ?_
  match a with
  | ⟨0, _⟩ =>
    show (rowDims N C R S wf).start (ix3 b s d) idx 0 + (rowDims N C R S wf).batchCoord (ix3 b s d) 0
        + (rowDims N C R S wf).offCoord (ix3 b s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R S wf).startIndexMap from List.mem_singleton.mpr rfl)]
    have hsi : (rowDims N C R S wf).siIdx (ix3 b s d) ⟨List.idxOf (0 : Fin 2) (rowDims N C R S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show (rowDims N C R S wf).start (ix3 b s d) idx 1 + (rowDims N C R S wf).batchCoord (ix3 b s d) 1
        + (rowDims N C R S wf).offCoord (ix3 b s d) 1 = _
    rw [GatherDims.batchCoord_eq_zero _ _ _ List.not_mem_nil]
    unfold GatherDims.start
    rw [dif_neg (show (1 : Fin 2) ∉ (rowDims N C R S wf).startIndexMap from
      fun h => absurd (congrArg Fin.val (List.mem_singleton.mp h)) Nat.one_ne_zero)]
    simp only [Nat.add_zero, Nat.zero_add]
    rfl

end Cert.RowGather

end
-- ==== Proof.RefMath.lean ====
/- The second part of the reference program, read index by index, is the specification. At (b, s, d): every broadcast
   reads its operand at the coordinates it keeps; each row sum is the sum over the last coordinate; an index word below the
   table height is not negative, so the wrap of negative indices leaves it alone, and it is within the table, so the
   lookup's clamp leaves it alone too: the looked-up row is the row the word names. What remains is the same arithmetic on
   the extended reals on both sides. -/
import proofs.«178360_j4140348473626_1_alg».proof.Proof.Spec
import proofs.«178360_j4140348473626_1_alg».proof.Proof.RefTail
import proofs.«178360_j4140348473626_1_alg».proof.Proof.LibRowGather
import Idealize.ShloMosaic.PureOps.Ideal.Laws

noncomputable section

open scoped BigOperators

namespace Cert.ReferenceIdeal.Line

open Cert.ReferenceIdeal Cert.ReferenceIdeal.Gen Idealize.ShloMosaic Idealize.ShloMosaic.ValueIdx Cert.ItemLayer

/-! ## Broadcasts at an index -/

section Bcast
variable {α : Type}

/-- A broadcast scalar reads its one value everywhere. -/
theorem bc_scalar (t : Shape) (h : S_.BroadcastsInDim t (![] : Fin 0 → Fin t.rank)) (x : S_.Idx → α) (j : t.Idx) :
    broadcastInDim t ![] h x j = x ix0 := by
  unfold broadcastInDim
  exact congrArg x (funext fun a => a.elim0)

/-- [1024, 192] to [1024, 192, 1]: the new unit axis is ignored. -/
theorem bc_unit (x : S1024x192.Idx → α) (b : Fin 1024) (s : Fin 192) (k : Fin 1) :
    broadcastInDim S1024x192x1 ![0, 1] bcast_S1024x192_S1024x192x1_0_1 x (ix3 b s k) = x (ix2 b s) := by
  unfold broadcastInDim
  refine congrArg x (funext fun a => Fin.ext ?_)
  match a with
  | ⟨0, _⟩ => rfl
  | ⟨1, _⟩ => rfl

/-- [1024, 192, 1] to [1024, 192, 512]: the last coordinate is dropped to 0. -/
theorem bc_last (x : S1024x192x1.Idx → α) (b : Fin 1024) (s : Fin 192) (d : Fin 512) :
    broadcastInDim S1024x192x512 ![0, 1, 2] bcast_S1024x192x1_S1024x192x512_0_1_2 x (ix3 b s d) = x (ix3 b s (0 : Fin 1)) := by
  unfold broadcastInDim
  refine congrArg x (funext fun a => Fin.ext ?_)
  match a with
  | ⟨0, _⟩ => rfl
  | ⟨1, _⟩ => rfl
  | ⟨2, _⟩ => rfl

/-- [512] to [1, 1, 512] to [1024, 192, 512]: only the last coordinate is read. -/
theorem bc_feature (x : S512.Idx → α) (b : Fin 1024) (s : Fin 192) (d : Fin 512) :
    broadcastInDim S1024x192x512 ![0, 1, 2] bcast_S1x1x512_S1024x192x512_0_1_2
      (broadcastInDim S1x1x512 ![2] bcast_S512_S1x1x512_2 x) (ix3 b s d) = x (ix1 d) := by
  unfold broadcastInDim
  refine congrArg x (funext fun a => Fin.ext ?_)
  match a with
  | ⟨0, _⟩ => rfl

end Bcast

/-! ## Index words below the table height -/

/-- A word below 2³¹ read signed is the number it is read unsigned. -/
theorem toInt_small (v : BitVec 32) (hv : v.toNat < 2147483648) : v.toInt = (v.toNat : Int) := by
  unfold BitVec.toInt
  split <;> omega

/-- Such a word is not negative. -/
theorem slt_zero_small (v : BitVec 32) (hv : v.toNat < 2147483648) : IntOp.cmpi .slt v 0#32 = 0#1 := by
  have h : v.slt 0#32 = false := by
    unfold BitVec.slt
    rw [toInt_small v hv]
    simp
  unfold IntOp.cmpi
  simp only [h]
  rfl

/-- So the wrap of negative indices leaves it as it is. -/
theorem wrap_small (n v : BitVec 32) (hv : v.toNat < 2147483648) :
    Scalar.select (IntOp.cmpi .slt v 0#32) (IntOp.addi v n) v = v := by
  rw [slt_zero_small v hv]
  exact select_zero _ _

/-- A word below the table height N, read signed and clamped into [0, N − 1], is itself; written as the remainder
    modulo N, as the specification names a row. -/
theorem clamp_small (N : Nat) (v : BitVec 32) (hv : v.toNat < N) (hN : N ≤ 2147483648) :
    min v.toInt.toNat (N - 1) = v.toNat % N := by
  rw [toInt_small v (by omega), Int.toNat_natCast, Nat.mod_eq_of_lt hv]
  omega

/-- The wrapped index array at (b, s, 0) is the index word at (b, s), when that word is below 2³¹. -/
theorem wrapIdx_apply (n : BitVec 32) (x : IVec S1024x192 32) (b : Fin 1024) (s : Fin 192)
    (hx : (x (ix2 b s)).toNat < 2147483648) : wrapIdx n x (ix3 b s (0 : Fin 1)) = x (ix2 b s) := by
  unfold wrapIdx
  rw [bc_unit]
  exact wrap_small n _ hx

/-! ## The lookups -/

/-- A lookup in a table of 64 rows at a word below 64 reads the row the word names. -/
theorem gather64_apply (tab : FVec Ideal S64x512 .f32) (x : IVec S1024x192 32) (b : Fin 1024) (s : Fin 192) (d : Fin 512)
    (hx : (x (ix2 b s)).toNat < 64) :
    Host.gather gather_S64x512_S1024x192x1_S1024x192x512_2_0_n_n_0_2_1512 tab (wrapIdx 64#32 x) (ix3 b s d)
      = tab (ix2 (row64 (x (ix2 b s))) d) := by
  refine (Cert.RowGather.gather_row_apply (N := 64) (C := 512) (R := 1024) (S := 192) (by decide)
    gather_S64x512_S1024x192x1_S1024x192x512_2_0_n_n_0_2_1512_wf tab (wrapIdx 64#32 x) b s d).trans ?_
  refine congrArg (fun r : Fin 64 => tab (ix2 r d)) (Fin.ext ?_)
  show min (wrapIdx 64#32 x (ix3 b s (0 : Fin 1))).toInt.toNat (64 - 1) = (x (ix2 b s)).toNat % 64
  rw [wrapIdx_apply _ _ _ _ (by omega)]
  exact clamp_small 64 _ hx (by decide)

/-- A lookup in a table of 3 rows at a word below 3 reads the row the word names. -/
theorem gather3_apply (tab : FVec Ideal S3x512 .f32) (x : IVec S1024x192 32) (b : Fin 1024) (s : Fin 192) (d : Fin 512)
    (hx : (x (ix2 b s)).toNat < 3) :
    Host.gather gather_S3x512_S1024x192x1_S1024x192x512_2_0_n_n_0_2_1512 tab (wrapIdx 3#32 x) (ix3 b s d)
      = tab (ix2 (row3 (x (ix2 b s))) d) := by
  refine (Cert.RowGather.gather_row_apply (N := 3) (C := 512) (R := 1024) (S := 192) (by decide)
    gather_S3x512_S1024x192x1_S1024x192x512_2_0_n_n_0_2_1512_wf tab (wrapIdx 3#32 x) b s d).trans ?_
  refine congrArg (fun r : Fin 3 => tab (ix2 r d)) (Fin.ext ?_)
  show min (wrapIdx 3#32 x (ix3 b s (0 : Fin 1))).toInt.toNat (3 - 1) = (x (ix2 b s)).toNat % 3
  rw [wrapIdx_apply _ _ _ _ (by omega)]
  exact clamp_small 3 _ hx (by decide)

/-- The three looked-up rows summed, at (b, s, d). -/
theorem tailLooked_apply (ip : FVec Ideal S64x512 .f32) (le : FVec Ideal S3x512 .f32) (td : FVec Ideal S64x512 .f32)
    (ii li : IVec S1024x192 32) (b : Fin 1024) (s : Fin 192) (d : Fin 512)
    (hii : (ii (ix2 b s)).toNat < 64) (hli : (li (ix2 b s)).toNat < 3) :
    tailLooked ip le td ii li (ix3 b s d) = looked ip td le (ii (ix2 b s)) (li (ix2 b s)) d := by
  unfold tailLooked looked
  rw [addf_apply, addf_apply, gather64_apply ip ii b s d hii, gather3_apply le li b s d hli, gather64_apply td ii b s d hii]

/-! ## The enhanced embeddings -/

/-- The enhanced token embeddings at (b, s, d). -/
theorem tailEnh_apply (tok : FVec Ideal S1024x192x512 .f32) (ip : FVec Ideal S64x512 .f32) (le : FVec Ideal S3x512 .f32)
    (td : FVec Ideal S64x512 .f32) (inr : IVec S1024x192 1) (ii li : IVec S1024x192 32) (b : Fin 1024) (s : Fin 192) (d : Fin 512)
    (hii : (ii (ix2 b s)).toNat < 64) (hli : (li (ix2 b s)).toNat < 3) :
    tailEnh tok ip le td inr ii li (ix3 b s d) = enh tok ip td le ii li inr b s d := by
  unfold tailEnh enh
  rw [addf_apply, select_apply, bc_last, bc_unit, bc_scalar, tailLooked_apply ip le td ii li b s d hii hli]
  show tok (ix3 b s d) + (if inr (ix2 b s) = 1 then _ else Ideal.ofBits .f32 0x00000000#32) = _
  rw [Ideal.ofBits_zero_f32]

/-! ## The layer normalisation -/

/-- A row sum from zero, at (b, s): the sum over the last coordinate. -/
theorem rowSum_apply (x : FVec Ideal S1024x192x512 .f32) (b : Fin 1024) (s : Fin 192) :
    Host.reduceAdd x (constant (F := Ideal) S_ .f32 0x00000000#32) reducesTo_S1024x192x512_S1024x192_d2 h_S_ (ix2 b s)
      = ∑ k : Fin 512, x (ix3 b s k) := by
  have hr : S1024x192x512.Reduces [2] S1024x192 := by decide
  refine (Ideal.hostReduceAdd_single reducesTo_S1024x192x512_S1024x192_d2 hr x (Ideal.ofBits .f32 0x00000000#32) (ix2 b s)).trans ?_
  rw [Ideal.ofBits_zero_f32, zero_add]
  refine Finset.sum_congr rfl (fun k _ => congrArg x ?_)
  funext a
  refine Fin.ext ?_
  match a with
  | ⟨0, _⟩ => rfl
  | ⟨1, _⟩ => rfl
  | ⟨2, _⟩ => rfl

/-- The kept-axis mean at (b, s, 0) is the mean of the row. -/
theorem tailMean_apply (x : FVec Ideal S1024x192x512 .f32) (b : Fin 1024) (s : Fin 192) (k : Fin 1) :
    tailMean x (ix3 b s k) = mean (fun d => x (ix3 b s d)) := by
  unfold tailMean mean c512
  show Ideal.div _ _ = _
  rw [bc_unit, rowSum_apply, bc_scalar]
  rfl

/-- The centred values at (b, s, d). -/
theorem tailCentred_apply (x : FVec Ideal S1024x192x512 .f32) (b : Fin 1024) (s : Fin 192) (d : Fin 512) :
    tailCentred x (ix3 b s d) = centred (fun d => x (ix3 b s d)) d := by
  unfold tailCentred centred
  rw [subf_apply, bc_last, tailMean_apply]

/-- The layer normalisation at (b, s, d). -/
theorem tailNorm_apply (x : FVec Ideal S1024x192x512 .f32) (w bias : FVec Ideal S512 .f32) (b : Fin 1024) (s : Fin 192)
    (d : Fin 512) :
    tailNorm x w bias (ix3 b s d) = lnorm (fun d => x (ix3 b s d)) (w (ix1 d)) (bias (ix1 d)) d := by
  unfold tailNorm lnorm eps
  rw [addf_apply, mulf_apply, mulf_apply, bc_feature, bc_feature, bc_last, tailCentred_apply]
  show (_ * Ideal.rsqrt (tailMean (mulf (tailCentred x) (tailCentred x)) (ix3 b s (0 : Fin 1))
      + broadcastInDim S1024x192x1 ![] bcast_S_S1024x192x1 (constant (F := Ideal) S_ .f32 0x3727C5AC#32) (ix3 b s (0 : Fin 1))))
      * _ + _ = _
  rw [tailMean_apply, bc_scalar]
  have hsq : (fun k : Fin 512 => mulf (tailCentred x) (tailCentred x) (ix3 b s k))
      = fun k => centred (fun d => x (ix3 b s d)) k * centred (fun d => x (ix3 b s d)) k := by
    funext k
    rw [mulf_apply, tailCentred_apply]
  rw [hsq]
  rfl

/-! ## The whole second part -/

/-- The second part of the reference, as a function of the arrays it reads, is the specification, provided the item and
    layer index words name rows of their tables. -/
theorem tail_eq (tok : FVec Ideal S1024x192x512 .f32) (mask : IVec S1024x192 32) (ip : FVec Ideal S64x512 .f32)
    (le : FVec Ideal S3x512 .f32) (td : FVec Ideal S64x512 .f32) (w bias : FVec Ideal S512 .f32)
    (inr : IVec S1024x192 1) (ii li : IVec S1024x192 32)
    (hii : ∀ b s, (ii (ix2 b s)).toNat < 64) (hli : ∀ b s, (li (ix2 b s)).toNat < 3) :
    tail tok mask ip le td w bias inr ii li = G tok mask ip le td w bias ii li inr := by
  funext i
  obtain ⟨b, s, d, rfl⟩ : ∃ (b : Fin 1024) (s : Fin 192) (d : Fin 512), i = ix3 b s d := ⟨i 0, i 1, i 2, eq_ix3 i⟩
  rw [G_ix3]
  unfold tail outAt
  rw [mulf_apply, bc_last, sitofp_apply, bc_unit, tailNorm_apply]
  have he : (fun d : Fin 512 => tailEnh tok ip le td inr ii li (ix3 b s d)) = enh tok ip td le ii li inr b s := by
    funext d
    exact tailEnh_apply tok ip le td inr ii li b s d (hii b s) (hli b s)
  rw [he]

end Cert.ReferenceIdeal.Line

end
-- ==== Proof.RefValue.lean ====
/- The reference program's value: after its whole line of operations, run from any contents, the result buffer holds
   the specification's function of the argument arrays and of the index bookkeeping of the attention mask, and every
   argument buffer holds what it held. The line is its two parts one after the other: the first leaves the in-range flag,
   the item index and the layer index of the mask and writes no argument; the second, from those, computes the
   specification, the index words being rows of their tables. -/
import proofs.«178360_j4140348473626_1_alg».proof.Proof.Spec
import proofs.«178360_j4140348473626_1_alg».proof.Proof.PlumbFacts
import proofs.«178360_j4140348473626_1_alg».proof.Proof.RefHeadInr
import proofs.«178360_j4140348473626_1_alg».proof.Proof.RefHeadItem
import proofs.«178360_j4140348473626_1_alg».proof.Proof.RefHeadLayer
import proofs.«178360_j4140348473626_1_alg».proof.Proof.RefArgs
import proofs.«178360_j4140348473626_1_alg».proof.Proof.RefMath

noncomputable section

namespace Cert.ReferenceIdeal.Line

open Cert.ReferenceIdeal Cert.ReferenceIdeal.Gen Idealize.ShloMosaic Idealize.ShloMosaic.TcCoe Idealize.SL.Sem Idealize.ShloMosaic.StableHlo

set_option maxRecDepth 65536 in
set_option maxHeartbeats 1000000 in
/-- The result buffer after the whole line. -/
theorem result_eq (V : Valuation τ sig (Elt Ideal)) :
    after (ops (F := Ideal)) V (main_v82 : DevRef τ sig)
      = Cert.ItemLayer.G (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (Cert.Plumb.itemIdx (V (main_arg1 : DevRef τ sig))) (Cert.Plumb.layerIdx (V (main_arg1 : DevRef τ sig))) (Cert.Plumb.inRange (V (main_arg1 : DevRef τ sig))) := by
  refine (congrArg (fun l => after l V (main_v82 : DevRef τ sig)) (ops_eq (F := Ideal))).trans ?_
  refine (congrFun (after_append opsA opsB V) _).trans ?_
  refine (tail_run (after opsA V)).trans ?_
  rw [opsA_arg0 V, opsA_arg1 V, opsA_arg2 V, opsA_arg3 V, opsA_arg4 V, opsA_arg5 V, opsA_arg6 V,
    head_inRange V, head_itemIdx V, head_layerIdx V]
  exact tail_eq _ _ _ _ _ _ _ _ _ _ (fun b s => Cert.Plumb.itemIdx_lt _ b s) (fun b s => Cert.Plumb.layerIdx_lt _ b s)

/-- Argument 0 is not written. -/
theorem arg0_kept (V : Valuation τ sig (Elt Ideal)) :
    after (ops (F := Ideal)) V (main_arg0 : DevRef τ sig) = V (main_arg0 : DevRef τ sig) := by
  refine (congrArg (fun l => after l V (main_arg0 : DevRef τ sig)) (ops_eq (F := Ideal))).trans ?_
  refine (congrFun (after_append opsA opsB V) _).trans ?_
  exact (opsB_arg0 (after opsA V)).trans (opsA_arg0 V)

/-- Argument 1 is not written. -/
theorem arg1_kept (V : Valuation τ sig (Elt Ideal)) :
    after (ops (F := Ideal)) V (main_arg1 : DevRef τ sig) = V (main_arg1 : DevRef τ sig) := by
  refine (congrArg (fun l => after l V (main_arg1 : DevRef τ sig)) (ops_eq (F := Ideal))).trans ?_
  refine (congrFun (after_append opsA opsB V) _).trans ?_
  exact (opsB_arg1 (after opsA V)).trans (opsA_arg1 V)

/-- Argument 2 is not written. -/
theorem arg2_kept (V : Valuation τ sig (Elt Ideal)) :
    after (ops (F := Ideal)) V (main_arg2 : DevRef τ sig) = V (main_arg2 : DevRef τ sig) := by
  refine (congrArg (fun l => after l V (main_arg2 : DevRef τ sig)) (ops_eq (F := Ideal))).trans ?_
  refine (congrFun (after_append opsA opsB V) _).trans ?_
  exact (opsB_arg2 (after opsA V)).trans (opsA_arg2 V)

/-- Argument 3 is not written. -/
theorem arg3_kept (V : Valuation τ sig (Elt Ideal)) :
    after (ops (F := Ideal)) V (main_arg3 : DevRef τ sig) = V (main_arg3 : DevRef τ sig) := by
  refine (congrArg (fun l => after l V (main_arg3 : DevRef τ sig)) (ops_eq (F := Ideal))).trans ?_
  refine (congrFun (after_append opsA opsB V) _).trans ?_
  exact (opsB_arg3 (after opsA V)).trans (opsA_arg3 V)

/-- Argument 4 is not written. -/
theorem arg4_kept (V : Valuation τ sig (Elt Ideal)) :
    after (ops (F := Ideal)) V (main_arg4 : DevRef τ sig) = V (main_arg4 : DevRef τ sig) := by
  refine (congrArg (fun l => after l V (main_arg4 : DevRef τ sig)) (ops_eq (F := Ideal))).trans ?_
  refine (congrFun (after_append opsA opsB V) _).trans ?_
  exact (opsB_arg4 (after opsA V)).trans (opsA_arg4 V)

/-- Argument 5 is not written. -/
theorem arg5_kept (V : Valuation τ sig (Elt Ideal)) :
    after (ops (F := Ideal)) V (main_arg5 : DevRef τ sig) = V (main_arg5 : DevRef τ sig) := by
  refine (congrArg (fun l => after l V (main_arg5 : DevRef τ sig)) (ops_eq (F := Ideal))).trans ?_
  refine (congrFun (after_append opsA opsB V) _).trans ?_
  exact (opsB_arg5 (after opsA V)).trans (opsA_arg5 V)

/-- Argument 6 is not written. -/
theorem arg6_kept (V : Valuation τ sig (Elt Ideal)) :
    after (ops (F := Ideal)) V (main_arg6 : DevRef τ sig) = V (main_arg6 : DevRef τ sig) := by
  refine (congrArg (fun l => after l V (main_arg6 : DevRef τ sig)) (ops_eq (F := Ideal))).trans ?_
  refine (congrFun (after_append opsA opsB V) _).trans ?_
  exact (opsB_arg6 (after opsA V)).trans (opsA_arg6 V)

end Cert.ReferenceIdeal.Line

end
-- ==== Proof.lean ====
/- The certificate: the kernel (a Pallas layer-normalised sum of token embeddings with item-position, layer and temporal
   embeddings looked up by one-hot matrix products) against its jnp reference (the same lookups as row gathers), equal on the
   extended reals.

   Both programs first run the same integer bookkeeping on the attention mask (Plumb): per row the first kept position, each
   position's offset from it, whether it lies in the kept stretch, and from the clipped offset the item index (// 3) and the
   layer index (% 3). The item index is below 64 and the layer index below 3 at every position (PlumbFacts), so the kernel's
   one-hot weighted sums of table rows and the reference's clamped row gathers name the same rows; the in-range flag as a 0/1
   factor is the reference's where(·, ·, 0); (itemPos + temporal) + layer = (itemPos + layer) + temporal; after that the two
   layer normalisations are one formula (two row sums divided by 512, the reciprocal square root of variance + ε, scale, shift),
   and both multiply by the mask converted to a float. The common value is Spec's G.

   Kernel side: the generated frame proof gives termination and the argument arrays unchanged for both the word-level and
   the idealized kernel; its run, with the output array named, is read block by block (KernelPay1, KernelPay2, KernelPoint) and
   the 128 blocks tile the result (KernelArray). Reference side: its @main is a straight line of host operations (RefOps,
   RefRun), folded to the specification (RefValue). The ideal pass rewrote nothing, so "preserves" is trivial. -/
import proofs.«178360_j4140348473626_1_alg».proof.Defs
import proofs.«178360_j4140348473626_1_alg».proof.Proof.Gen.Kernel
import proofs.«178360_j4140348473626_1_alg».proof.Proof.Gen.Kernel.Skeleton
import proofs.«178360_j4140348473626_1_alg».proof.Proof.Gen.Kernel.Launch
import proofs.«178360_j4140348473626_1_alg».proof.Proof.Gen.Kernel.Points
import proofs.«178360_j4140348473626_1_alg».proof.Proof.Gen.Kernel.Frame
import proofs.«178360_j4140348473626_1_alg».proof.Proof.Gen.KernelIdeal
import proofs.«178360_j4140348473626_1_alg».proof.Proof.Gen.KernelIdeal.Skeleton
import proofs.«178360_j4140348473626_1_alg».proof.Proof.Gen.KernelIdeal.Launch
import proofs.«178360_j4140348473626_1_alg».proof.Proof.Gen.KernelIdeal.Points
import proofs.«178360_j4140348473626_1_alg».proof.Proof.Gen.KernelIdeal.Frame
import proofs.«178360_j4140348473626_1_alg».proof.Proof.Gen.ReferenceIdeal
import proofs.«178360_j4140348473626_1_alg».proof.Proof.Gen.Pre_finite_inputs
import proofs.«178360_j4140348473626_1_alg».proof.Proof.KernelArray
import proofs.«178360_j4140348473626_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs, and no operation of its line writes an argument. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Line.arg0_kept _),
       (h c Cert.ReferenceIdeal.main_arg1).trans (Cert.ReferenceIdeal.Line.arg1_kept _),
       (h c Cert.ReferenceIdeal.main_arg2).trans (Cert.ReferenceIdeal.Line.arg2_kept _),
       (h c Cert.ReferenceIdeal.main_arg3).trans (Cert.ReferenceIdeal.Line.arg3_kept _),
       (h c Cert.ReferenceIdeal.main_arg4).trans (Cert.ReferenceIdeal.Line.arg4_kept _),
       (h c Cert.ReferenceIdeal.main_arg5).trans (Cert.ReferenceIdeal.Line.arg5_kept _),
       (h c Cert.ReferenceIdeal.main_arg6).trans (Cert.ReferenceIdeal.Line.arg6_kept _)⟩)
    (Cert.ReferenceIdeal.Line.run_line (F := Ideal) m ρ)

/-- The ideal pass rewrote nothing. -/
theorem preserves : Cert.preserves_Kernel_KernelIdeal := trivial

/-- From memories agreeing on the arguments both idealized programs end with the specification's array of those arguments. -/
theorem algebraic : Cert.algebraic_KernelIdeal_ReferenceIdeal := by
  intro m ρ m' ρ' _ hagree
  refine ⟨fun c => Cert.KernelIdeal.Whole.Gk m c, Cert.KernelIdeal.Whole.run m ρ, ?_⟩
  refine (θ_run Cert.ReferenceIdeal.defs _ _).mono (fun r h c => ?_) (Cert.ReferenceIdeal.Line.run_line (F := Ideal) m' ρ')
  obtain ⟨a0, a1, a2, a3, a4, a5, a6⟩ := hagree c
  refine ⟨?_,
    (h c Cert.ReferenceIdeal.main_arg0).trans (Cert.ReferenceIdeal.Line.arg0_kept _),
    (h c Cert.ReferenceIdeal.main_arg1).trans (Cert.ReferenceIdeal.Line.arg1_kept _),
    (h c Cert.ReferenceIdeal.main_arg2).trans (Cert.ReferenceIdeal.Line.arg2_kept _),
    (h c Cert.ReferenceIdeal.main_arg3).trans (Cert.ReferenceIdeal.Line.arg3_kept _),
    (h c Cert.ReferenceIdeal.main_arg4).trans (Cert.ReferenceIdeal.Line.arg4_kept _),
    (h c Cert.ReferenceIdeal.main_arg5).trans (Cert.ReferenceIdeal.Line.arg5_kept _),
    (h c Cert.ReferenceIdeal.main_arg6).trans (Cert.ReferenceIdeal.Line.arg6_kept _)⟩
  refine (h c Cert.ReferenceIdeal.main_v82).trans ((Cert.ReferenceIdeal.Line.result_eq _).trans ?_)
  unfold Cert.KernelIdeal.Whole.Gk
  beta_reduce
  rw [← a0, ← a1, ← a2, ← a3, ← a4, ← a5, ← a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
